-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S256x128 : Shape := ⟨2, ![256, 128]⟩
abbrev S384x128 : Shape := ⟨2, ![384, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S384x128 : S_.BroadcastsInDim S384x128 (![] : Fin 0 → Fin S384x128.rank)
  reducesTo_S384x128_S_d0_1 : S384x128.ReducesTo [0, 1] S_

variable [Facts]

def fn_part3 {F : FTy → Type} [FloatOps F] (main_arg13 : FVec F S384x128 .f32) (main_arg14 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S384x128 .f32 := Host.absf main_arg13
  let main_cst_20 : FVec F S_ .f32 := constant S_ .f32 0x7F800000#32
  let main_v55 : FVec F S384x128 .f32 := broadcastInDim S384x128 ![] bcast_S_S384x128 main_cst_20
  let main_v56 : IVec S384x128 1 := cmpf .olt main_v54 main_v55
  let main_c_21 : IVec S_ 1 := constantI S_ 1 1#1
  let main_v57 : IVec S_ 1 := (fun x v => Host.reduce IntOp.andi x v reducesTo_S384x128_S_d0_1 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  main_v63

def fn_part2 {F : FTy → Type} [FloatOps F] (main_arg9 : FVec F S256x128 .f32) (main_arg10 : FVec F S128 .f32) (main_arg11 : FVec F S128x128 .f32) (main_arg12 : FVec F S128 .f32) (main_arg13 : FVec F S384x128 .f32) (main_arg14 : FVec F S128 .f32) (main_v33 : IVec S_ 1) : IVec S_ 1 :=
  let main_v34 : FVec F S256x128 .f32 := Host.absf main_arg9
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_v48 main_v49 main_v50

def fn_part1 {F : FTy → Type} [FloatOps F] (main_arg6 : FVec F S128 .f32) (main_arg7 : FVec F S128x128 .f32) (main_arg8 : FVec F S128 .f32) (main_arg9 : FVec F S256x128 .f32) (main_arg10 : FVec F S128 .f32) (main_arg11 : FVec F S128x128 .f32) (main_arg12 : FVec F S128 .f32) (main_arg13 : FVec F S384x128 .f32) (main_arg14 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S50000x128 .f32) (main_arg1 : IVec S800000 32) (main_arg2 : IVec S800000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S256x128 .f32) (main_arg10 : FVec F S128 .f32) (main_arg11 : FVec F S128x128 .f32) (main_arg12 : FVec F S128 .f32) (main_arg13 : FVec F S384x128 .f32) (main_arg14 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_v13 main_v16
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S256x128 : Shape := ⟨2, ![256, 128]⟩
abbrev S384x128 : Shape := ⟨2, ![384, 128]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S2000x128 : Shape := ⟨2, ![2000, 128]⟩
abbrev S2000x1 : Shape := ⟨2, ![2000, 1]⟩
abbrev S50000x256 : Shape := ⟨2, ![50000, 256]⟩
abbrev S2000x256 : Shape := ⟨2, ![2000, 256]⟩
abbrev S50000x384 : Shape := ⟨2, ![50000, 384]⟩
abbrev S2000x384 : Shape := ⟨2, ![2000, 384]⟩

abbrev nBuf : Space → Nat
  | .hbm => 101
  | .vmem => 42
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S256x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S384x128, .f32⟩
  | .hbm, ⟨14, _⟩ => ⟨S128, .f32⟩
  | .hbm, ⟨15, _⟩ => ⟨S_, .f32⟩
  | .hbm, ⟨16, _⟩ => ⟨S800000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S800000x1, .i32⟩
  | .hbm, ⟨28, _⟩ => ⟨S50000, .f32⟩
  | .hbm, ⟨29, _⟩ => ⟨S_, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S50000x1, .f32⟩
  | .hbm, ⟨37, _⟩ => ⟨S_, .f32⟩
  | .hbm, ⟨38, _⟩ => ⟨S50000, .f32⟩
  | .hbm, ⟨39, _⟩ => ⟨S50000, .f32⟩
  | .hbm, ⟨40, _⟩ => ⟨S50000x1, .f32⟩
  | .hbm, ⟨41, _⟩ => ⟨S_, .f32⟩
  | .hbm, ⟨42, _⟩ => ⟨S50000, .f32⟩
  | .hbm, ⟨43, _⟩ => ⟨S50000, .f32⟩
  | .hbm, ⟨44, _⟩ => ⟨S50000x1, .f32⟩
  | .hbm, ⟨45, _⟩ => ⟨S50000x128, .f32⟩
  | .hbm, ⟨46, _⟩ => ⟨S50000x128, .f32⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S800000x128, .f32⟩
  | .hbm, ⟨56, _⟩ => ⟨S_, .f32⟩
  | .hbm, ⟨57, _⟩ => ⟨S50000x128, .f32⟩
  | .hbm, ⟨58, _⟩ => ⟨S800000x1, .i32⟩
  | .hbm, ⟨59, _⟩ => ⟨S50000x128, .f32⟩
  | .hbm, ⟨60, _⟩ => ⟨S1x128, .f32⟩
  | .hbm, ⟨61, _⟩ => ⟨S1x128, .f32⟩
  | .hbm, ⟨62, _⟩ => ⟨S50000x128, .f32⟩
  | .hbm, ⟨63, _⟩ => ⟨S50000x128, .f32⟩
  | .hbm, ⟨64, _⟩ => ⟨S50000x128, .f32⟩
  | .hbm, ⟨65, _⟩ => ⟨S_, .i32⟩
  | .hbm, ⟨66, _⟩ => ⟨S800000, .i32⟩
  | .hbm, ⟨67, _⟩ => ⟨S800000, .i1⟩
  | .hbm, ⟨68, _⟩ => ⟨S_, .i32⟩
  | .hbm, ⟨69, _⟩ => ⟨S800000, .i32⟩
  | .hbm, ⟨70, _⟩ => ⟨S800000, .i32⟩
  | .hbm, ⟨71, _⟩ => ⟨S800000, .i32⟩
  | .hbm, ⟨72, _⟩ => ⟨S800000x1, .i32⟩
  | .hbm, ⟨73, _⟩ => ⟨S800000x128, .f32⟩
  | .hbm, ⟨74, _⟩ => ⟨S_, .f32⟩
  | .hbm, ⟨75, _⟩ => ⟨S50000x128, .f32⟩
  | .hbm, ⟨76, _⟩ => ⟨S800000x1, .i32⟩
  | .hbm, ⟨77, _⟩ => ⟨S50000x128, .f32⟩
  | .hbm, ⟨78, _⟩ => ⟨S50000x256, .f32⟩
  | .hbm, ⟨79, _⟩ => ⟨S1x128, .f32⟩
  | .hbm, ⟨80, _⟩ => ⟨S1x128, .f32⟩
  | .hbm, ⟨81, _⟩ => ⟨S50000x128, .f32⟩
  | .hbm, ⟨82, _⟩ => ⟨S50000x128, .f32⟩
  | .hbm, ⟨83, _⟩ => ⟨S50000x128, .f32⟩
  | .hbm, ⟨84, _⟩ => ⟨S_, .i32⟩
  | .hbm, ⟨85, _⟩ => ⟨S800000, .i32⟩
  | .hbm, ⟨86, _⟩ => ⟨S800000, .i1⟩
  | .hbm, ⟨87, _⟩ => ⟨S_, .i32⟩
  | .hbm, ⟨88, _⟩ => ⟨S800000, .i32⟩
  | .hbm, ⟨89, _⟩ => ⟨S800000, .i32⟩
  | .hbm, ⟨90, _⟩ => ⟨S800000, .i32⟩
  | .hbm, ⟨91, _⟩ => ⟨S800000x1, .i32⟩
  | .hbm, ⟨92, _⟩ => ⟨S800000x128, .f32⟩
  | .hbm, ⟨93, _⟩ => ⟨S_, .f32⟩
  | .hbm, ⟨94, _⟩ => ⟨S50000x128, .f32⟩
  | .hbm, ⟨95, _⟩ => ⟨S800000x1, .i32⟩
  | .hbm, ⟨96, _⟩ => ⟨S50000x128, .f32⟩
  | .hbm, ⟨97, _⟩ => ⟨S50000x384, .f32⟩
  | .hbm, ⟨98, _⟩ => ⟨S1x128, .f32⟩
  | .hbm, ⟨99, _⟩ => ⟨S1x128, .f32⟩
  | .hbm, ⟨100, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S128x128, .f32⟩
  | .local _ .vmem, ⟨5, _⟩ => ⟨S1x128, .f32⟩
  | .local _ .vmem, ⟨6, _⟩ => ⟨S2000x128, .f32⟩
  | .local _ .vmem, ⟨7, _⟩ => ⟨S2000x128, .f32⟩
  | .local _ .vmem, ⟨8, _⟩ => ⟨S128x128, .f32⟩
  | .local _ .vmem, ⟨9, _⟩ => ⟨S1x128, .f32⟩
  | .local _ .vmem, ⟨10, _⟩ => ⟨S2000x1, .f32⟩
  | .local _ .vmem, ⟨11, _⟩ => ⟨S2000x1, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x1, .f32⟩
  | .local _ .vmem, ⟨17, _⟩ => ⟨S2000x1, .f32⟩
  | .local _ .vmem, ⟨18, _⟩ => ⟨S128x128, .f32⟩
  | .local _ .vmem, ⟨19, _⟩ => ⟨S1x128, .f32⟩
  | .local _ .vmem, ⟨20, _⟩ => ⟨S2000x256, .f32⟩
  | .local _ .vmem, ⟨21, _⟩ => ⟨S2000x256, .f32⟩
  | .local _ .vmem, ⟨22, _⟩ => ⟨S256x128, .f32⟩
  | .local _ .vmem, ⟨23, _⟩ => ⟨S1x128, .f32⟩
  | .local _ .vmem, ⟨24, _⟩ => ⟨S2000x1, .f32⟩
  | .local _ .vmem, ⟨25, _⟩ => ⟨S2000x1, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S2000x1, .f32⟩
  | .local _ .vmem, ⟨31, _⟩ => ⟨S2000x1, .f32⟩
  | .local _ .vmem, ⟨32, _⟩ => ⟨S128x128, .f32⟩
  | .local _ .vmem, ⟨33, _⟩ => ⟨S1x128, .f32⟩
  | .local _ .vmem, ⟨34, _⟩ => ⟨S2000x384, .f32⟩
  | .local _ .vmem, ⟨35, _⟩ => ⟨S2000x384, .f32⟩
  | .local _ .vmem, ⟨36, _⟩ => ⟨S384x128, .f32⟩
  | .local _ .vmem, ⟨37, _⟩ => ⟨S1x128, .f32⟩
  | .local _ .vmem, ⟨38, _⟩ => ⟨S2000x1, .f32⟩
  | .local _ .vmem, ⟨39, _⟩ => ⟨S2000x1, .f32⟩
  | .local _ .vmem, ⟨40, _⟩ => ⟨S2000x128, .f32⟩
  | .local _ .vmem, ⟨41, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_cst_0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst_1 : Ref sig .tc := ⟨.hbm, 21, rfl⟩
abbrev main_call0_v0 : Ref sig .tc := ⟨.hbm, 22, rfl⟩
abbrev main_call0_v1 : Ref sig .tc := ⟨.hbm, 23, rfl⟩
abbrev main_v4 : Ref sig .tc := ⟨.hbm, 24, rfl⟩
abbrev main_cst_2 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_cst_3 : Ref sig .tc := ⟨.hbm, 29, rfl⟩
abbrev main_call1_v0 : Ref sig .tc := ⟨.hbm, 30, rfl⟩
abbrev main_call1_v1 : Ref sig .tc := ⟨.hbm, 31, rfl⟩
abbrev main_v8 : Ref sig .tc := ⟨.hbm, 32, rfl⟩
abbrev main_cst_4 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_cst_5 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_cst_6 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_c : Ref sig .tc := ⟨.hbm, 47, rfl⟩
abbrev main_v20 : Ref sig .tc := ⟨.hbm, 48, rfl⟩
abbrev main_v21 : Ref sig .tc := ⟨.hbm, 49, rfl⟩
abbrev main_c_7 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_cst_8 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_c_9 : Ref sig .tc := ⟨.hbm, 65, rfl⟩
abbrev main_v35 : Ref sig .tc := ⟨.hbm, 66, rfl⟩
abbrev main_v36 : Ref sig .tc := ⟨.hbm, 67, rfl⟩
abbrev main_c_10 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_cst_11 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_c_12 : Ref sig .tc := ⟨.hbm, 84, rfl⟩
abbrev main_v51 : Ref sig .tc := ⟨.hbm, 85, rfl⟩
abbrev main_v52 : Ref sig .tc := ⟨.hbm, 86, rfl⟩
abbrev main_c_13 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_cst_14 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg8_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg3_0 : Ref sig .tc := ⟨.vmem, 33, rfl⟩
abbrev cc2_stg4_0 : Ref sig .tc := ⟨.vmem, 34, rfl⟩
abbrev cc2_stg4_1 : Ref sig .tc := ⟨.vmem, 35, rfl⟩
abbrev cc2_stg5_0 : Ref sig .tc := ⟨.vmem, 36, rfl⟩
abbrev cc2_stg6_0 : Ref sig .tc := ⟨.vmem, 37, rfl⟩
abbrev cc2_stg7_0 : Ref sig .tc := ⟨.vmem, 38, rfl⟩
abbrev cc2_stg7_1 : Ref sig .tc := ⟨.vmem, 39, rfl⟩
abbrev cc2_stg8_0 : Ref sig .tc := ⟨.vmem, 40, rfl⟩
abbrev cc2_stg8_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem4_1 : DmaSem sig := 21
abbrev cc1_sem5_0 : DmaSem sig := 22
abbrev cc1_sem6_0 : DmaSem sig := 23
abbrev cc1_sem7_0 : DmaSem sig := 24
abbrev cc1_sem7_1 : DmaSem sig := 25
abbrev cc1_sem8_0 : DmaSem sig := 26
abbrev cc1_sem8_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem3_0 : DmaSem sig := 33
abbrev cc2_sem4_0 : DmaSem sig := 34
abbrev cc2_sem4_1 : DmaSem sig := 35
abbrev cc2_sem5_0 : DmaSem sig := 36
abbrev cc2_sem6_0 : DmaSem sig := 37
abbrev cc2_sem7_0 : DmaSem sig := 38
abbrev cc2_sem7_1 : DmaSem sig := 39
abbrev cc2_sem8_0 : DmaSem sig := 40
abbrev cc2_sem8_1 : DmaSem sig := 41

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S256x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S2000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x384 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S384x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S2000x1 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S2000x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  concatenates_S50000x128_S50000x128_S50000x256_d1 : Shape.Concatenates [S50000x128, S50000x128] S50000x256 1
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S256x128_S256x128_0_0 : ∀ a, (![0, 0] : Fin 2 → Nat) a + S256x128.size a ≤ S256x128.size a
  h_S256x128 : 0 < S256x128.numel
  concatenates_S50000x128_S50000x128_S50000x128_S50000x384_d1 : Shape.Concatenates [S50000x128, S50000x128, S50000x128] S50000x384 1
  inb_S2000x384_S2000x384_0_0 : ∀ a, (![0, 0] : Fin 2 → Nat) a + S2000x384.size a ≤ S2000x384.size a
  h_S2000x384 : 0 < S2000x384.numel
  shapeCasts_S2000x384_S2000x384 : S2000x384.ShapeCasts S2000x384
  inb_S384x128_S384x128_0_0 : ∀ a, (![0, 0] : Fin 2 → Nat) a + S384x128.size a ≤ S384x128.size a
  h_S384x128 : 0 < S384x128.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  dot_S2000x256_S256x128_S2000x128_1_0_0_1_n_n_wf : DotDims.WF S2000x256 S256x128 S2000x128 [1] [0] [0] [1] [] []
  dot_S2000x384_S384x128_S2000x128_1_0_0_1_n_n_wf : DotDims.WF S2000x384 S384x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S50000x128.size a
  hwx0_4 : ∀ i : grid0.Coords, EltTy.bits .f32 = 32 ∨ (Rect.block (s := S50000x128) S2000x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x1.size a ≤ S50000x1.size a
  hwx0_7 : ∀ i : grid0.Coords, EltTy.bits .f32 = 32 ∨ (Rect.block (s := S50000x1) S2000x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x128.size a ≤ S50000x128.size a
  hwx0_8 : ∀ i : grid0.Coords, EltTy.bits .f32 = 32 ∨ (Rect.block (s := S50000x128) S2000x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x256.size a ≤ S50000x256.size a
  hwx1_4 : ∀ i : grid1.Coords, EltTy.bits .f32 = 32 ∨ (Rect.block (s := S50000x256) S2000x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x128.size a ≤ S256x128.size a
  hwx1_5 : ∀ i : grid1.Coords, EltTy.bits .f32 = 32 ∨ (Rect.block (s := S256x128) S256x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x1.size a ≤ S50000x1.size a
  hwx1_7 : ∀ i : grid1.Coords, EltTy.bits .f32 = 32 ∨ (Rect.block (s := S50000x1) S2000x1.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x128.size a ≤ S50000x128.size a
  hwx1_8 : ∀ i : grid1.Coords, EltTy.bits .f32 = 32 ∨ (Rect.block (s := S50000x128) S2000x128.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S50000x1.size a
  hwx2_1 : ∀ i : grid2.Coords, EltTy.bits .f32 = 32 ∨ (Rect.block (s := S50000x1) S2000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x384.size a ≤ S50000x384.size a
  hwx2_4 : ∀ i : grid2.Coords, EltTy.bits .f32 = 32 ∨ (Rect.block (s := S50000x384) S2000x384.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S384x128.size a ≤ S384x128.size a
  hwx2_5 : ∀ i : grid2.Coords, EltTy.bits .f32 = 32 ∨ (Rect.block (s := S384x128) S384x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x1.size a ≤ S50000x1.size a
  hwx2_7 : ∀ i : grid2.Coords, EltTy.bits .f32 = 32 ∨ (Rect.block (s := S50000x1) S2000x1.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S2000x128.size a ≤ S50000x128.size a
  hwx2_8 : ∀ i : grid2.Coords, EltTy.bits .f32 = 32 ∨ (Rect.block (s := S50000x128) S2000x128.size (cc2_transform_8 i) (hinb2_8 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def dot_S2000x384_S384x128_S2000x128_1_0_0_1_n_n : DotDims S2000x384 S384x128 S2000x128 where
  lhsContracting := [1]
  rhsContracting := [0]
  lhsNonContracting := [0]
  rhsNonContracting := [1]
  lhsBatch := []
  rhsBatch := []
  wf := dot_S2000x384_S384x128_S2000x128_1_0_0_1_n_n_wf

abbrev win0_0 : Pipeline.Window sig grid0 :=
  Pipeline.Window.ofSpec (Memref.whole main_v29) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v30) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg0) S2000x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v31) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v17) S2000x1.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v32) S2000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v44) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v45) S2000x256.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S256x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v47) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v17) S2000x1.size cc1_transform_7 reads1_7 false false 2 stage1_7 sem1_7
    hrank1 hreads1_7 hinb1_7 nbuf1_7 (Memref.isWhole_whole _) hwx1_7 hstage1_7

abbrev win1_8 : Pipeline.Window sig grid1 :=
  Pipeline.Window.ofSpec (Memref.whole main_v48) S2000x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v60) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v11) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg11) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v62) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v61) S2000x384.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_arg13) S384x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v63) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v17) S2000x1.size cc2_transform_7 reads2_7 false false 2 stage2_7 sem2_7
    hrank2 hreads2_7 hinb2_7 nbuf2_7 (Memref.isWhole_whole _) hwx2_7 hstage2_7

abbrev win2_8 : Pipeline.Window sig grid2 :=
  Pipeline.Window.ofSpec (Memref.whole main_v64) S2000x128.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S256x128 : Shape := ⟨2, ![256, 128]⟩
abbrev S384x128 : Shape := ⟨2, ![384, 128]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S50000x256 : Shape := ⟨2, ![50000, 256]⟩
abbrev S50000x384 : Shape := ⟨2, ![50000, 384]⟩

abbrev nBuf : Space → Nat
  | .hbm => 137
  | .vmem => 0
  | .smem => 0
  | _ => 0

abbrev hbmTy0_0 (i : Nat) : BufTy := match i % 128 with
  | 0 => ⟨S50000x128, .f32⟩
  | 1 => ⟨S800000, .i32⟩
  | 2 => ⟨S800000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S256x128, .f32⟩
  | 10 => ⟨S128, .f32⟩
  | 11 => ⟨S128x128, .f32⟩
  | 12 => ⟨S128, .f32⟩
  | 13 => ⟨S384x128, .f32⟩
  | 14 => ⟨S128, .f32⟩
  | 15 => ⟨S_, .f32⟩
  | 16 => ⟨S800000, .f32⟩
  | 17 => ⟨S_, .f32⟩
  | 18 => ⟨S50000, .f32⟩
  | 19 => ⟨S800000x1, .i32⟩
  | 20 => ⟨S50000, .f32⟩
  | 21 => ⟨S_, .f32⟩
  | 22 => ⟨S_, .f32⟩
  | 23 => ⟨S50000, .f32⟩
  | 24 => ⟨S50000, .f32⟩
  | 25 => ⟨S_, .f32⟩
  | 26 => ⟨S50000, .f32⟩
  | 27 => ⟨S800000x1, .i32⟩
  | 28 => ⟨S50000, .f32⟩
  | 29 => ⟨S_, .f32⟩
  | 30 => ⟨S_, .f32⟩
  | 31 => ⟨S50000, .f32⟩
  | 32 => ⟨S50000, .f32⟩
  | 33 => ⟨S_, .f32⟩
  | 34 => ⟨S50000, .f32⟩
  | 35 => ⟨S50000, .f32⟩
  | 36 => ⟨S50000x1, .f32⟩
  | 37 => ⟨S_, .f32⟩
  | 38 => ⟨S50000, .f32⟩
  | 39 => ⟨S50000, .f32⟩
  | 40 => ⟨S50000x1, .f32⟩
  | 41 => ⟨S_, .f32⟩
  | 42 => ⟨S50000, .f32⟩
  | 43 => ⟨S50000, .f32⟩
  | 44 => ⟨S50000x1, .f32⟩
  | 45 => ⟨S50000x128, .f32⟩
  | 46 => ⟨S50000x128, .f32⟩
  | 47 => ⟨S_, .i32⟩
  | 48 => ⟨S800000, .i32⟩
  | 49 => ⟨S800000, .i1⟩
  | 50 => ⟨S_, .i32⟩
  | 51 => ⟨S800000, .i32⟩
  | 52 => ⟨S800000, .i32⟩
  | 53 => ⟨S800000, .i32⟩
  | 54 => ⟨S800000x1, .i32⟩
  | 55 => ⟨S800000x128, .f32⟩
  | 56 => ⟨S_, .f32⟩
  | 57 => ⟨S50000x128, .f32⟩
  | 58 => ⟨S800000x1, .i32⟩
  | 59 => ⟨S50000x128, .f32⟩
  | 60 => ⟨S50000x128, .f32⟩
  | 61 => ⟨S50000x128, .f32⟩
  | 62 => ⟨S50000x128, .f32⟩
  | 63 => ⟨S1x128, .f32⟩
  | 64 => ⟨S50000x128, .f32⟩
  | 65 => ⟨S50000x128, .f32⟩
  | 66 => ⟨S50000x128, .f32⟩
  | 67 => ⟨S1x128, .f32⟩
  | 68 => ⟨S50000x128, .f32⟩
  | 69 => ⟨S50000x128, .f32⟩
  | 70 => ⟨S50000x128, .f32⟩
  | 71 => ⟨S50000x128, .f32⟩
  | 72 => ⟨S50000x128, .f32⟩
  | 73 => ⟨S_, .f32⟩
  | 74 => ⟨S50000x128, .f32⟩
  | 75 => ⟨S50000x128, .f32⟩
  | 76 => ⟨S50000x128, .f32⟩
  | 77 => ⟨S50000x128, .f32⟩
  | 78 => ⟨S_, .i32⟩
  | 79 => ⟨S800000, .i32⟩
  | 80 => ⟨S800000, .i1⟩
  | 81 => ⟨S_, .i32⟩
  | 82 => ⟨S800000, .i32⟩
  | 83 => ⟨S800000, .i32⟩
  | 84 => ⟨S800000, .i32⟩
  | 85 => ⟨S800000x1, .i32⟩
  | 86 => ⟨S800000x128, .f32⟩
  | 87 => ⟨S_, .f32⟩
  | 88 => ⟨S50000x128, .f32⟩
  | 89 => ⟨S800000x1, .i32⟩
  | 90 => ⟨S50000x128, .f32⟩
  | 91 => ⟨S50000x128, .f32⟩
  | 92 => ⟨S50000x128, .f32⟩
  | 93 => ⟨S50000x128, .f32⟩
  | 94 => ⟨S1x128, .f32⟩
  | 95 => ⟨S50000x128, .f32⟩
  | 96 => ⟨S50000x128, .f32⟩
  | 97 => ⟨S50000x256, .f32⟩
  | 98 => ⟨S50000x128, .f32⟩
  | 99 => ⟨S1x128, .f32⟩
  | 100 => ⟨S50000x128, .f32⟩
  | 101 => ⟨S50000x128, .f32⟩
  | 102 => ⟨S50000x128, .f32⟩
  | 103 => ⟨S50000x128, .f32⟩
  | 104 => ⟨S50000x128, .f32⟩
  | 105 => ⟨S_, .f32⟩
  | 106 => ⟨S50000x128, .f32⟩
  | 107 => ⟨S50000x128, .f32⟩
  | 108 => ⟨S50000x128, .f32⟩
  | 109 => ⟨S50000x128, .f32⟩
  | 110 => ⟨S_, .i32⟩
  | 111 => ⟨S800000, .i32⟩
  | 112 => ⟨S800000, .i1⟩
  | 113 => ⟨S_, .i32⟩
  | 114 => ⟨S800000, .i32⟩
  | 115 => ⟨S800000, .i32⟩
  | 116 => ⟨S800000, .i32⟩
  | 117 => ⟨S800000x1, .i32⟩
  | 118 => ⟨S800000x128, .f32⟩
  | 119 => ⟨S_, .f32⟩
  | 120 => ⟨S50000x128, .f32⟩
  | 121 => ⟨S800000x1, .i32⟩
  | 122 => ⟨S50000x128, .f32⟩
  | 123 => ⟨S50000x128, .f32⟩
  | 124 => ⟨S50000x128, .f32⟩
  | 125 => ⟨S50000x128, .f32⟩
  | 126 => ⟨S1x128, .f32⟩
  | 127 => ⟨S50000x128, .f32⟩
  | _ => ⟨S50000x128, .f32⟩

abbrev hbmTy0_1 (i : Nat) : BufTy := match i % 128 with
  | 0 => ⟨S50000x128, .f32⟩
  | 1 => ⟨S50000x384, .f32⟩
  | 2 => ⟨S50000x128, .f32⟩
  | 3 => ⟨S1x128, .f32⟩
  | 4 => ⟨S50000x128, .f32⟩
  | 5 => ⟨S50000x128, .f32⟩
  | 6 => ⟨S50000x128, .f32⟩
  | 7 => ⟨S50000x128, .f32⟩
  | 8 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_cst_0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst_1 : Ref sig .tc := ⟨.hbm, 21, rfl⟩
abbrev main_call0_v0 : Ref sig .tc := ⟨.hbm, 22, rfl⟩
abbrev main_call0_v1 : Ref sig .tc := ⟨.hbm, 23, rfl⟩
abbrev main_v4 : Ref sig .tc := ⟨.hbm, 24, rfl⟩
abbrev main_cst_2 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_cst_3 : Ref sig .tc := ⟨.hbm, 29, rfl⟩
abbrev main_call1_v0 : Ref sig .tc := ⟨.hbm, 30, rfl⟩
abbrev main_call1_v1 : Ref sig .tc := ⟨.hbm, 31, rfl⟩
abbrev main_v8 : Ref sig .tc := ⟨.hbm, 32, rfl⟩
abbrev main_cst_4 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_cst_5 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_cst_6 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_c : Ref sig .tc := ⟨.hbm, 47, rfl⟩
abbrev main_v20 : Ref sig .tc := ⟨.hbm, 48, rfl⟩
abbrev main_v21 : Ref sig .tc := ⟨.hbm, 49, rfl⟩
abbrev main_c_7 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_cst_8 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_call2_cst : Ref sig .tc := ⟨.hbm, 73, rfl⟩
abbrev main_call2_v0 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_c_9 : Ref sig .tc := ⟨.hbm, 78, rfl⟩
abbrev main_v46 : Ref sig .tc := ⟨.hbm, 79, rfl⟩
abbrev main_v47 : Ref sig .tc := ⟨.hbm, 80, rfl⟩
abbrev main_c_10 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_cst_11 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_call3_cst : Ref sig .tc := ⟨.hbm, 105, rfl⟩
abbrev main_call3_v0 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_c_12 : Ref sig .tc := ⟨.hbm, 110, rfl⟩
abbrev main_v73 : Ref sig .tc := ⟨.hbm, 111, rfl⟩
abbrev main_v74 : Ref sig .tc := ⟨.hbm, 112, rfl⟩
abbrev main_c_13 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_cst_14 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  concatenates_S50000x128_S50000x128_S50000x256_d1 : Shape.Concatenates [S50000x128, S50000x128] S50000x256 1
  concatenates_S50000x128_S50000x128_S50000x128_S50000x384_d1 : Shape.Concatenates [S50000x128, S50000x128, S50000x128] S50000x384 1
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x256_S256x128_S50000x128_1_0_0_1_n_n_wf : DotDims.WF S50000x256 S256x128 S50000x128 [1] [0] [0] [1] [] []
  dot_S50000x384_S384x128_S50000x128_1_0_0_1_n_n_wf : DotDims.WF S50000x384 S384x128 S50000x128 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x384_S384x128_S50000x128_1_0_0_1_n_n : DotDims S50000x384 S384x128 S50000x128 where
  lhsContracting := [1]
  rhsContracting := [0]
  lhsNonContracting := [0]
  rhsNonContracting := [1]
  lhsBatch := []
  rhsBatch := []
  wf := dot_S50000x384_S384x128_S50000x128_1_0_0_1_n_n_wf

class Facts : Prop extends Facts₀ where

variable [Facts]
-- ==== Proof.WordRegion0.lean ====
/-
  Region 0 of the program (the pallas_call of layer 0), at any float instance, with the buffer contents the region
  is entered from a parameter: each window's block at a grid point read off its array, what one run of the body leaves in
  the nine staging buffers (the eight inputs as they were, the output at the body's one stored value of the input blocks),
  the body's triple by symbolic execution, the pipeline's proof data, and the body obligation at every grid point.
-/
import proofs.«175184_j50448685859072_1_alg».proof.Proof.Gen.Kernel.Launch
import proofs.«175184_j50448685859072_1_alg».proof.Proof.Gen.Kernel.Skeleton
import proofs.«175184_j50448685859072_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (an unfetched
    window's block index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not (an unfetched
    window's block index has not moved). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not (an unfetched
    window's block index has not moved). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not (an unfetched
    window's block index has not moved). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not (an unfetched
    window's block index has not moved). -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not (an unfetched
    window's block index has not moved). -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not (an unfetched
    window's block index has not moved). -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's current staging buffer holds its block at every point, fetched there or not (an unfetched
    window's block index has not moved). -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-! The body reads and writes every staging buffer whole. -/

abbrev r0_S2000x128 : Rect S2000x128 := Rect.unit (s := S2000x128) ![0, 0] S2000x128.size inb_S2000x128_S2000x128_0_0
abbrev r0_S2000x1 : Rect S2000x1 := Rect.unit (s := S2000x1) ![0, 0] S2000x1.size inb_S2000x1_S2000x1_0_0
abbrev r0_S128x128 : Rect S128x128 := Rect.unit (s := S128x128) ![0, 0] S128x128.size inb_S128x128_S128x128_0_0
abbrev r0_S1x128 : Rect S1x128 := Rect.unit (s := S1x128) ![0, 0] S1x128.size inb_S1x128_S1x128_0_0

/-- The output staging buffer after the body, from the input blocks: the body's one store, of the layer's value. -/
def out0_8 (x0 : Vec F S2000x128 .f32) (x1 : Vec F S2000x1 .f32) (x2 : Vec F S128x128 .f32) (x3 : Vec F S1x128 .f32) (x4 : Vec F S2000x128 .f32) (x5 : Vec F S128x128 .f32) (x6 : Vec F S1x128 .f32) (x7 : Vec F S2000x1 .f32) : Vec F S2000x128 .f32 :=
  View.canon [⟨r0_S2000x128, k0_pay1 (View.ld x0 r0_S2000x128) (View.ld x1 r0_S2000x1) (View.ld x2 r0_S128x128) (View.ld x3 r0_S1x128) (View.ld x4 r0_S2000x128) (View.ld x5 r0_S128x128) (View.ld x6 r0_S1x128) (View.ld x7 r0_S2000x1)⟩]

/-- The one store covers the buffer. -/
theorem cover0_8 (p0 : Vec F S2000x128 .f32) (y : S2000x128.Idx) :
    ∃ pc ∈ ([⟨r0_S2000x128, p0⟩] : List (View.Piece (Elt F) S2000x128 .f32)), y ∈ pc.1.set :=
  View.cover_of_tiled [⟨r0_S2000x128, p0⟩] S2000x128.size (by rfl) y

set_option maxHeartbeats 4000000 in
/-- The body on whole staging memrefs, the inputs' at contents `xW` and the output's at anything, runs to the continuation
    holding the inputs' as they were and the output's at `out0_8` of the inputs'. -/
theorem sound_kernel0 (c : Dev nD) (E : Set ℕ) (i : grid0.Coords) (a0 : Memref sig .tc .vmem S2000x128 .f32) (h0 : a0.IsWhole) (a1 : Memref sig .tc .vmem S2000x1 .f32) (h1 : a1.IsWhole) (a2 : Memref sig .tc .vmem S128x128 .f32) (h2 : a2.IsWhole) (a3 : Memref sig .tc .vmem S1x128 .f32) (h3 : a3.IsWhole) (a4 : Memref sig .tc .vmem S2000x128 .f32) (h4 : a4.IsWhole) (a5 : Memref sig .tc .vmem S128x128 .f32) (h5 : a5.IsWhole) (a6 : Memref sig .tc .vmem S1x128 .f32) (h6 : a6.IsWhole) (a7 : Memref sig .tc .vmem S2000x1 .f32) (h7 : a7.IsWhole) (a8 : Memref sig .tc .vmem S2000x128 .f32) (h8 : a8.IsWhole)
    (x0 : Vec F S2000x128 .f32) (x1 : Vec F S2000x1 .f32) (x2 : Vec F S128x128 .f32) (x3 : Vec F S1x128 .f32) (x4 : Vec F S2000x128 .f32) (x5 : Vec F S128x128 .f32) (x6 : Vec F S1x128 .f32) (x7 : Vec F S2000x1 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ (∃ d, owns (c : Thread nD τ) a8 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare (out0_8 x0 x1 x2 x3 x4 x5 x6 x7)) -∗ K ⟨⟩))
      ⊢ wp frame (wpE (defs₀ (F := F)) Variants.none c none) E (cc0__fused_layer_kernel i a0 h0 a1 h1 a2 h2 a3 h3 a4 h4 a5 h5 a6 h6 a7 h7 a8 h8) K := by
  simp only [cc0__fused_layer_kernel_eq_skeleton]; unfold cc0__fused_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0; subst hf1; subst hf2; subst hf3; subst hf4; subst hf5; subst hf6; subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover0_8 _)

/-- The proof data of pipeline 0 on core `c`: the arrays as the region finds them; after the body at point `t` each
    input's buffer at its block and the output's at `out0_8` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => out0_8 (iblk0 V c 0 t) (iblk0 V c 1 t) (iblk0 V c 2 t) (iblk0 V c 3 t) (iblk0 V c 4 t) (iblk0 V c 5 t) (iblk0 V c 6 t) (iblk0 V c 7 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = out0_8 (iblk0 V c 0 t) (iblk0 V c 1 t) (iblk0 V c 2 t) (iblk0 V c 3 t) (iblk0 V c 4 t) (iblk0 V c 5 t) (iblk0 V c 6 t) (iblk0 V c 7 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t))

set_option maxHeartbeats 4000000 in
/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel0 c Set.univ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.WordRegion1.lean ====
/-
  Region 1 of the program (the pallas_call of layer 1), at any float instance, with the buffer contents the region
  is entered from a parameter: each window's block at a grid point read off its array, what one run of the body leaves in
  the nine staging buffers (the eight inputs as they were, the output at the body's one stored value of the input blocks),
  the body's triple by symbolic execution, the pipeline's proof data, and the body obligation at every grid point.
-/
import proofs.«175184_j50448685859072_1_alg».proof.Proof.Gen.Kernel.Launch
import proofs.«175184_j50448685859072_1_alg».proof.Proof.Gen.Kernel.Skeleton
import proofs.«175184_j50448685859072_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (an unfetched
    window's block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not (an unfetched
    window's block index has not moved). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not (an unfetched
    window's block index has not moved). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not (an unfetched
    window's block index has not moved). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not (an unfetched
    window's block index has not moved). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not (an unfetched
    window's block index has not moved). -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not (an unfetched
    window's block index has not moved). -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, fetched there or not (an unfetched
    window's block index has not moved). -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-! The body reads and writes every staging buffer whole. -/

abbrev r1_S2000x128 : Rect S2000x128 := Rect.unit (s := S2000x128) ![0, 0] S2000x128.size inb_S2000x128_S2000x128_0_0
abbrev r1_S2000x1 : Rect S2000x1 := Rect.unit (s := S2000x1) ![0, 0] S2000x1.size inb_S2000x1_S2000x1_0_0
abbrev r1_S128x128 : Rect S128x128 := Rect.unit (s := S128x128) ![0, 0] S128x128.size inb_S128x128_S128x128_0_0
abbrev r1_S1x128 : Rect S1x128 := Rect.unit (s := S1x128) ![0, 0] S1x128.size inb_S1x128_S1x128_0_0
abbrev r1_S2000x256 : Rect S2000x256 := Rect.unit (s := S2000x256) ![0, 0] S2000x256.size inb_S2000x256_S2000x256_0_0
abbrev r1_S256x128 : Rect S256x128 := Rect.unit (s := S256x128) ![0, 0] S256x128.size inb_S256x128_S256x128_0_0

/-- The output staging buffer after the body, from the input blocks: the body's one store, of the layer's value. -/
def out1_8 (x0 : Vec F S2000x128 .f32) (x1 : Vec F S2000x1 .f32) (x2 : Vec F S128x128 .f32) (x3 : Vec F S1x128 .f32) (x4 : Vec F S2000x256 .f32) (x5 : Vec F S256x128 .f32) (x6 : Vec F S1x128 .f32) (x7 : Vec F S2000x1 .f32) : Vec F S2000x128 .f32 :=
  View.canon [⟨r1_S2000x128, k1_pay1 (View.ld x0 r1_S2000x128) (View.ld x1 r1_S2000x1) (View.ld x2 r1_S128x128) (View.ld x3 r1_S1x128) (View.ld x4 r1_S2000x256) (View.ld x5 r1_S256x128) (View.ld x6 r1_S1x128) (View.ld x7 r1_S2000x1)⟩]

/-- The one store covers the buffer. -/
theorem cover1_8 (p0 : Vec F S2000x128 .f32) (y : S2000x128.Idx) :
    ∃ pc ∈ ([⟨r1_S2000x128, p0⟩] : List (View.Piece (Elt F) S2000x128 .f32)), y ∈ pc.1.set :=
  View.cover_of_tiled [⟨r1_S2000x128, p0⟩] S2000x128.size (by rfl) y

set_option maxHeartbeats 4000000 in
/-- The body on whole staging memrefs, the inputs' at contents `xW` and the output's at anything, runs to the continuation
    holding the inputs' as they were and the output's at `out1_8` of the inputs'. -/
theorem sound_kernel1 (c : Dev nD) (E : Set ℕ) (i : grid1.Coords) (a0 : Memref sig .tc .vmem S2000x128 .f32) (h0 : a0.IsWhole) (a1 : Memref sig .tc .vmem S2000x1 .f32) (h1 : a1.IsWhole) (a2 : Memref sig .tc .vmem S128x128 .f32) (h2 : a2.IsWhole) (a3 : Memref sig .tc .vmem S1x128 .f32) (h3 : a3.IsWhole) (a4 : Memref sig .tc .vmem S2000x256 .f32) (h4 : a4.IsWhole) (a5 : Memref sig .tc .vmem S256x128 .f32) (h5 : a5.IsWhole) (a6 : Memref sig .tc .vmem S1x128 .f32) (h6 : a6.IsWhole) (a7 : Memref sig .tc .vmem S2000x1 .f32) (h7 : a7.IsWhole) (a8 : Memref sig .tc .vmem S2000x128 .f32) (h8 : a8.IsWhole)
    (x0 : Vec F S2000x128 .f32) (x1 : Vec F S2000x1 .f32) (x2 : Vec F S128x128 .f32) (x3 : Vec F S1x128 .f32) (x4 : Vec F S2000x256 .f32) (x5 : Vec F S256x128 .f32) (x6 : Vec F S1x128 .f32) (x7 : Vec F S2000x1 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ (∃ d, owns (c : Thread nD τ) a8 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare (out1_8 x0 x1 x2 x3 x4 x5 x6 x7)) -∗ K ⟨⟩))
      ⊢ wp frame (wpE (defs₀ (F := F)) Variants.none c none) E (cc1__fused_layer_kernel i a0 h0 a1 h1 a2 h2 a3 h3 a4 h4 a5 h5 a6 h6 a7 h7 a8 h8) K := by
  simp only [cc1__fused_layer_kernel_eq_skeleton]; unfold cc1__fused_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0; subst hf1; subst hf2; subst hf3; subst hf4; subst hf5; subst hf6; subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover1_8 _)

/-- The proof data of pipeline 1 on core `c`: the arrays as the region finds them; after the body at point `t` each
    input's buffer at its block and the output's at `out1_8` of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 (iblk1 V c 0 t) (iblk1 V c 1 t) (iblk1 V c 2 t) (iblk1 V c 3 t) (iblk1 V c 4 t) (iblk1 V c 5 t) (iblk1 V c 6 t) (iblk1 V c 7 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = out1_8 (iblk1 V c 0 t) (iblk1 V c 1 t) (iblk1 V c 2 t) (iblk1 V c 3 t) (iblk1 V c 4 t) (iblk1 V c 5 t) (iblk1 V c 6 t) (iblk1 V c 7 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

set_option maxHeartbeats 4000000 in
/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.WordRegion2.lean ====
/-
  Region 2 of the program (the pallas_call of layer 2), at any float instance, with the buffer contents the region
  is entered from a parameter: each window's block at a grid point read off its array, what one run of the body leaves in
  the nine staging buffers (the eight inputs as they were, the output at the body's one stored value of the input blocks),
  the body's triple by symbolic execution, the pipeline's proof data, and the body obligation at every grid point.
-/
import proofs.«175184_j50448685859072_1_alg».proof.Proof.Gen.Kernel.Launch
import proofs.«175184_j50448685859072_1_alg».proof.Proof.Gen.Kernel.Skeleton
import proofs.«175184_j50448685859072_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not (an unfetched
    window's block index has not moved). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not (an unfetched
    window's block index has not moved). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not (an unfetched
    window's block index has not moved). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not (an unfetched
    window's block index has not moved). -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not (an unfetched
    window's block index has not moved). -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not (an unfetched
    window's block index has not moved). -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block at every point, fetched there or not (an unfetched
    window's block index has not moved). -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7's current staging buffer holds its block at every point, fetched there or not (an unfetched
    window's block index has not moved). -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-! The body reads and writes every staging buffer whole. -/

abbrev r2_S2000x128 : Rect S2000x128 := Rect.unit (s := S2000x128) ![0, 0] S2000x128.size inb_S2000x128_S2000x128_0_0
abbrev r2_S2000x1 : Rect S2000x1 := Rect.unit (s := S2000x1) ![0, 0] S2000x1.size inb_S2000x1_S2000x1_0_0
abbrev r2_S128x128 : Rect S128x128 := Rect.unit (s := S128x128) ![0, 0] S128x128.size inb_S128x128_S128x128_0_0
abbrev r2_S1x128 : Rect S1x128 := Rect.unit (s := S1x128) ![0, 0] S1x128.size inb_S1x128_S1x128_0_0
abbrev r2_S2000x384 : Rect S2000x384 := Rect.unit (s := S2000x384) ![0, 0] S2000x384.size inb_S2000x384_S2000x384_0_0
abbrev r2_S384x128 : Rect S384x128 := Rect.unit (s := S384x128) ![0, 0] S384x128.size inb_S384x128_S384x128_0_0

/-- The output staging buffer after the body, from the input blocks: the body's one store, of the layer's value. -/
def out2_8 (x0 : Vec F S2000x128 .f32) (x1 : Vec F S2000x1 .f32) (x2 : Vec F S128x128 .f32) (x3 : Vec F S1x128 .f32) (x4 : Vec F S2000x384 .f32) (x5 : Vec F S384x128 .f32) (x6 : Vec F S1x128 .f32) (x7 : Vec F S2000x1 .f32) : Vec F S2000x128 .f32 :=
  View.canon [⟨r2_S2000x128, k2_pay1 (View.ld x0 r2_S2000x128) (View.ld x1 r2_S2000x1) (View.ld x2 r2_S128x128) (View.ld x3 r2_S1x128) (View.ld x4 r2_S2000x384) (View.ld x5 r2_S384x128) (View.ld x6 r2_S1x128) (View.ld x7 r2_S2000x1)⟩]

/-- The one store covers the buffer. -/
theorem cover2_8 (p0 : Vec F S2000x128 .f32) (y : S2000x128.Idx) :
    ∃ pc ∈ ([⟨r2_S2000x128, p0⟩] : List (View.Piece (Elt F) S2000x128 .f32)), y ∈ pc.1.set :=
  View.cover_of_tiled [⟨r2_S2000x128, p0⟩] S2000x128.size (by rfl) y

set_option maxHeartbeats 4000000 in
/-- The body on whole staging memrefs, the inputs' at contents `xW` and the output's at anything, runs to the continuation
    holding the inputs' as they were and the output's at `out2_8` of the inputs'. -/
theorem sound_kernel2 (c : Dev nD) (E : Set ℕ) (i : grid2.Coords) (a0 : Memref sig .tc .vmem S2000x128 .f32) (h0 : a0.IsWhole) (a1 : Memref sig .tc .vmem S2000x1 .f32) (h1 : a1.IsWhole) (a2 : Memref sig .tc .vmem S128x128 .f32) (h2 : a2.IsWhole) (a3 : Memref sig .tc .vmem S1x128 .f32) (h3 : a3.IsWhole) (a4 : Memref sig .tc .vmem S2000x384 .f32) (h4 : a4.IsWhole) (a5 : Memref sig .tc .vmem S384x128 .f32) (h5 : a5.IsWhole) (a6 : Memref sig .tc .vmem S1x128 .f32) (h6 : a6.IsWhole) (a7 : Memref sig .tc .vmem S2000x1 .f32) (h7 : a7.IsWhole) (a8 : Memref sig .tc .vmem S2000x128 .f32) (h8 : a8.IsWhole)
    (x0 : Vec F S2000x128 .f32) (x1 : Vec F S2000x1 .f32) (x2 : Vec F S128x128 .f32) (x3 : Vec F S1x128 .f32) (x4 : Vec F S2000x384 .f32) (x5 : Vec F S384x128 .f32) (x6 : Vec F S1x128 .f32) (x7 : Vec F S2000x1 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ (∃ d, owns (c : Thread nD τ) a8 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare (out2_8 x0 x1 x2 x3 x4 x5 x6 x7)) -∗ K ⟨⟩))
      ⊢ wp frame (wpE (defs₀ (F := F)) Variants.none c none) E (cc2__fused_layer_kernel i a0 h0 a1 h1 a2 h2 a3 h3 a4 h4 a5 h5 a6 h6 a7 h7 a8 h8) K := by
  simp only [cc2__fused_layer_kernel_eq_skeleton]; unfold cc2__fused_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0; subst hf1; subst hf2; subst hf3; subst hf4; subst hf5; subst hf6; subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover2_8 _)

/-- The proof data of pipeline 2 on core `c`: the arrays as the region finds them; after the body at point `t` each
    input's buffer at its block and the output's at `out2_8` of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => out2_8 (iblk2 V c 0 t) (iblk2 V c 1 t) (iblk2 V c 2 t) (iblk2 V c 3 t) (iblk2 V c 4 t) (iblk2 V c 5 t) (iblk2 V c 6 t) (iblk2 V c 7 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = out2_8 (iblk2 V c 0 t) (iblk2 V c 1 t) (iblk2 V c 2 t) (iblk2 V c 3 t) (iblk2 V c 4 t) (iblk2 V c 5 t) (iblk2 V c 6 t) (iblk2 V c 7 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t))

set_option maxHeartbeats 4000000 in
/-- The body at any point: the inputs' memrefs hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel2 c Set.univ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.WordRun.lean ====
/-
  The whole run of the program at any float instance: the contents of every unscoped buffer at each boundary between
  host stretches and kernel regions, as a fold from the launch memory — a host stretch applies its operations, a region
  leaves its nine arrays at what its pipeline's write-backs leave (the eight inputs as entered, the output array the
  blocks the body stored) and every other buffer as entered —; the three regions as segments over "every unscoped buffer
  at the boundary's contents, the generator register at some state, nothing owed"; and the run itself: every weakly fair
  execution terminates without a fault with every unscoped buffer at the last boundary's contents. The frame claim
  (the fifteen arguments end as launched) is read off it: no host operation and no region writes an argument.
-/
import proofs.«175184_j50448685859072_1_alg».proof.Proof.WordRegion0
import proofs.«175184_j50448685859072_1_alg».proof.Proof.WordRegion1
import proofs.«175184_j50448685859072_1_alg».proof.Proof.WordRegion2
import proofs.«175184_j50448685859072_1_alg».proof.Proof.Gen.Kernel.Regions

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Region 0's entry contents (after the five host stretches before it), read at the TensorCore's references. -/
abbrev E5 : (c : Dev nD) → (b : Ref sig .tc) → Buf (Elt F) ((c : Thread nD τ).loc b) := fun c b => Gen.V5 m c b
/-- At region 0's exit. -/
def X6 (c : Dev nD) : Valuation τ sig (Elt F) :=
  Pipeline.withArrays spec0 c (Gen.V5 m c) fun w => (dat0 (E5 m) c).arrAt w cfg0.N
/-- After the host stretch between regions 0 and 1. -/
abbrev X7 : Dev nD → Valuation τ sig (Elt F) := fun c => StableHlo.after hostOps1 (X6 m c)
abbrev E7 : (c : Dev nD) → (b : Ref sig .tc) → Buf (Elt F) ((c : Thread nD τ).loc b) := fun c b => X7 m c b
/-- At region 1's exit. -/
def X8 (c : Dev nD) : Valuation τ sig (Elt F) :=
  Pipeline.withArrays spec1 c (X7 m c) fun w => (dat1 (E7 m) c).arrAt w cfg1.N
/-- After the host stretch between regions 1 and 2. -/
abbrev X9 : Dev nD → Valuation τ sig (Elt F) := fun c => StableHlo.after hostOps2 (X8 m c)
abbrev E9 : (c : Dev nD) → (b : Ref sig .tc) → Buf (Elt F) ((c : Thread nD τ).loc b) := fun c b => X9 m c b
/-- At region 2's exit: the end. -/
def X10 (c : Dev nD) : Valuation τ sig (Elt F) :=
  Pipeline.withArrays spec2 c (X9 m c) fun w => (dat2 (E9 m) c).arrAt w cfg2.N
abbrev E6 : (c : Dev nD) → (b : Ref sig .tc) → Buf (Elt F) ((c : Thread nD τ).loc b) := fun c b => X6 m c b
abbrev E8 : (c : Dev nD) → (b : Ref sig .tc) → Buf (Elt F) ((c : Thread nD τ).loc b) := fun c b => X8 m c b
abbrev E10 : (c : Dev nD) → (b : Ref sig .tc) → Buf (Elt F) ((c : Thread nD τ).loc b) := fun c b => X10 m c b

theorem X6_arr (c : Dev nD) (w : Fin cfg0.W) :
    X6 m c (Proc.devRef .tc (Pipeline.arrRef spec0 w)) = (dat0 (E5 m) c).arrAt w cfg0.N := by
  unfold X6; exact Pipeline.withArrays_arr spec0 launch0.win.arr_inj c _ _ w
theorem X6_of_ne (c : Dev nD) (b : Ref sig .tc) (hb : ∀ w, Pipeline.arrRef spec0 w ≠ b) :
    X6 m c (Proc.devRef .tc b) = Gen.V5 m c (Proc.devRef .tc b) := by
  unfold X6; exact Pipeline.withArrays_of_ne spec0 c _ _ b hb
theorem hF0 (c : Dev nD) (w : Fin cfg0.W) : (dat0 (E5 m) c).arrAt w cfg0.N = E6 m c (Pipeline.arrRef spec0 w) :=
  (X6_arr m c w).symm
theorem hrest0 (c : Dev nD) : ∀ b, b ∉ Finset.univ.image (Pipeline.arrRef spec0) → E6 m c b = E5 m c b :=
  fun b hb => X6_of_ne m c b fun w e => hb (Finset.mem_image.mpr ⟨w, Finset.mem_univ _, e⟩)
set_option maxHeartbeats 2000000 in
/-- Region 0 changes its output array only: an input window's array ends as entered, a buffer that is no window's
    array is bypassed. -/
theorem X6_keep (c : Dev nD) (b : Ref sig .tc) (hb : b ≠ main_v32) :
    X6 m c (Proc.devRef .tc b) = Gen.V5 m c (Proc.devRef .tc b) := by
  by_cases h : ∃ w, Pipeline.arrRef spec0 w = b
  · obtain ⟨w, rfl⟩ := h
    match w with
    | ⟨0, _⟩ => exact (X6_arr m c 0).trans (((dat0 (E5 m) c).arrAt_in 0 rfl _).trans (A_eq0 (E5 m) c 0))
    | ⟨1, _⟩ => exact (X6_arr m c 1).trans (((dat0 (E5 m) c).arrAt_in 1 rfl _).trans (A_eq0 (E5 m) c 1))
    | ⟨2, _⟩ => exact (X6_arr m c 2).trans (((dat0 (E5 m) c).arrAt_in 2 rfl _).trans (A_eq0 (E5 m) c 2))
    | ⟨3, _⟩ => exact (X6_arr m c 3).trans (((dat0 (E5 m) c).arrAt_in 3 rfl _).trans (A_eq0 (E5 m) c 3))
    | ⟨4, _⟩ => exact (X6_arr m c 4).trans (((dat0 (E5 m) c).arrAt_in 4 rfl _).trans (A_eq0 (E5 m) c 4))
    | ⟨5, _⟩ => exact (X6_arr m c 5).trans (((dat0 (E5 m) c).arrAt_in 5 rfl _).trans (A_eq0 (E5 m) c 5))
    | ⟨6, _⟩ => exact (X6_arr m c 6).trans (((dat0 (E5 m) c).arrAt_in 6 rfl _).trans (A_eq0 (E5 m) c 6))
    | ⟨7, _⟩ => exact (X6_arr m c 7).trans (((dat0 (E5 m) c).arrAt_in 7 rfl _).trans (A_eq0 (E5 m) c 7))
    | ⟨8, _⟩ => exact absurd rfl hb
  · exact X6_of_ne m c b fun w e => h ⟨w, e⟩

theorem X8_arr (c : Dev nD) (w : Fin cfg1.W) :
    X8 m c (Proc.devRef .tc (Pipeline.arrRef spec1 w)) = (dat1 (E7 m) c).arrAt w cfg1.N := by
  unfold X8; exact Pipeline.withArrays_arr spec1 launch1.win.arr_inj c _ _ w
theorem X8_of_ne (c : Dev nD) (b : Ref sig .tc) (hb : ∀ w, Pipeline.arrRef spec1 w ≠ b) :
    X8 m c (Proc.devRef .tc b) = X7 m c (Proc.devRef .tc b) := by
  unfold X8; exact Pipeline.withArrays_of_ne spec1 c _ _ b hb
theorem hF1 (c : Dev nD) (w : Fin cfg1.W) : (dat1 (E7 m) c).arrAt w cfg1.N = E8 m c (Pipeline.arrRef spec1 w) :=
  (X8_arr m c w).symm
theorem hrest1 (c : Dev nD) : ∀ b, b ∉ Finset.univ.image (Pipeline.arrRef spec1) → E8 m c b = E7 m c b :=
  fun b hb => X8_of_ne m c b fun w e => hb (Finset.mem_image.mpr ⟨w, Finset.mem_univ _, e⟩)
set_option maxHeartbeats 2000000 in
/-- Region 1 changes its output array only: an input window's array ends as entered, a buffer that is no window's
    array is bypassed. -/
theorem X8_keep (c : Dev nD) (b : Ref sig .tc) (hb : b ≠ main_v48) :
    X8 m c (Proc.devRef .tc b) = X7 m c (Proc.devRef .tc b) := by
  by_cases h : ∃ w, Pipeline.arrRef spec1 w = b
  · obtain ⟨w, rfl⟩ := h
    match w with
    | ⟨0, _⟩ => exact (X8_arr m c 0).trans (((dat1 (E7 m) c).arrAt_in 0 rfl _).trans (A_eq1 (E7 m) c 0))
    | ⟨1, _⟩ => exact (X8_arr m c 1).trans (((dat1 (E7 m) c).arrAt_in 1 rfl _).trans (A_eq1 (E7 m) c 1))
    | ⟨2, _⟩ => exact (X8_arr m c 2).trans (((dat1 (E7 m) c).arrAt_in 2 rfl _).trans (A_eq1 (E7 m) c 2))
    | ⟨3, _⟩ => exact (X8_arr m c 3).trans (((dat1 (E7 m) c).arrAt_in 3 rfl _).trans (A_eq1 (E7 m) c 3))
    | ⟨4, _⟩ => exact (X8_arr m c 4).trans (((dat1 (E7 m) c).arrAt_in 4 rfl _).trans (A_eq1 (E7 m) c 4))
    | ⟨5, _⟩ => exact (X8_arr m c 5).trans (((dat1 (E7 m) c).arrAt_in 5 rfl _).trans (A_eq1 (E7 m) c 5))
    | ⟨6, _⟩ => exact (X8_arr m c 6).trans (((dat1 (E7 m) c).arrAt_in 6 rfl _).trans (A_eq1 (E7 m) c 6))
    | ⟨7, _⟩ => exact (X8_arr m c 7).trans (((dat1 (E7 m) c).arrAt_in 7 rfl _).trans (A_eq1 (E7 m) c 7))
    | ⟨8, _⟩ => exact absurd rfl hb
  · exact X8_of_ne m c b fun w e => h ⟨w, e⟩

theorem X10_arr (c : Dev nD) (w : Fin cfg2.W) :
    X10 m c (Proc.devRef .tc (Pipeline.arrRef spec2 w)) = (dat2 (E9 m) c).arrAt w cfg2.N := by
  unfold X10; exact Pipeline.withArrays_arr spec2 launch2.win.arr_inj c _ _ w
theorem X10_of_ne (c : Dev nD) (b : Ref sig .tc) (hb : ∀ w, Pipeline.arrRef spec2 w ≠ b) :
    X10 m c (Proc.devRef .tc b) = X9 m c (Proc.devRef .tc b) := by
  unfold X10; exact Pipeline.withArrays_of_ne spec2 c _ _ b hb
theorem hF2 (c : Dev nD) (w : Fin cfg2.W) : (dat2 (E9 m) c).arrAt w cfg2.N = E10 m c (Pipeline.arrRef spec2 w) :=
  (X10_arr m c w).symm
theorem hrest2 (c : Dev nD) : ∀ b, b ∉ Finset.univ.image (Pipeline.arrRef spec2) → E10 m c b = E9 m c b :=
  fun b hb => X10_of_ne m c b fun w e => hb (Finset.mem_image.mpr ⟨w, Finset.mem_univ _, e⟩)
set_option maxHeartbeats 2000000 in
/-- Region 2 changes its output array only: an input window's array ends as entered, a buffer that is no window's
    array is bypassed. -/
theorem X10_keep (c : Dev nD) (b : Ref sig .tc) (hb : b ≠ main_v64) :
    X10 m c (Proc.devRef .tc b) = X9 m c (Proc.devRef .tc b) := by
  by_cases h : ∃ w, Pipeline.arrRef spec2 w = b
  · obtain ⟨w, rfl⟩ := h
    match w with
    | ⟨0, _⟩ => exact (X10_arr m c 0).trans (((dat2 (E9 m) c).arrAt_in 0 rfl _).trans (A_eq2 (E9 m) c 0))
    | ⟨1, _⟩ => exact (X10_arr m c 1).trans (((dat2 (E9 m) c).arrAt_in 1 rfl _).trans (A_eq2 (E9 m) c 1))
    | ⟨2, _⟩ => exact (X10_arr m c 2).trans (((dat2 (E9 m) c).arrAt_in 2 rfl _).trans (A_eq2 (E9 m) c 2))
    | ⟨3, _⟩ => exact (X10_arr m c 3).trans (((dat2 (E9 m) c).arrAt_in 3 rfl _).trans (A_eq2 (E9 m) c 3))
    | ⟨4, _⟩ => exact (X10_arr m c 4).trans (((dat2 (E9 m) c).arrAt_in 4 rfl _).trans (A_eq2 (E9 m) c 4))
    | ⟨5, _⟩ => exact (X10_arr m c 5).trans (((dat2 (E9 m) c).arrAt_in 5 rfl _).trans (A_eq2 (E9 m) c 5))
    | ⟨6, _⟩ => exact (X10_arr m c 6).trans (((dat2 (E9 m) c).arrAt_in 6 rfl _).trans (A_eq2 (E9 m) c 6))
    | ⟨7, _⟩ => exact (X10_arr m c 7).trans (((dat2 (E9 m) c).arrAt_in 7 rfl _).trans (A_eq2 (E9 m) c 7))
    | ⟨8, _⟩ => exact absurd rfl hb
  · exact X10_of_ne m c b fun w e => h ⟨w, e⟩

/-! ## The arguments end as launched -/

theorem X10_main_arg0 (c : Dev nD) : X10 m c (Proc.devRef .tc main_arg0) = m ((c : Thread nD τ).loc main_arg0) :=
  (X10_keep m c main_arg0 (by decide)).trans <| (StableHlo.after_of_writes_sub hostOps2 _ hostOps2_writes (by decide : main_arg0 ∉ hostOps2_W)).trans <|
  (X8_keep m c main_arg0 (by decide)).trans <| (StableHlo.after_of_writes_sub hostOps1 _ hostOps1_writes (by decide : main_arg0 ∉ hostOps1_W)).trans <|
  (X6_keep m c main_arg0 (by decide)).trans <| (V5_of m c main_arg0 (by decide)).trans <| (V4_of m c main_arg0 (by decide)).trans <|
  (V3_of m c main_arg0 (by decide)).trans <| (V2_of m c main_arg0 (by decide)).trans <| (V1_of m c main_arg0 (by decide)).trans rfl
theorem X10_main_arg1 (c : Dev nD) : X10 m c (Proc.devRef .tc main_arg1) = m ((c : Thread nD τ).loc main_arg1) :=
  (X10_keep m c main_arg1 (by decide)).trans <| (StableHlo.after_of_writes_sub hostOps2 _ hostOps2_writes (by decide : main_arg1 ∉ hostOps2_W)).trans <|
  (X8_keep m c main_arg1 (by decide)).trans <| (StableHlo.after_of_writes_sub hostOps1 _ hostOps1_writes (by decide : main_arg1 ∉ hostOps1_W)).trans <|
  (X6_keep m c main_arg1 (by decide)).trans <| (V5_of m c main_arg1 (by decide)).trans <| (V4_of m c main_arg1 (by decide)).trans <|
  (V3_of m c main_arg1 (by decide)).trans <| (V2_of m c main_arg1 (by decide)).trans <| (V1_of m c main_arg1 (by decide)).trans rfl
theorem X10_main_arg2 (c : Dev nD) : X10 m c (Proc.devRef .tc main_arg2) = m ((c : Thread nD τ).loc main_arg2) :=
  (X10_keep m c main_arg2 (by decide)).trans <| (StableHlo.after_of_writes_sub hostOps2 _ hostOps2_writes (by decide : main_arg2 ∉ hostOps2_W)).trans <|
  (X8_keep m c main_arg2 (by decide)).trans <| (StableHlo.after_of_writes_sub hostOps1 _ hostOps1_writes (by decide : main_arg2 ∉ hostOps1_W)).trans <|
  (X6_keep m c main_arg2 (by decide)).trans <| (V5_of m c main_arg2 (by decide)).trans <| (V4_of m c main_arg2 (by decide)).trans <|
  (V3_of m c main_arg2 (by decide)).trans <| (V2_of m c main_arg2 (by decide)).trans <| (V1_of m c main_arg2 (by decide)).trans rfl
theorem X10_main_arg3 (c : Dev nD) : X10 m c (Proc.devRef .tc main_arg3) = m ((c : Thread nD τ).loc main_arg3) :=
  (X10_keep m c main_arg3 (by decide)).trans <| (StableHlo.after_of_writes_sub hostOps2 _ hostOps2_writes (by decide : main_arg3 ∉ hostOps2_W)).trans <|
  (X8_keep m c main_arg3 (by decide)).trans <| (StableHlo.after_of_writes_sub hostOps1 _ hostOps1_writes (by decide : main_arg3 ∉ hostOps1_W)).trans <|
  (X6_keep m c main_arg3 (by decide)).trans <| (V5_of m c main_arg3 (by decide)).trans <| (V4_of m c main_arg3 (by decide)).trans <|
  (V3_of m c main_arg3 (by decide)).trans <| (V2_of m c main_arg3 (by decide)).trans <| (V1_of m c main_arg3 (by decide)).trans rfl
theorem X10_main_arg4 (c : Dev nD) : X10 m c (Proc.devRef .tc main_arg4) = m ((c : Thread nD τ).loc main_arg4) :=
  (X10_keep m c main_arg4 (by decide)).trans <| (StableHlo.after_of_writes_sub hostOps2 _ hostOps2_writes (by decide : main_arg4 ∉ hostOps2_W)).trans <|
  (X8_keep m c main_arg4 (by decide)).trans <| (StableHlo.after_of_writes_sub hostOps1 _ hostOps1_writes (by decide : main_arg4 ∉ hostOps1_W)).trans <|
  (X6_keep m c main_arg4 (by decide)).trans <| (V5_of m c main_arg4 (by decide)).trans <| (V4_of m c main_arg4 (by decide)).trans <|
  (V3_of m c main_arg4 (by decide)).trans <| (V2_of m c main_arg4 (by decide)).trans <| (V1_of m c main_arg4 (by decide)).trans rfl
theorem X10_main_arg5 (c : Dev nD) : X10 m c (Proc.devRef .tc main_arg5) = m ((c : Thread nD τ).loc main_arg5) :=
  (X10_keep m c main_arg5 (by decide)).trans <| (StableHlo.after_of_writes_sub hostOps2 _ hostOps2_writes (by decide : main_arg5 ∉ hostOps2_W)).trans <|
  (X8_keep m c main_arg5 (by decide)).trans <| (StableHlo.after_of_writes_sub hostOps1 _ hostOps1_writes (by decide : main_arg5 ∉ hostOps1_W)).trans <|
  (X6_keep m c main_arg5 (by decide)).trans <| (V5_of m c main_arg5 (by decide)).trans <| (V4_of m c main_arg5 (by decide)).trans <|
  (V3_of m c main_arg5 (by decide)).trans <| (V2_of m c main_arg5 (by decide)).trans <| (V1_of m c main_arg5 (by decide)).trans rfl
theorem X10_main_arg6 (c : Dev nD) : X10 m c (Proc.devRef .tc main_arg6) = m ((c : Thread nD τ).loc main_arg6) :=
  (X10_keep m c main_arg6 (by decide)).trans <| (StableHlo.after_of_writes_sub hostOps2 _ hostOps2_writes (by decide : main_arg6 ∉ hostOps2_W)).trans <|
  (X8_keep m c main_arg6 (by decide)).trans <| (StableHlo.after_of_writes_sub hostOps1 _ hostOps1_writes (by decide : main_arg6 ∉ hostOps1_W)).trans <|
  (X6_keep m c main_arg6 (by decide)).trans <| (V5_of m c main_arg6 (by decide)).trans <| (V4_of m c main_arg6 (by decide)).trans <|
  (V3_of m c main_arg6 (by decide)).trans <| (V2_of m c main_arg6 (by decide)).trans <| (V1_of m c main_arg6 (by decide)).trans rfl
theorem X10_main_arg7 (c : Dev nD) : X10 m c (Proc.devRef .tc main_arg7) = m ((c : Thread nD τ).loc main_arg7) :=
  (X10_keep m c main_arg7 (by decide)).trans <| (StableHlo.after_of_writes_sub hostOps2 _ hostOps2_writes (by decide : main_arg7 ∉ hostOps2_W)).trans <|
  (X8_keep m c main_arg7 (by decide)).trans <| (StableHlo.after_of_writes_sub hostOps1 _ hostOps1_writes (by decide : main_arg7 ∉ hostOps1_W)).trans <|
  (X6_keep m c main_arg7 (by decide)).trans <| (V5_of m c main_arg7 (by decide)).trans <| (V4_of m c main_arg7 (by decide)).trans <|
  (V3_of m c main_arg7 (by decide)).trans <| (V2_of m c main_arg7 (by decide)).trans <| (V1_of m c main_arg7 (by decide)).trans rfl
theorem X10_main_arg8 (c : Dev nD) : X10 m c (Proc.devRef .tc main_arg8) = m ((c : Thread nD τ).loc main_arg8) :=
  (X10_keep m c main_arg8 (by decide)).trans <| (StableHlo.after_of_writes_sub hostOps2 _ hostOps2_writes (by decide : main_arg8 ∉ hostOps2_W)).trans <|
  (X8_keep m c main_arg8 (by decide)).trans <| (StableHlo.after_of_writes_sub hostOps1 _ hostOps1_writes (by decide : main_arg8 ∉ hostOps1_W)).trans <|
  (X6_keep m c main_arg8 (by decide)).trans <| (V5_of m c main_arg8 (by decide)).trans <| (V4_of m c main_arg8 (by decide)).trans <|
  (V3_of m c main_arg8 (by decide)).trans <| (V2_of m c main_arg8 (by decide)).trans <| (V1_of m c main_arg8 (by decide)).trans rfl
theorem X10_main_arg9 (c : Dev nD) : X10 m c (Proc.devRef .tc main_arg9) = m ((c : Thread nD τ).loc main_arg9) :=
  (X10_keep m c main_arg9 (by decide)).trans <| (StableHlo.after_of_writes_sub hostOps2 _ hostOps2_writes (by decide : main_arg9 ∉ hostOps2_W)).trans <|
  (X8_keep m c main_arg9 (by decide)).trans <| (StableHlo.after_of_writes_sub hostOps1 _ hostOps1_writes (by decide : main_arg9 ∉ hostOps1_W)).trans <|
  (X6_keep m c main_arg9 (by decide)).trans <| (V5_of m c main_arg9 (by decide)).trans <| (V4_of m c main_arg9 (by decide)).trans <|
  (V3_of m c main_arg9 (by decide)).trans <| (V2_of m c main_arg9 (by decide)).trans <| (V1_of m c main_arg9 (by decide)).trans rfl
theorem X10_main_arg10 (c : Dev nD) : X10 m c (Proc.devRef .tc main_arg10) = m ((c : Thread nD τ).loc main_arg10) :=
  (X10_keep m c main_arg10 (by decide)).trans <| (StableHlo.after_of_writes_sub hostOps2 _ hostOps2_writes (by decide : main_arg10 ∉ hostOps2_W)).trans <|
  (X8_keep m c main_arg10 (by decide)).trans <| (StableHlo.after_of_writes_sub hostOps1 _ hostOps1_writes (by decide : main_arg10 ∉ hostOps1_W)).trans <|
  (X6_keep m c main_arg10 (by decide)).trans <| (V5_of m c main_arg10 (by decide)).trans <| (V4_of m c main_arg10 (by decide)).trans <|
  (V3_of m c main_arg10 (by decide)).trans <| (V2_of m c main_arg10 (by decide)).trans <| (V1_of m c main_arg10 (by decide)).trans rfl
theorem X10_main_arg11 (c : Dev nD) : X10 m c (Proc.devRef .tc main_arg11) = m ((c : Thread nD τ).loc main_arg11) :=
  (X10_keep m c main_arg11 (by decide)).trans <| (StableHlo.after_of_writes_sub hostOps2 _ hostOps2_writes (by decide : main_arg11 ∉ hostOps2_W)).trans <|
  (X8_keep m c main_arg11 (by decide)).trans <| (StableHlo.after_of_writes_sub hostOps1 _ hostOps1_writes (by decide : main_arg11 ∉ hostOps1_W)).trans <|
  (X6_keep m c main_arg11 (by decide)).trans <| (V5_of m c main_arg11 (by decide)).trans <| (V4_of m c main_arg11 (by decide)).trans <|
  (V3_of m c main_arg11 (by decide)).trans <| (V2_of m c main_arg11 (by decide)).trans <| (V1_of m c main_arg11 (by decide)).trans rfl
theorem X10_main_arg12 (c : Dev nD) : X10 m c (Proc.devRef .tc main_arg12) = m ((c : Thread nD τ).loc main_arg12) :=
  (X10_keep m c main_arg12 (by decide)).trans <| (StableHlo.after_of_writes_sub hostOps2 _ hostOps2_writes (by decide : main_arg12 ∉ hostOps2_W)).trans <|
  (X8_keep m c main_arg12 (by decide)).trans <| (StableHlo.after_of_writes_sub hostOps1 _ hostOps1_writes (by decide : main_arg12 ∉ hostOps1_W)).trans <|
  (X6_keep m c main_arg12 (by decide)).trans <| (V5_of m c main_arg12 (by decide)).trans <| (V4_of m c main_arg12 (by decide)).trans <|
  (V3_of m c main_arg12 (by decide)).trans <| (V2_of m c main_arg12 (by decide)).trans <| (V1_of m c main_arg12 (by decide)).trans rfl
theorem X10_main_arg13 (c : Dev nD) : X10 m c (Proc.devRef .tc main_arg13) = m ((c : Thread nD τ).loc main_arg13) :=
  (X10_keep m c main_arg13 (by decide)).trans <| (StableHlo.after_of_writes_sub hostOps2 _ hostOps2_writes (by decide : main_arg13 ∉ hostOps2_W)).trans <|
  (X8_keep m c main_arg13 (by decide)).trans <| (StableHlo.after_of_writes_sub hostOps1 _ hostOps1_writes (by decide : main_arg13 ∉ hostOps1_W)).trans <|
  (X6_keep m c main_arg13 (by decide)).trans <| (V5_of m c main_arg13 (by decide)).trans <| (V4_of m c main_arg13 (by decide)).trans <|
  (V3_of m c main_arg13 (by decide)).trans <| (V2_of m c main_arg13 (by decide)).trans <| (V1_of m c main_arg13 (by decide)).trans rfl
theorem X10_main_arg14 (c : Dev nD) : X10 m c (Proc.devRef .tc main_arg14) = m ((c : Thread nD τ).loc main_arg14) :=
  (X10_keep m c main_arg14 (by decide)).trans <| (StableHlo.after_of_writes_sub hostOps2 _ hostOps2_writes (by decide : main_arg14 ∉ hostOps2_W)).trans <|
  (X8_keep m c main_arg14 (by decide)).trans <| (StableHlo.after_of_writes_sub hostOps1 _ hostOps1_writes (by decide : main_arg14 ∉ hostOps1_W)).trans <|
  (X6_keep m c main_arg14 (by decide)).trans <| (V5_of m c main_arg14 (by decide)).trans <| (V4_of m c main_arg14 (by decide)).trans <|
  (V3_of m c main_arg14 (by decide)).trans <| (V2_of m c main_arg14 (by decide)).trans <| (V1_of m c main_arg14 (by decide)).trans rfl

/-! ## The proof data family and the thread state -/

/-- No pipeline has a prefetched table. -/
abbrev adm' : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm' p) c
  | ⟨0, _⟩ => fun c => dat0 (E5 m) c
  | ⟨1, _⟩ => fun c => dat1 (E7 m) c
  | ⟨2, _⟩ => fun c => dat2 (E9 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, none. -/
abbrev R (c : Dev nD) : sProp 𝕄 := iprop((∃ r, prngReg c r) ∗ ∃ W, owes (c : Thread nD τ) (0 : CellTallies nD τ sig Unit) W)
/-- A host stretch as a segment from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (X10 m c) ∗ ∃ r, prngReg c r)

/-! ## The regions as segments -/

set_option backward.isDefEq.respectTransparency.types false in
/-- Region 0 over the thread state: its arrays split out of the unscoped buffers at the entry contents and put back at
    the exit contents; the generator register into the invariant and out; nothing owed; no semaphore of the kernel's own. -/
def reg0 : Pipeline.RegionSeg (pcfgs (F := F)) adm' (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E5 m) c).loose
  hwaits := Pipeline.hwaits_of_owed_zero _ _ _ _ L lv 0 fun _ _ => rfl
  pre c := iprop(StableHlo.held (c : Thread nD τ) (Pipeline.ucRefs τ sig) (Gen.V5 m c) ∗ R c)
  post c := iprop(StableHlo.held (c : Thread nD τ) (Pipeline.ucRefs τ sig) (X6 m c) ∗ R c)
  X c := iprop(∃ r, prngReg c r)
  Y c := iprop(∃ r, prngReg c r)
  Z c := Pipeline.unscopedRest (Ix := Unit) (Name := ℕ) (U := UR sig nD τ) (Lvl := ℕ) spec0 c (E5 m c)
  hentry c := by
    rw [Pipeline.ownSems0_none]
    have hsplit := Pipeline.arrays_of_unscopedBufs (p := 0) (pcfgs (F := F)) adm' (pdats m) launch0.win launch0.arr_whole c
      ((pdats m 0 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m) ((pdats m 0 c).share_full fun _ => rfl)
      (E5 m c) (E6 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: its arrays split out of the unscoped buffers at the entry contents and put back at
    the exit contents; the generator register into the invariant and out; nothing owed; no semaphore of the kernel's own. -/
def reg1 : Pipeline.RegionSeg (pcfgs (F := F)) adm' (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E7 m) c).loose
  hwaits := Pipeline.hwaits_of_owed_zero _ _ _ _ L lv 1 fun _ _ => rfl
  pre c := iprop(StableHlo.held (c : Thread nD τ) (Pipeline.ucRefs τ sig) (X7 m c) ∗ R c)
  post c := iprop(StableHlo.held (c : Thread nD τ) (Pipeline.ucRefs τ sig) (X8 m c) ∗ R c)
  X c := iprop(∃ r, prngReg c r)
  Y c := iprop(∃ r, prngReg c r)
  Z c := Pipeline.unscopedRest (Ix := Unit) (Name := ℕ) (U := UR sig nD τ) (Lvl := ℕ) spec1 c (E7 m c)
  hentry c := by
    rw [Pipeline.ownSems0_none]
    have hsplit := Pipeline.arrays_of_unscopedBufs (p := 1) (pcfgs (F := F)) adm' (pdats m) launch1.win launch1.arr_whole c
      ((pdats m 1 c).share_full fun _ => rfl) (E7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m) ((pdats m 1 c).share_full fun _ => rfl)
      (E7 m c) (E8 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: its arrays split out of the unscoped buffers at the entry contents and put back at
    the exit contents; the generator register into the invariant and out; nothing owed; no semaphore of the kernel's own. -/
def reg2 : Pipeline.RegionSeg (pcfgs (F := F)) adm' (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E9 m) c).loose
  hwaits := Pipeline.hwaits_of_owed_zero _ _ _ _ L lv 2 fun _ _ => rfl
  pre c := iprop(StableHlo.held (c : Thread nD τ) (Pipeline.ucRefs τ sig) (X9 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (E9 m c)
  hentry c := by
    rw [Pipeline.ownSems0_none]
    have hsplit := Pipeline.arrays_of_unscopedBufs (p := 2) (pcfgs (F := F)) adm' (pdats m) launch2.win launch2.arr_whole c
      ((pdats m 2 c).share_full fun _ => rfl) (E9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm' (Ix := Unit) (Name := ℕ) (U := UR sig nD τ) (Lvl := ℕ)
      launch2.win launch2.arr_whole c (pdats m) ((pdats m 2 c).share_full fun _ => rfl)
      (E9 m c) (E10 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

/-- The program's ten segments in order: a host segment per stretch from its boundary's contents, a region per pallas_call. -/
abbrev segs : List (Pipeline.Seg (pcfgs (F := F)) adm' (pdats m) () defs₀ 𝒱₀ L lv) :=
  [ .host (hseg hostOps0 hostOps0_sub hostOps0_fresh (Gen.V0 m)),
    .host (hseg hostOps0_1 hostOps0_1_sub hostOps0_1_fresh (Gen.V1 m)),
    .host (hseg hostOps0_2 hostOps0_2_sub hostOps0_2_fresh (Gen.V2 m)),
    .host (hseg hostOps0_3 hostOps0_3_sub hostOps0_3_fresh (Gen.V3 m)),
    .host (hseg hostOps0_4 hostOps0_4_sub hostOps0_4_fresh (Gen.V4 m)),
    .region (reg0 m),
    .host (hseg hostOps1 hostOps1_sub hostOps1_fresh (X6 m)),
    .region (reg1 m),
    .host (hseg hostOps2 hostOps2_sub hostOps2_fresh (X8 m)),
    .region (reg2 m) ]

/-- The program IS the run of the segments. -/
theorem main_run (c : Dev nD) : main (F := F) c = Pipeline.Seg.run (segs m) := (main_chain c).trans (by chain_rfl)

set_option backward.isDefEq.respectTransparency.types false in
/-- THE RUN: from any memory with zero counters every weakly fair execution of the program terminates, nothing faulting,
    and every final state holds every unscoped buffer at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = X10 m c b) :=
  Pipeline.θ_run_regions_kit (pcfgs (F := F)) adm' (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = X10 m c b)
    (hfin := fun c s' => by
      iintro ⟨⟨Hh, -⟩, HSI⟩
      unfold StableHlo.held
      imodintro
      iapply (pointsTo_read_all (Pipeline.ucRefs τ sig) (fun b => (((c : Thread nD τ)).1, b)) (X10 m c) s')
      isplitl [Hh] <;> iassumption)
    (hQ := fun s h c => h c)

/-- THE FRAME: the fifteen argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨(h c _ (mem_uc main_arg0 (by decide))).trans (X10_main_arg0 m c),
    (h c _ (mem_uc main_arg1 (by decide))).trans (X10_main_arg1 m c),
    (h c _ (mem_uc main_arg2 (by decide))).trans (X10_main_arg2 m c),
    (h c _ (mem_uc main_arg3 (by decide))).trans (X10_main_arg3 m c),
    (h c _ (mem_uc main_arg4 (by decide))).trans (X10_main_arg4 m c),
    (h c _ (mem_uc main_arg5 (by decide))).trans (X10_main_arg5 m c),
    (h c _ (mem_uc main_arg6 (by decide))).trans (X10_main_arg6 m c),
    (h c _ (mem_uc main_arg7 (by decide))).trans (X10_main_arg7 m c),
    (h c _ (mem_uc main_arg8 (by decide))).trans (X10_main_arg8 m c),
    (h c _ (mem_uc main_arg9 (by decide))).trans (X10_main_arg9 m c),
    (h c _ (mem_uc main_arg10 (by decide))).trans (X10_main_arg10 m c),
    (h c _ (mem_uc main_arg11 (by decide))).trans (X10_main_arg11 m c),
    (h c _ (mem_uc main_arg12 (by decide))).trans (X10_main_arg12 m c),
    (h c _ (mem_uc main_arg13 (by decide))).trans (X10_main_arg13 m c),
    (h c _ (mem_uc main_arg14 (by decide))).trans (X10_main_arg14 m c)⟩) (run_all m ρ)

end Cert.Kernel.Fr

end
-- ==== Proof.IdealRegion0.lean ====
/-
  Region 0 of the program (the pallas_call of layer 0), at any float instance, with the buffer contents the region
  is entered from a parameter: each window's block at a grid point read off its array, what one run of the body leaves in
  the nine staging buffers (the eight inputs as they were, the output at the body's one stored value of the input blocks),
  the body's triple by symbolic execution, the pipeline's proof data, and the body obligation at every grid point.
-/
import proofs.«175184_j50448685859072_1_alg».proof.Proof.Gen.KernelIdeal.Launch
import proofs.«175184_j50448685859072_1_alg».proof.Proof.Gen.KernelIdeal.Skeleton
import proofs.«175184_j50448685859072_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (an unfetched
    window's block index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not (an unfetched
    window's block index has not moved). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not (an unfetched
    window's block index has not moved). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not (an unfetched
    window's block index has not moved). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not (an unfetched
    window's block index has not moved). -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not (an unfetched
    window's block index has not moved). -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not (an unfetched
    window's block index has not moved). -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's current staging buffer holds its block at every point, fetched there or not (an unfetched
    window's block index has not moved). -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-! The body reads and writes every staging buffer whole. -/

abbrev r0_S2000x128 : Rect S2000x128 := Rect.unit (s := S2000x128) ![0, 0] S2000x128.size inb_S2000x128_S2000x128_0_0
abbrev r0_S2000x1 : Rect S2000x1 := Rect.unit (s := S2000x1) ![0, 0] S2000x1.size inb_S2000x1_S2000x1_0_0
abbrev r0_S128x128 : Rect S128x128 := Rect.unit (s := S128x128) ![0, 0] S128x128.size inb_S128x128_S128x128_0_0
abbrev r0_S1x128 : Rect S1x128 := Rect.unit (s := S1x128) ![0, 0] S1x128.size inb_S1x128_S1x128_0_0

/-- The output staging buffer after the body, from the input blocks: the body's one store, of the layer's value. -/
def out0_8 (x0 : Vec F S2000x128 .f32) (x1 : Vec F S2000x1 .f32) (x2 : Vec F S128x128 .f32) (x3 : Vec F S1x128 .f32) (x4 : Vec F S2000x128 .f32) (x5 : Vec F S128x128 .f32) (x6 : Vec F S1x128 .f32) (x7 : Vec F S2000x1 .f32) : Vec F S2000x128 .f32 :=
  View.canon [⟨r0_S2000x128, k0_pay1 (View.ld x0 r0_S2000x128) (View.ld x1 r0_S2000x1) (View.ld x2 r0_S128x128) (View.ld x3 r0_S1x128) (View.ld x4 r0_S2000x128) (View.ld x5 r0_S128x128) (View.ld x6 r0_S1x128) (View.ld x7 r0_S2000x1)⟩]

/-- The one store covers the buffer. -/
theorem cover0_8 (p0 : Vec F S2000x128 .f32) (y : S2000x128.Idx) :
    ∃ pc ∈ ([⟨r0_S2000x128, p0⟩] : List (View.Piece (Elt F) S2000x128 .f32)), y ∈ pc.1.set :=
  View.cover_of_tiled [⟨r0_S2000x128, p0⟩] S2000x128.size (by rfl) y

set_option maxHeartbeats 4000000 in
/-- The body on whole staging memrefs, the inputs' at contents `xW` and the output's at anything, runs to the continuation
    holding the inputs' as they were and the output's at `out0_8` of the inputs'. -/
theorem sound_kernel0 (c : Dev nD) (E : Set ℕ) (i : grid0.Coords) (a0 : Memref sig .tc .vmem S2000x128 .f32) (h0 : a0.IsWhole) (a1 : Memref sig .tc .vmem S2000x1 .f32) (h1 : a1.IsWhole) (a2 : Memref sig .tc .vmem S128x128 .f32) (h2 : a2.IsWhole) (a3 : Memref sig .tc .vmem S1x128 .f32) (h3 : a3.IsWhole) (a4 : Memref sig .tc .vmem S2000x128 .f32) (h4 : a4.IsWhole) (a5 : Memref sig .tc .vmem S128x128 .f32) (h5 : a5.IsWhole) (a6 : Memref sig .tc .vmem S1x128 .f32) (h6 : a6.IsWhole) (a7 : Memref sig .tc .vmem S2000x1 .f32) (h7 : a7.IsWhole) (a8 : Memref sig .tc .vmem S2000x128 .f32) (h8 : a8.IsWhole)
    (x0 : Vec F S2000x128 .f32) (x1 : Vec F S2000x1 .f32) (x2 : Vec F S128x128 .f32) (x3 : Vec F S1x128 .f32) (x4 : Vec F S2000x128 .f32) (x5 : Vec F S128x128 .f32) (x6 : Vec F S1x128 .f32) (x7 : Vec F S2000x1 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ (∃ d, owns (c : Thread nD τ) a8 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare (out0_8 x0 x1 x2 x3 x4 x5 x6 x7)) -∗ K ⟨⟩))
      ⊢ wp frame (wpE (defs₀ (F := F)) Variants.none c none) E (cc0__fused_layer_kernel i a0 h0 a1 h1 a2 h2 a3 h3 a4 h4 a5 h5 a6 h6 a7 h7 a8 h8) K := by
  simp only [cc0__fused_layer_kernel_eq_skeleton]; unfold cc0__fused_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0; subst hf1; subst hf2; subst hf3; subst hf4; subst hf5; subst hf6; subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover0_8 _)

/-- The proof data of pipeline 0 on core `c`: the arrays as the region finds them; after the body at point `t` each
    input's buffer at its block and the output's at `out0_8` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => out0_8 (iblk0 V c 0 t) (iblk0 V c 1 t) (iblk0 V c 2 t) (iblk0 V c 3 t) (iblk0 V c 4 t) (iblk0 V c 5 t) (iblk0 V c 6 t) (iblk0 V c 7 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = out0_8 (iblk0 V c 0 t) (iblk0 V c 1 t) (iblk0 V c 2 t) (iblk0 V c 3 t) (iblk0 V c 4 t) (iblk0 V c 5 t) (iblk0 V c 6 t) (iblk0 V c 7 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t))

set_option maxHeartbeats 4000000 in
/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel0 c Set.univ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.IdealRegion1.lean ====
/-
  Region 1 of the program (the pallas_call of layer 1), at any float instance, with the buffer contents the region
  is entered from a parameter: each window's block at a grid point read off its array, what one run of the body leaves in
  the nine staging buffers (the eight inputs as they were, the output at the body's one stored value of the input blocks),
  the body's triple by symbolic execution, the pipeline's proof data, and the body obligation at every grid point.
-/
import proofs.«175184_j50448685859072_1_alg».proof.Proof.Gen.KernelIdeal.Launch
import proofs.«175184_j50448685859072_1_alg».proof.Proof.Gen.KernelIdeal.Skeleton
import proofs.«175184_j50448685859072_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (an unfetched
    window's block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not (an unfetched
    window's block index has not moved). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not (an unfetched
    window's block index has not moved). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not (an unfetched
    window's block index has not moved). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not (an unfetched
    window's block index has not moved). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not (an unfetched
    window's block index has not moved). -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not (an unfetched
    window's block index has not moved). -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, fetched there or not (an unfetched
    window's block index has not moved). -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-! The body reads and writes every staging buffer whole. -/

abbrev r1_S2000x128 : Rect S2000x128 := Rect.unit (s := S2000x128) ![0, 0] S2000x128.size inb_S2000x128_S2000x128_0_0
abbrev r1_S2000x1 : Rect S2000x1 := Rect.unit (s := S2000x1) ![0, 0] S2000x1.size inb_S2000x1_S2000x1_0_0
abbrev r1_S128x128 : Rect S128x128 := Rect.unit (s := S128x128) ![0, 0] S128x128.size inb_S128x128_S128x128_0_0
abbrev r1_S1x128 : Rect S1x128 := Rect.unit (s := S1x128) ![0, 0] S1x128.size inb_S1x128_S1x128_0_0
abbrev r1_S2000x256 : Rect S2000x256 := Rect.unit (s := S2000x256) ![0, 0] S2000x256.size inb_S2000x256_S2000x256_0_0
abbrev r1_S256x128 : Rect S256x128 := Rect.unit (s := S256x128) ![0, 0] S256x128.size inb_S256x128_S256x128_0_0

/-- The output staging buffer after the body, from the input blocks: the body's one store, of the layer's value. -/
def out1_8 (x0 : Vec F S2000x128 .f32) (x1 : Vec F S2000x1 .f32) (x2 : Vec F S128x128 .f32) (x3 : Vec F S1x128 .f32) (x4 : Vec F S2000x256 .f32) (x5 : Vec F S256x128 .f32) (x6 : Vec F S1x128 .f32) (x7 : Vec F S2000x1 .f32) : Vec F S2000x128 .f32 :=
  View.canon [⟨r1_S2000x128, k1_pay1 (View.ld x0 r1_S2000x128) (View.ld x1 r1_S2000x1) (View.ld x2 r1_S128x128) (View.ld x3 r1_S1x128) (View.ld x4 r1_S2000x256) (View.ld x5 r1_S256x128) (View.ld x6 r1_S1x128) (View.ld x7 r1_S2000x1)⟩]

/-- The one store covers the buffer. -/
theorem cover1_8 (p0 : Vec F S2000x128 .f32) (y : S2000x128.Idx) :
    ∃ pc ∈ ([⟨r1_S2000x128, p0⟩] : List (View.Piece (Elt F) S2000x128 .f32)), y ∈ pc.1.set :=
  View.cover_of_tiled [⟨r1_S2000x128, p0⟩] S2000x128.size (by rfl) y

set_option maxHeartbeats 4000000 in
/-- The body on whole staging memrefs, the inputs' at contents `xW` and the output's at anything, runs to the continuation
    holding the inputs' as they were and the output's at `out1_8` of the inputs'. -/
theorem sound_kernel1 (c : Dev nD) (E : Set ℕ) (i : grid1.Coords) (a0 : Memref sig .tc .vmem S2000x128 .f32) (h0 : a0.IsWhole) (a1 : Memref sig .tc .vmem S2000x1 .f32) (h1 : a1.IsWhole) (a2 : Memref sig .tc .vmem S128x128 .f32) (h2 : a2.IsWhole) (a3 : Memref sig .tc .vmem S1x128 .f32) (h3 : a3.IsWhole) (a4 : Memref sig .tc .vmem S2000x256 .f32) (h4 : a4.IsWhole) (a5 : Memref sig .tc .vmem S256x128 .f32) (h5 : a5.IsWhole) (a6 : Memref sig .tc .vmem S1x128 .f32) (h6 : a6.IsWhole) (a7 : Memref sig .tc .vmem S2000x1 .f32) (h7 : a7.IsWhole) (a8 : Memref sig .tc .vmem S2000x128 .f32) (h8 : a8.IsWhole)
    (x0 : Vec F S2000x128 .f32) (x1 : Vec F S2000x1 .f32) (x2 : Vec F S128x128 .f32) (x3 : Vec F S1x128 .f32) (x4 : Vec F S2000x256 .f32) (x5 : Vec F S256x128 .f32) (x6 : Vec F S1x128 .f32) (x7 : Vec F S2000x1 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ (∃ d, owns (c : Thread nD τ) a8 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare (out1_8 x0 x1 x2 x3 x4 x5 x6 x7)) -∗ K ⟨⟩))
      ⊢ wp frame (wpE (defs₀ (F := F)) Variants.none c none) E (cc1__fused_layer_kernel i a0 h0 a1 h1 a2 h2 a3 h3 a4 h4 a5 h5 a6 h6 a7 h7 a8 h8) K := by
  simp only [cc1__fused_layer_kernel_eq_skeleton]; unfold cc1__fused_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0; subst hf1; subst hf2; subst hf3; subst hf4; subst hf5; subst hf6; subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover1_8 _)

/-- The proof data of pipeline 1 on core `c`: the arrays as the region finds them; after the body at point `t` each
    input's buffer at its block and the output's at `out1_8` of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 (iblk1 V c 0 t) (iblk1 V c 1 t) (iblk1 V c 2 t) (iblk1 V c 3 t) (iblk1 V c 4 t) (iblk1 V c 5 t) (iblk1 V c 6 t) (iblk1 V c 7 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = out1_8 (iblk1 V c 0 t) (iblk1 V c 1 t) (iblk1 V c 2 t) (iblk1 V c 3 t) (iblk1 V c 4 t) (iblk1 V c 5 t) (iblk1 V c 6 t) (iblk1 V c 7 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

set_option maxHeartbeats 4000000 in
/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.IdealRegion2.lean ====
/-
  Region 2 of the program (the pallas_call of layer 2), at any float instance, with the buffer contents the region
  is entered from a parameter: each window's block at a grid point read off its array, what one run of the body leaves in
  the nine staging buffers (the eight inputs as they were, the output at the body's one stored value of the input blocks),
  the body's triple by symbolic execution, the pipeline's proof data, and the body obligation at every grid point.
-/
import proofs.«175184_j50448685859072_1_alg».proof.Proof.Gen.KernelIdeal.Launch
import proofs.«175184_j50448685859072_1_alg».proof.Proof.Gen.KernelIdeal.Skeleton
import proofs.«175184_j50448685859072_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not (an unfetched
    window's block index has not moved). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not (an unfetched
    window's block index has not moved). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not (an unfetched
    window's block index has not moved). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not (an unfetched
    window's block index has not moved). -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not (an unfetched
    window's block index has not moved). -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not (an unfetched
    window's block index has not moved). -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block at every point, fetched there or not (an unfetched
    window's block index has not moved). -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7's current staging buffer holds its block at every point, fetched there or not (an unfetched
    window's block index has not moved). -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-! The body reads and writes every staging buffer whole. -/

abbrev r2_S2000x128 : Rect S2000x128 := Rect.unit (s := S2000x128) ![0, 0] S2000x128.size inb_S2000x128_S2000x128_0_0
abbrev r2_S2000x1 : Rect S2000x1 := Rect.unit (s := S2000x1) ![0, 0] S2000x1.size inb_S2000x1_S2000x1_0_0
abbrev r2_S128x128 : Rect S128x128 := Rect.unit (s := S128x128) ![0, 0] S128x128.size inb_S128x128_S128x128_0_0
abbrev r2_S1x128 : Rect S1x128 := Rect.unit (s := S1x128) ![0, 0] S1x128.size inb_S1x128_S1x128_0_0
abbrev r2_S2000x384 : Rect S2000x384 := Rect.unit (s := S2000x384) ![0, 0] S2000x384.size inb_S2000x384_S2000x384_0_0
abbrev r2_S384x128 : Rect S384x128 := Rect.unit (s := S384x128) ![0, 0] S384x128.size inb_S384x128_S384x128_0_0

/-- The output staging buffer after the body, from the input blocks: the body's one store, of the layer's value. -/
def out2_8 (x0 : Vec F S2000x128 .f32) (x1 : Vec F S2000x1 .f32) (x2 : Vec F S128x128 .f32) (x3 : Vec F S1x128 .f32) (x4 : Vec F S2000x384 .f32) (x5 : Vec F S384x128 .f32) (x6 : Vec F S1x128 .f32) (x7 : Vec F S2000x1 .f32) : Vec F S2000x128 .f32 :=
  View.canon [⟨r2_S2000x128, k2_pay1 (View.ld x0 r2_S2000x128) (View.ld x1 r2_S2000x1) (View.ld x2 r2_S128x128) (View.ld x3 r2_S1x128) (View.ld x4 r2_S2000x384) (View.ld x5 r2_S384x128) (View.ld x6 r2_S1x128) (View.ld x7 r2_S2000x1)⟩]

/-- The one store covers the buffer. -/
theorem cover2_8 (p0 : Vec F S2000x128 .f32) (y : S2000x128.Idx) :
    ∃ pc ∈ ([⟨r2_S2000x128, p0⟩] : List (View.Piece (Elt F) S2000x128 .f32)), y ∈ pc.1.set :=
  View.cover_of_tiled [⟨r2_S2000x128, p0⟩] S2000x128.size (by rfl) y

set_option maxHeartbeats 4000000 in
/-- The body on whole staging memrefs, the inputs' at contents `xW` and the output's at anything, runs to the continuation
    holding the inputs' as they were and the output's at `out2_8` of the inputs'. -/
theorem sound_kernel2 (c : Dev nD) (E : Set ℕ) (i : grid2.Coords) (a0 : Memref sig .tc .vmem S2000x128 .f32) (h0 : a0.IsWhole) (a1 : Memref sig .tc .vmem S2000x1 .f32) (h1 : a1.IsWhole) (a2 : Memref sig .tc .vmem S128x128 .f32) (h2 : a2.IsWhole) (a3 : Memref sig .tc .vmem S1x128 .f32) (h3 : a3.IsWhole) (a4 : Memref sig .tc .vmem S2000x384 .f32) (h4 : a4.IsWhole) (a5 : Memref sig .tc .vmem S384x128 .f32) (h5 : a5.IsWhole) (a6 : Memref sig .tc .vmem S1x128 .f32) (h6 : a6.IsWhole) (a7 : Memref sig .tc .vmem S2000x1 .f32) (h7 : a7.IsWhole) (a8 : Memref sig .tc .vmem S2000x128 .f32) (h8 : a8.IsWhole)
    (x0 : Vec F S2000x128 .f32) (x1 : Vec F S2000x1 .f32) (x2 : Vec F S128x128 .f32) (x3 : Vec F S1x128 .f32) (x4 : Vec F S2000x384 .f32) (x5 : Vec F S384x128 .f32) (x6 : Vec F S1x128 .f32) (x7 : Vec F S2000x1 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ (∃ d, owns (c : Thread nD τ) a8 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare (out2_8 x0 x1 x2 x3 x4 x5 x6 x7)) -∗ K ⟨⟩))
      ⊢ wp frame (wpE (defs₀ (F := F)) Variants.none c none) E (cc2__fused_layer_kernel i a0 h0 a1 h1 a2 h2 a3 h3 a4 h4 a5 h5 a6 h6 a7 h7 a8 h8) K := by
  simp only [cc2__fused_layer_kernel_eq_skeleton]; unfold cc2__fused_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0; subst hf1; subst hf2; subst hf3; subst hf4; subst hf5; subst hf6; subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover2_8 _)

/-- The proof data of pipeline 2 on core `c`: the arrays as the region finds them; after the body at point `t` each
    input's buffer at its block and the output's at `out2_8` of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => out2_8 (iblk2 V c 0 t) (iblk2 V c 1 t) (iblk2 V c 2 t) (iblk2 V c 3 t) (iblk2 V c 4 t) (iblk2 V c 5 t) (iblk2 V c 6 t) (iblk2 V c 7 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = out2_8 (iblk2 V c 0 t) (iblk2 V c 1 t) (iblk2 V c 2 t) (iblk2 V c 3 t) (iblk2 V c 4 t) (iblk2 V c 5 t) (iblk2 V c 6 t) (iblk2 V c 7 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t))

set_option maxHeartbeats 4000000 in
/-- The body at any point: the inputs' memrefs hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel2 c Set.univ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.IdealRun.lean ====
/-
  The whole run of the program at any float instance: the contents of every unscoped buffer at each boundary between
  host stretches and kernel regions, as a fold from the launch memory — a host stretch applies its operations, a region
  leaves its nine arrays at what its pipeline's write-backs leave (the eight inputs as entered, the output array the
  blocks the body stored) and every other buffer as entered —; the three regions as segments over "every unscoped buffer
  at the boundary's contents, the generator register at some state, nothing owed"; and the run itself: every weakly fair
  execution terminates without a fault with every unscoped buffer at the last boundary's contents. The frame claim
  (the fifteen arguments end as launched) is read off it: no host operation and no region writes an argument.
-/
import proofs.«175184_j50448685859072_1_alg».proof.Proof.IdealRegion0
import proofs.«175184_j50448685859072_1_alg».proof.Proof.IdealRegion1
import proofs.«175184_j50448685859072_1_alg».proof.Proof.IdealRegion2
import proofs.«175184_j50448685859072_1_alg».proof.Proof.Gen.KernelIdeal.Regions

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Region 0's entry contents (after the five host stretches before it), read at the TensorCore's references. -/
abbrev E5 : (c : Dev nD) → (b : Ref sig .tc) → Buf (Elt F) ((c : Thread nD τ).loc b) := fun c b => Gen.V5 m c b
/-- At region 0's exit. -/
def X6 (c : Dev nD) : Valuation τ sig (Elt F) :=
  Pipeline.withArrays spec0 c (Gen.V5 m c) fun w => (dat0 (E5 m) c).arrAt w cfg0.N
/-- After the host stretch between regions 0 and 1. -/
abbrev X7 : Dev nD → Valuation τ sig (Elt F) := fun c => StableHlo.after hostOps1 (X6 m c)
abbrev E7 : (c : Dev nD) → (b : Ref sig .tc) → Buf (Elt F) ((c : Thread nD τ).loc b) := fun c b => X7 m c b
/-- At region 1's exit. -/
def X8 (c : Dev nD) : Valuation τ sig (Elt F) :=
  Pipeline.withArrays spec1 c (X7 m c) fun w => (dat1 (E7 m) c).arrAt w cfg1.N
/-- After the host stretch between regions 1 and 2. -/
abbrev X9 : Dev nD → Valuation τ sig (Elt F) := fun c => StableHlo.after hostOps2 (X8 m c)
abbrev E9 : (c : Dev nD) → (b : Ref sig .tc) → Buf (Elt F) ((c : Thread nD τ).loc b) := fun c b => X9 m c b
/-- At region 2's exit: the end. -/
def X10 (c : Dev nD) : Valuation τ sig (Elt F) :=
  Pipeline.withArrays spec2 c (X9 m c) fun w => (dat2 (E9 m) c).arrAt w cfg2.N
abbrev E6 : (c : Dev nD) → (b : Ref sig .tc) → Buf (Elt F) ((c : Thread nD τ).loc b) := fun c b => X6 m c b
abbrev E8 : (c : Dev nD) → (b : Ref sig .tc) → Buf (Elt F) ((c : Thread nD τ).loc b) := fun c b => X8 m c b
abbrev E10 : (c : Dev nD) → (b : Ref sig .tc) → Buf (Elt F) ((c : Thread nD τ).loc b) := fun c b => X10 m c b

theorem X6_arr (c : Dev nD) (w : Fin cfg0.W) :
    X6 m c (Proc.devRef .tc (Pipeline.arrRef spec0 w)) = (dat0 (E5 m) c).arrAt w cfg0.N := by
  unfold X6; exact Pipeline.withArrays_arr spec0 launch0.win.arr_inj c _ _ w
theorem X6_of_ne (c : Dev nD) (b : Ref sig .tc) (hb : ∀ w, Pipeline.arrRef spec0 w ≠ b) :
    X6 m c (Proc.devRef .tc b) = Gen.V5 m c (Proc.devRef .tc b) := by
  unfold X6; exact Pipeline.withArrays_of_ne spec0 c _ _ b hb
theorem hF0 (c : Dev nD) (w : Fin cfg0.W) : (dat0 (E5 m) c).arrAt w cfg0.N = E6 m c (Pipeline.arrRef spec0 w) :=
  (X6_arr m c w).symm
theorem hrest0 (c : Dev nD) : ∀ b, b ∉ Finset.univ.image (Pipeline.arrRef spec0) → E6 m c b = E5 m c b :=
  fun b hb => X6_of_ne m c b fun w e => hb (Finset.mem_image.mpr ⟨w, Finset.mem_univ _, e⟩)
set_option maxHeartbeats 2000000 in
/-- Region 0 changes its output array only: an input window's array ends as entered, a buffer that is no window's
    array is bypassed. -/
theorem X6_keep (c : Dev nD) (b : Ref sig .tc) (hb : b ≠ main_v32) :
    X6 m c (Proc.devRef .tc b) = Gen.V5 m c (Proc.devRef .tc b) := by
  by_cases h : ∃ w, Pipeline.arrRef spec0 w = b
  · obtain ⟨w, rfl⟩ := h
    match w with
    | ⟨0, _⟩ => exact (X6_arr m c 0).trans (((dat0 (E5 m) c).arrAt_in 0 rfl _).trans (A_eq0 (E5 m) c 0))
    | ⟨1, _⟩ => exact (X6_arr m c 1).trans (((dat0 (E5 m) c).arrAt_in 1 rfl _).trans (A_eq0 (E5 m) c 1))
    | ⟨2, _⟩ => exact (X6_arr m c 2).trans (((dat0 (E5 m) c).arrAt_in 2 rfl _).trans (A_eq0 (E5 m) c 2))
    | ⟨3, _⟩ => exact (X6_arr m c 3).trans (((dat0 (E5 m) c).arrAt_in 3 rfl _).trans (A_eq0 (E5 m) c 3))
    | ⟨4, _⟩ => exact (X6_arr m c 4).trans (((dat0 (E5 m) c).arrAt_in 4 rfl _).trans (A_eq0 (E5 m) c 4))
    | ⟨5, _⟩ => exact (X6_arr m c 5).trans (((dat0 (E5 m) c).arrAt_in 5 rfl _).trans (A_eq0 (E5 m) c 5))
    | ⟨6, _⟩ => exact (X6_arr m c 6).trans (((dat0 (E5 m) c).arrAt_in 6 rfl _).trans (A_eq0 (E5 m) c 6))
    | ⟨7, _⟩ => exact (X6_arr m c 7).trans (((dat0 (E5 m) c).arrAt_in 7 rfl _).trans (A_eq0 (E5 m) c 7))
    | ⟨8, _⟩ => exact absurd rfl hb
  · exact X6_of_ne m c b fun w e => h ⟨w, e⟩

theorem X8_arr (c : Dev nD) (w : Fin cfg1.W) :
    X8 m c (Proc.devRef .tc (Pipeline.arrRef spec1 w)) = (dat1 (E7 m) c).arrAt w cfg1.N := by
  unfold X8; exact Pipeline.withArrays_arr spec1 launch1.win.arr_inj c _ _ w
theorem X8_of_ne (c : Dev nD) (b : Ref sig .tc) (hb : ∀ w, Pipeline.arrRef spec1 w ≠ b) :
    X8 m c (Proc.devRef .tc b) = X7 m c (Proc.devRef .tc b) := by
  unfold X8; exact Pipeline.withArrays_of_ne spec1 c _ _ b hb
theorem hF1 (c : Dev nD) (w : Fin cfg1.W) : (dat1 (E7 m) c).arrAt w cfg1.N = E8 m c (Pipeline.arrRef spec1 w) :=
  (X8_arr m c w).symm
theorem hrest1 (c : Dev nD) : ∀ b, b ∉ Finset.univ.image (Pipeline.arrRef spec1) → E8 m c b = E7 m c b :=
  fun b hb => X8_of_ne m c b fun w e => hb (Finset.mem_image.mpr ⟨w, Finset.mem_univ _, e⟩)
set_option maxHeartbeats 2000000 in
/-- Region 1 changes its output array only: an input window's array ends as entered, a buffer that is no window's
    array is bypassed. -/
theorem X8_keep (c : Dev nD) (b : Ref sig .tc) (hb : b ≠ main_v48) :
    X8 m c (Proc.devRef .tc b) = X7 m c (Proc.devRef .tc b) := by
  by_cases h : ∃ w, Pipeline.arrRef spec1 w = b
  · obtain ⟨w, rfl⟩ := h
    match w with
    | ⟨0, _⟩ => exact (X8_arr m c 0).trans (((dat1 (E7 m) c).arrAt_in 0 rfl _).trans (A_eq1 (E7 m) c 0))
    | ⟨1, _⟩ => exact (X8_arr m c 1).trans (((dat1 (E7 m) c).arrAt_in 1 rfl _).trans (A_eq1 (E7 m) c 1))
    | ⟨2, _⟩ => exact (X8_arr m c 2).trans (((dat1 (E7 m) c).arrAt_in 2 rfl _).trans (A_eq1 (E7 m) c 2))
    | ⟨3, _⟩ => exact (X8_arr m c 3).trans (((dat1 (E7 m) c).arrAt_in 3 rfl _).trans (A_eq1 (E7 m) c 3))
    | ⟨4, _⟩ => exact (X8_arr m c 4).trans (((dat1 (E7 m) c).arrAt_in 4 rfl _).trans (A_eq1 (E7 m) c 4))
    | ⟨5, _⟩ => exact (X8_arr m c 5).trans (((dat1 (E7 m) c).arrAt_in 5 rfl _).trans (A_eq1 (E7 m) c 5))
    | ⟨6, _⟩ => exact (X8_arr m c 6).trans (((dat1 (E7 m) c).arrAt_in 6 rfl _).trans (A_eq1 (E7 m) c 6))
    | ⟨7, _⟩ => exact (X8_arr m c 7).trans (((dat1 (E7 m) c).arrAt_in 7 rfl _).trans (A_eq1 (E7 m) c 7))
    | ⟨8, _⟩ => exact absurd rfl hb
  · exact X8_of_ne m c b fun w e => h ⟨w, e⟩

theorem X10_arr (c : Dev nD) (w : Fin cfg2.W) :
    X10 m c (Proc.devRef .tc (Pipeline.arrRef spec2 w)) = (dat2 (E9 m) c).arrAt w cfg2.N := by
  unfold X10; exact Pipeline.withArrays_arr spec2 launch2.win.arr_inj c _ _ w
theorem X10_of_ne (c : Dev nD) (b : Ref sig .tc) (hb : ∀ w, Pipeline.arrRef spec2 w ≠ b) :
    X10 m c (Proc.devRef .tc b) = X9 m c (Proc.devRef .tc b) := by
  unfold X10; exact Pipeline.withArrays_of_ne spec2 c _ _ b hb
theorem hF2 (c : Dev nD) (w : Fin cfg2.W) : (dat2 (E9 m) c).arrAt w cfg2.N = E10 m c (Pipeline.arrRef spec2 w) :=
  (X10_arr m c w).symm
theorem hrest2 (c : Dev nD) : ∀ b, b ∉ Finset.univ.image (Pipeline.arrRef spec2) → E10 m c b = E9 m c b :=
  fun b hb => X10_of_ne m c b fun w e => hb (Finset.mem_image.mpr ⟨w, Finset.mem_univ _, e⟩)
set_option maxHeartbeats 2000000 in
/-- Region 2 changes its output array only: an input window's array ends as entered, a buffer that is no window's
    array is bypassed. -/
theorem X10_keep (c : Dev nD) (b : Ref sig .tc) (hb : b ≠ main_v64) :
    X10 m c (Proc.devRef .tc b) = X9 m c (Proc.devRef .tc b) := by
  by_cases h : ∃ w, Pipeline.arrRef spec2 w = b
  · obtain ⟨w, rfl⟩ := h
    match w with
    | ⟨0, _⟩ => exact (X10_arr m c 0).trans (((dat2 (E9 m) c).arrAt_in 0 rfl _).trans (A_eq2 (E9 m) c 0))
    | ⟨1, _⟩ => exact (X10_arr m c 1).trans (((dat2 (E9 m) c).arrAt_in 1 rfl _).trans (A_eq2 (E9 m) c 1))
    | ⟨2, _⟩ => exact (X10_arr m c 2).trans (((dat2 (E9 m) c).arrAt_in 2 rfl _).trans (A_eq2 (E9 m) c 2))
    | ⟨3, _⟩ => exact (X10_arr m c 3).trans (((dat2 (E9 m) c).arrAt_in 3 rfl _).trans (A_eq2 (E9 m) c 3))
    | ⟨4, _⟩ => exact (X10_arr m c 4).trans (((dat2 (E9 m) c).arrAt_in 4 rfl _).trans (A_eq2 (E9 m) c 4))
    | ⟨5, _⟩ => exact (X10_arr m c 5).trans (((dat2 (E9 m) c).arrAt_in 5 rfl _).trans (A_eq2 (E9 m) c 5))
    | ⟨6, _⟩ => exact (X10_arr m c 6).trans (((dat2 (E9 m) c).arrAt_in 6 rfl _).trans (A_eq2 (E9 m) c 6))
    | ⟨7, _⟩ => exact (X10_arr m c 7).trans (((dat2 (E9 m) c).arrAt_in 7 rfl _).trans (A_eq2 (E9 m) c 7))
    | ⟨8, _⟩ => exact absurd rfl hb
  · exact X10_of_ne m c b fun w e => h ⟨w, e⟩

/-! ## The arguments end as launched -/

theorem X10_main_arg0 (c : Dev nD) : X10 m c (Proc.devRef .tc main_arg0) = m ((c : Thread nD τ).loc main_arg0) :=
  (X10_keep m c main_arg0 (by decide)).trans <| (StableHlo.after_of_writes_sub hostOps2 _ hostOps2_writes (by decide : main_arg0 ∉ hostOps2_W)).trans <|
  (X8_keep m c main_arg0 (by decide)).trans <| (StableHlo.after_of_writes_sub hostOps1 _ hostOps1_writes (by decide : main_arg0 ∉ hostOps1_W)).trans <|
  (X6_keep m c main_arg0 (by decide)).trans <| (V5_of m c main_arg0 (by decide)).trans <| (V4_of m c main_arg0 (by decide)).trans <|
  (V3_of m c main_arg0 (by decide)).trans <| (V2_of m c main_arg0 (by decide)).trans <| (V1_of m c main_arg0 (by decide)).trans rfl
theorem X10_main_arg1 (c : Dev nD) : X10 m c (Proc.devRef .tc main_arg1) = m ((c : Thread nD τ).loc main_arg1) :=
  (X10_keep m c main_arg1 (by decide)).trans <| (StableHlo.after_of_writes_sub hostOps2 _ hostOps2_writes (by decide : main_arg1 ∉ hostOps2_W)).trans <|
  (X8_keep m c main_arg1 (by decide)).trans <| (StableHlo.after_of_writes_sub hostOps1 _ hostOps1_writes (by decide : main_arg1 ∉ hostOps1_W)).trans <|
  (X6_keep m c main_arg1 (by decide)).trans <| (V5_of m c main_arg1 (by decide)).trans <| (V4_of m c main_arg1 (by decide)).trans <|
  (V3_of m c main_arg1 (by decide)).trans <| (V2_of m c main_arg1 (by decide)).trans <| (V1_of m c main_arg1 (by decide)).trans rfl
theorem X10_main_arg2 (c : Dev nD) : X10 m c (Proc.devRef .tc main_arg2) = m ((c : Thread nD τ).loc main_arg2) :=
  (X10_keep m c main_arg2 (by decide)).trans <| (StableHlo.after_of_writes_sub hostOps2 _ hostOps2_writes (by decide : main_arg2 ∉ hostOps2_W)).trans <|
  (X8_keep m c main_arg2 (by decide)).trans <| (StableHlo.after_of_writes_sub hostOps1 _ hostOps1_writes (by decide : main_arg2 ∉ hostOps1_W)).trans <|
  (X6_keep m c main_arg2 (by decide)).trans <| (V5_of m c main_arg2 (by decide)).trans <| (V4_of m c main_arg2 (by decide)).trans <|
  (V3_of m c main_arg2 (by decide)).trans <| (V2_of m c main_arg2 (by decide)).trans <| (V1_of m c main_arg2 (by decide)).trans rfl
theorem X10_main_arg3 (c : Dev nD) : X10 m c (Proc.devRef .tc main_arg3) = m ((c : Thread nD τ).loc main_arg3) :=
  (X10_keep m c main_arg3 (by decide)).trans <| (StableHlo.after_of_writes_sub hostOps2 _ hostOps2_writes (by decide : main_arg3 ∉ hostOps2_W)).trans <|
  (X8_keep m c main_arg3 (by decide)).trans <| (StableHlo.after_of_writes_sub hostOps1 _ hostOps1_writes (by decide : main_arg3 ∉ hostOps1_W)).trans <|
  (X6_keep m c main_arg3 (by decide)).trans <| (V5_of m c main_arg3 (by decide)).trans <| (V4_of m c main_arg3 (by decide)).trans <|
  (V3_of m c main_arg3 (by decide)).trans <| (V2_of m c main_arg3 (by decide)).trans <| (V1_of m c main_arg3 (by decide)).trans rfl
theorem X10_main_arg4 (c : Dev nD) : X10 m c (Proc.devRef .tc main_arg4) = m ((c : Thread nD τ).loc main_arg4) :=
  (X10_keep m c main_arg4 (by decide)).trans <| (StableHlo.after_of_writes_sub hostOps2 _ hostOps2_writes (by decide : main_arg4 ∉ hostOps2_W)).trans <|
  (X8_keep m c main_arg4 (by decide)).trans <| (StableHlo.after_of_writes_sub hostOps1 _ hostOps1_writes (by decide : main_arg4 ∉ hostOps1_W)).trans <|
  (X6_keep m c main_arg4 (by decide)).trans <| (V5_of m c main_arg4 (by decide)).trans <| (V4_of m c main_arg4 (by decide)).trans <|
  (V3_of m c main_arg4 (by decide)).trans <| (V2_of m c main_arg4 (by decide)).trans <| (V1_of m c main_arg4 (by decide)).trans rfl
theorem X10_main_arg5 (c : Dev nD) : X10 m c (Proc.devRef .tc main_arg5) = m ((c : Thread nD τ).loc main_arg5) :=
  (X10_keep m c main_arg5 (by decide)).trans <| (StableHlo.after_of_writes_sub hostOps2 _ hostOps2_writes (by decide : main_arg5 ∉ hostOps2_W)).trans <|
  (X8_keep m c main_arg5 (by decide)).trans <| (StableHlo.after_of_writes_sub hostOps1 _ hostOps1_writes (by decide : main_arg5 ∉ hostOps1_W)).trans <|
  (X6_keep m c main_arg5 (by decide)).trans <| (V5_of m c main_arg5 (by decide)).trans <| (V4_of m c main_arg5 (by decide)).trans <|
  (V3_of m c main_arg5 (by decide)).trans <| (V2_of m c main_arg5 (by decide)).trans <| (V1_of m c main_arg5 (by decide)).trans rfl
theorem X10_main_arg6 (c : Dev nD) : X10 m c (Proc.devRef .tc main_arg6) = m ((c : Thread nD τ).loc main_arg6) :=
  (X10_keep m c main_arg6 (by decide)).trans <| (StableHlo.after_of_writes_sub hostOps2 _ hostOps2_writes (by decide : main_arg6 ∉ hostOps2_W)).trans <|
  (X8_keep m c main_arg6 (by decide)).trans <| (StableHlo.after_of_writes_sub hostOps1 _ hostOps1_writes (by decide : main_arg6 ∉ hostOps1_W)).trans <|
  (X6_keep m c main_arg6 (by decide)).trans <| (V5_of m c main_arg6 (by decide)).trans <| (V4_of m c main_arg6 (by decide)).trans <|
  (V3_of m c main_arg6 (by decide)).trans <| (V2_of m c main_arg6 (by decide)).trans <| (V1_of m c main_arg6 (by decide)).trans rfl
theorem X10_main_arg7 (c : Dev nD) : X10 m c (Proc.devRef .tc main_arg7) = m ((c : Thread nD τ).loc main_arg7) :=
  (X10_keep m c main_arg7 (by decide)).trans <| (StableHlo.after_of_writes_sub hostOps2 _ hostOps2_writes (by decide : main_arg7 ∉ hostOps2_W)).trans <|
  (X8_keep m c main_arg7 (by decide)).trans <| (StableHlo.after_of_writes_sub hostOps1 _ hostOps1_writes (by decide : main_arg7 ∉ hostOps1_W)).trans <|
  (X6_keep m c main_arg7 (by decide)).trans <| (V5_of m c main_arg7 (by decide)).trans <| (V4_of m c main_arg7 (by decide)).trans <|
  (V3_of m c main_arg7 (by decide)).trans <| (V2_of m c main_arg7 (by decide)).trans <| (V1_of m c main_arg7 (by decide)).trans rfl
theorem X10_main_arg8 (c : Dev nD) : X10 m c (Proc.devRef .tc main_arg8) = m ((c : Thread nD τ).loc main_arg8) :=
  (X10_keep m c main_arg8 (by decide)).trans <| (StableHlo.after_of_writes_sub hostOps2 _ hostOps2_writes (by decide : main_arg8 ∉ hostOps2_W)).trans <|
  (X8_keep m c main_arg8 (by decide)).trans <| (StableHlo.after_of_writes_sub hostOps1 _ hostOps1_writes (by decide : main_arg8 ∉ hostOps1_W)).trans <|
  (X6_keep m c main_arg8 (by decide)).trans <| (V5_of m c main_arg8 (by decide)).trans <| (V4_of m c main_arg8 (by decide)).trans <|
  (V3_of m c main_arg8 (by decide)).trans <| (V2_of m c main_arg8 (by decide)).trans <| (V1_of m c main_arg8 (by decide)).trans rfl
theorem X10_main_arg9 (c : Dev nD) : X10 m c (Proc.devRef .tc main_arg9) = m ((c : Thread nD τ).loc main_arg9) :=
  (X10_keep m c main_arg9 (by decide)).trans <| (StableHlo.after_of_writes_sub hostOps2 _ hostOps2_writes (by decide : main_arg9 ∉ hostOps2_W)).trans <|
  (X8_keep m c main_arg9 (by decide)).trans <| (StableHlo.after_of_writes_sub hostOps1 _ hostOps1_writes (by decide : main_arg9 ∉ hostOps1_W)).trans <|
  (X6_keep m c main_arg9 (by decide)).trans <| (V5_of m c main_arg9 (by decide)).trans <| (V4_of m c main_arg9 (by decide)).trans <|
  (V3_of m c main_arg9 (by decide)).trans <| (V2_of m c main_arg9 (by decide)).trans <| (V1_of m c main_arg9 (by decide)).trans rfl
theorem X10_main_arg10 (c : Dev nD) : X10 m c (Proc.devRef .tc main_arg10) = m ((c : Thread nD τ).loc main_arg10) :=
  (X10_keep m c main_arg10 (by decide)).trans <| (StableHlo.after_of_writes_sub hostOps2 _ hostOps2_writes (by decide : main_arg10 ∉ hostOps2_W)).trans <|
  (X8_keep m c main_arg10 (by decide)).trans <| (StableHlo.after_of_writes_sub hostOps1 _ hostOps1_writes (by decide : main_arg10 ∉ hostOps1_W)).trans <|
  (X6_keep m c main_arg10 (by decide)).trans <| (V5_of m c main_arg10 (by decide)).trans <| (V4_of m c main_arg10 (by decide)).trans <|
  (V3_of m c main_arg10 (by decide)).trans <| (V2_of m c main_arg10 (by decide)).trans <| (V1_of m c main_arg10 (by decide)).trans rfl
theorem X10_main_arg11 (c : Dev nD) : X10 m c (Proc.devRef .tc main_arg11) = m ((c : Thread nD τ).loc main_arg11) :=
  (X10_keep m c main_arg11 (by decide)).trans <| (StableHlo.after_of_writes_sub hostOps2 _ hostOps2_writes (by decide : main_arg11 ∉ hostOps2_W)).trans <|
  (X8_keep m c main_arg11 (by decide)).trans <| (StableHlo.after_of_writes_sub hostOps1 _ hostOps1_writes (by decide : main_arg11 ∉ hostOps1_W)).trans <|
  (X6_keep m c main_arg11 (by decide)).trans <| (V5_of m c main_arg11 (by decide)).trans <| (V4_of m c main_arg11 (by decide)).trans <|
  (V3_of m c main_arg11 (by decide)).trans <| (V2_of m c main_arg11 (by decide)).trans <| (V1_of m c main_arg11 (by decide)).trans rfl
theorem X10_main_arg12 (c : Dev nD) : X10 m c (Proc.devRef .tc main_arg12) = m ((c : Thread nD τ).loc main_arg12) :=
  (X10_keep m c main_arg12 (by decide)).trans <| (StableHlo.after_of_writes_sub hostOps2 _ hostOps2_writes (by decide : main_arg12 ∉ hostOps2_W)).trans <|
  (X8_keep m c main_arg12 (by decide)).trans <| (StableHlo.after_of_writes_sub hostOps1 _ hostOps1_writes (by decide : main_arg12 ∉ hostOps1_W)).trans <|
  (X6_keep m c main_arg12 (by decide)).trans <| (V5_of m c main_arg12 (by decide)).trans <| (V4_of m c main_arg12 (by decide)).trans <|
  (V3_of m c main_arg12 (by decide)).trans <| (V2_of m c main_arg12 (by decide)).trans <| (V1_of m c main_arg12 (by decide)).trans rfl
theorem X10_main_arg13 (c : Dev nD) : X10 m c (Proc.devRef .tc main_arg13) = m ((c : Thread nD τ).loc main_arg13) :=
  (X10_keep m c main_arg13 (by decide)).trans <| (StableHlo.after_of_writes_sub hostOps2 _ hostOps2_writes (by decide : main_arg13 ∉ hostOps2_W)).trans <|
  (X8_keep m c main_arg13 (by decide)).trans <| (StableHlo.after_of_writes_sub hostOps1 _ hostOps1_writes (by decide : main_arg13 ∉ hostOps1_W)).trans <|
  (X6_keep m c main_arg13 (by decide)).trans <| (V5_of m c main_arg13 (by decide)).trans <| (V4_of m c main_arg13 (by decide)).trans <|
  (V3_of m c main_arg13 (by decide)).trans <| (V2_of m c main_arg13 (by decide)).trans <| (V1_of m c main_arg13 (by decide)).trans rfl
theorem X10_main_arg14 (c : Dev nD) : X10 m c (Proc.devRef .tc main_arg14) = m ((c : Thread nD τ).loc main_arg14) :=
  (X10_keep m c main_arg14 (by decide)).trans <| (StableHlo.after_of_writes_sub hostOps2 _ hostOps2_writes (by decide : main_arg14 ∉ hostOps2_W)).trans <|
  (X8_keep m c main_arg14 (by decide)).trans <| (StableHlo.after_of_writes_sub hostOps1 _ hostOps1_writes (by decide : main_arg14 ∉ hostOps1_W)).trans <|
  (X6_keep m c main_arg14 (by decide)).trans <| (V5_of m c main_arg14 (by decide)).trans <| (V4_of m c main_arg14 (by decide)).trans <|
  (V3_of m c main_arg14 (by decide)).trans <| (V2_of m c main_arg14 (by decide)).trans <| (V1_of m c main_arg14 (by decide)).trans rfl

/-! ## The proof data family and the thread state -/

/-- No pipeline has a prefetched table. -/
abbrev adm' : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm' p) c
  | ⟨0, _⟩ => fun c => dat0 (E5 m) c
  | ⟨1, _⟩ => fun c => dat1 (E7 m) c
  | ⟨2, _⟩ => fun c => dat2 (E9 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, none. -/
abbrev R (c : Dev nD) : sProp 𝕄 := iprop((∃ r, prngReg c r) ∗ ∃ W, owes (c : Thread nD τ) (0 : CellTallies nD τ sig Unit) W)
/-- A host stretch as a segment from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (X10 m c) ∗ ∃ r, prngReg c r)

/-! ## The regions as segments -/

set_option backward.isDefEq.respectTransparency.types false in
/-- Region 0 over the thread state: its arrays split out of the unscoped buffers at the entry contents and put back at
    the exit contents; the generator register into the invariant and out; nothing owed; no semaphore of the kernel's own. -/
def reg0 : Pipeline.RegionSeg (pcfgs (F := F)) adm' (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E5 m) c).loose
  hwaits := Pipeline.hwaits_of_owed_zero _ _ _ _ L lv 0 fun _ _ => rfl
  pre c := iprop(StableHlo.held (c : Thread nD τ) (Pipeline.ucRefs τ sig) (Gen.V5 m c) ∗ R c)
  post c := iprop(StableHlo.held (c : Thread nD τ) (Pipeline.ucRefs τ sig) (X6 m c) ∗ R c)
  X c := iprop(∃ r, prngReg c r)
  Y c := iprop(∃ r, prngReg c r)
  Z c := Pipeline.unscopedRest (Ix := Unit) (Name := ℕ) (U := UR sig nD τ) (Lvl := ℕ) spec0 c (E5 m c)
  hentry c := by
    rw [Pipeline.ownSems0_none]
    have hsplit := Pipeline.arrays_of_unscopedBufs (p := 0) (pcfgs (F := F)) adm' (pdats m) launch0.win launch0.arr_whole c
      ((pdats m 0 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m) ((pdats m 0 c).share_full fun _ => rfl)
      (E5 m c) (E6 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: its arrays split out of the unscoped buffers at the entry contents and put back at
    the exit contents; the generator register into the invariant and out; nothing owed; no semaphore of the kernel's own. -/
def reg1 : Pipeline.RegionSeg (pcfgs (F := F)) adm' (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E7 m) c).loose
  hwaits := Pipeline.hwaits_of_owed_zero _ _ _ _ L lv 1 fun _ _ => rfl
  pre c := iprop(StableHlo.held (c : Thread nD τ) (Pipeline.ucRefs τ sig) (X7 m c) ∗ R c)
  post c := iprop(StableHlo.held (c : Thread nD τ) (Pipeline.ucRefs τ sig) (X8 m c) ∗ R c)
  X c := iprop(∃ r, prngReg c r)
  Y c := iprop(∃ r, prngReg c r)
  Z c := Pipeline.unscopedRest (Ix := Unit) (Name := ℕ) (U := UR sig nD τ) (Lvl := ℕ) spec1 c (E7 m c)
  hentry c := by
    rw [Pipeline.ownSems0_none]
    have hsplit := Pipeline.arrays_of_unscopedBufs (p := 1) (pcfgs (F := F)) adm' (pdats m) launch1.win launch1.arr_whole c
      ((pdats m 1 c).share_full fun _ => rfl) (E7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m) ((pdats m 1 c).share_full fun _ => rfl)
      (E7 m c) (E8 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: its arrays split out of the unscoped buffers at the entry contents and put back at
    the exit contents; the generator register into the invariant and out; nothing owed; no semaphore of the kernel's own. -/
def reg2 : Pipeline.RegionSeg (pcfgs (F := F)) adm' (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E9 m) c).loose
  hwaits := Pipeline.hwaits_of_owed_zero _ _ _ _ L lv 2 fun _ _ => rfl
  pre c := iprop(StableHlo.held (c : Thread nD τ) (Pipeline.ucRefs τ sig) (X9 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (E9 m c)
  hentry c := by
    rw [Pipeline.ownSems0_none]
    have hsplit := Pipeline.arrays_of_unscopedBufs (p := 2) (pcfgs (F := F)) adm' (pdats m) launch2.win launch2.arr_whole c
      ((pdats m 2 c).share_full fun _ => rfl) (E9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm' (Ix := Unit) (Name := ℕ) (U := UR sig nD τ) (Lvl := ℕ)
      launch2.win launch2.arr_whole c (pdats m) ((pdats m 2 c).share_full fun _ => rfl)
      (E9 m c) (E10 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

/-- The program's ten segments in order: a host segment per stretch from its boundary's contents, a region per pallas_call. -/
abbrev segs : List (Pipeline.Seg (pcfgs (F := F)) adm' (pdats m) () defs₀ 𝒱₀ L lv) :=
  [ .host (hseg hostOps0 hostOps0_sub hostOps0_fresh (Gen.V0 m)),
    .host (hseg hostOps0_1 hostOps0_1_sub hostOps0_1_fresh (Gen.V1 m)),
    .host (hseg hostOps0_2 hostOps0_2_sub hostOps0_2_fresh (Gen.V2 m)),
    .host (hseg hostOps0_3 hostOps0_3_sub hostOps0_3_fresh (Gen.V3 m)),
    .host (hseg hostOps0_4 hostOps0_4_sub hostOps0_4_fresh (Gen.V4 m)),
    .region (reg0 m),
    .host (hseg hostOps1 hostOps1_sub hostOps1_fresh (X6 m)),
    .region (reg1 m),
    .host (hseg hostOps2 hostOps2_sub hostOps2_fresh (X8 m)),
    .region (reg2 m) ]

/-- The program IS the run of the segments. -/
theorem main_run (c : Dev nD) : main (F := F) c = Pipeline.Seg.run (segs m) := (main_chain c).trans (by chain_rfl)

set_option backward.isDefEq.respectTransparency.types false in
/-- THE RUN: from any memory with zero counters every weakly fair execution of the program terminates, nothing faulting,
    and every final state holds every unscoped buffer at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = X10 m c b) :=
  Pipeline.θ_run_regions_kit (pcfgs (F := F)) adm' (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = X10 m c b)
    (hfin := fun c s' => by
      iintro ⟨⟨Hh, -⟩, HSI⟩
      unfold StableHlo.held
      imodintro
      iapply (pointsTo_read_all (Pipeline.ucRefs τ sig) (fun b => (((c : Thread nD τ)).1, b)) (X10 m c) s')
      isplitl [Hh] <;> iassumption)
    (hQ := fun s h c => h c)

/-- THE FRAME: the fifteen argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨(h c _ (mem_uc main_arg0 (by decide))).trans (X10_main_arg0 m c),
    (h c _ (mem_uc main_arg1 (by decide))).trans (X10_main_arg1 m c),
    (h c _ (mem_uc main_arg2 (by decide))).trans (X10_main_arg2 m c),
    (h c _ (mem_uc main_arg3 (by decide))).trans (X10_main_arg3 m c),
    (h c _ (mem_uc main_arg4 (by decide))).trans (X10_main_arg4 m c),
    (h c _ (mem_uc main_arg5 (by decide))).trans (X10_main_arg5 m c),
    (h c _ (mem_uc main_arg6 (by decide))).trans (X10_main_arg6 m c),
    (h c _ (mem_uc main_arg7 (by decide))).trans (X10_main_arg7 m c),
    (h c _ (mem_uc main_arg8 (by decide))).trans (X10_main_arg8 m c),
    (h c _ (mem_uc main_arg9 (by decide))).trans (X10_main_arg9 m c),
    (h c _ (mem_uc main_arg10 (by decide))).trans (X10_main_arg10 m c),
    (h c _ (mem_uc main_arg11 (by decide))).trans (X10_main_arg11 m c),
    (h c _ (mem_uc main_arg12 (by decide))).trans (X10_main_arg12 m c),
    (h c _ (mem_uc main_arg13 (by decide))).trans (X10_main_arg13 m c),
    (h c _ (mem_uc main_arg14 (by decide))).trans (X10_main_arg14 m c)⟩) (run_all m ρ)

end Cert.KernelIdeal.Fr

end
-- ==== Proof.LibDotCols.lean ====
/-
  The plain matrix product read at one entry.

  For `x : M × K` and `y : K × N` the product with dimension numbers "contract axis 1 of the left with axis 0 of the right, keep
  axis 0 of the left and axis 1 of the right" is the `M × N` array whose entry `(p, q)` is `∑ k, x[p, k] · y[k, q]`. Over the extended
  reals, accumulated into the zero array, that is the whole statement; the work is only to identify the product's own operand
  indices — computed from the dimension numbers — with the coordinate pairs `(p, k)` and `(k, q)`, and its one-axis contraction
  index with the coordinate `k`. (The companion module reads the product that contracts the last axis of both operands.)
-/
import Idealize.ShloMosaic.PureOps.Ideal.Laws
import Idealize.ShloMosaic.Lib.ValueIdx

noncomputable section

open scoped BigOperators

namespace Cert.Lib.DotCols

open Idealize.ShloMosaic Idealize.ShloMosaic.ValueIdx

variable {M K N : Nat}

/-- The left operand's kept axis 0 follows the output's axis 0, whatever the contraction index. -/
theorem lhs_axis0 (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_cons_self)]
  rfl

/-- The right operand's kept axis 1 follows the output's axis 1. -/
theorem rhs_axis1 (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_cons_self)]
  rfl

/-- The left operand's contracted axis 1 and the right operand's contracted axis 0 follow the contraction index's one coordinate. -/
theorem lhs_axis1 (i : (⟨2, ![M, N]⟩ : Shape).Idx) (c : (DotDims.plain M K N).contr.Idx) :
    ((DotDims.plain M K N).lhsIdx i c 1).val = (c ⟨0, Nat.zero_lt_one⟩).val :=
  (DotDims.plain M K N).lhsIdx_val_of_single rfl i c
theorem rhs_axis0 (i : (⟨2, ![M, N]⟩ : Shape).Idx) (c : (DotDims.plain M K N).contr.Idx) :
    ((DotDims.plain M K N).rhsIdx i c 0).val = (c ⟨0, Nat.zero_lt_one⟩).val :=
  (DotDims.plain M K N).rhsIdx_val_of_single rfl i c

/-- So at output entry `(p, q)` and contraction coordinate `k` the left operand is read at `(p, k)` … -/
theorem lhsIdx_cols (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => exact lhs_axis0 _ _
    | ⟨1, _⟩ => exact (lhs_axis1 _ _).trans (contrEquiv1_symm_val (DotDims.plain M K N) K rfl rfl k))

/-- … and the right operand at `(k, q)`. -/
theorem rhsIdx_cols (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ => exact (rhs_axis0 _ _).trans (contrEquiv1_symm_val (DotDims.plain M K N) K rfl rfl k)
    | ⟨1, _⟩ => exact rhs_axis1 _ _)

/-- THE PLAIN PRODUCT AT AN ENTRY. Over the extended reals, a matrix product with these dimension numbers (any record `D` that
    spells them: `hD`), accumulated into the zero array, holds at `(p, q)` the sum `∑ k, x[p, k] · y[k, q]`. -/
theorem matmul_cols_apply {φ₁ φ₂ : FTy} (D : DotDims ⟨2, ![M, K]⟩ ⟨2, ![K, N]⟩ ⟨2, ![M, N]⟩) (hD : D = DotDims.plain M K N)
    (prec : Option ContractPrecision) (x : FVec Ideal ⟨2, ![M, K]⟩ φ₁) (y : FVec Ideal ⟨2, ![K, N]⟩ φ₂) (p : Fin M) (q : Fin N) :
    FloatOps.matmul D prec x y (constant ⟨2, ![M, N]⟩ .f32 0x00000000#32) (ix2 p q) = ∑ k : Fin K, x (ix2 p k) * y (ix2 k q) := by
  subst hD
  rw [Ideal.matmul_constant_zero_apply, ← Equiv.sum_comp (contrEquiv1 (DotDims.plain M K N) K rfl rfl).symm]
  refine Finset.sum_congr rfl fun k _ => ?_
  rw [lhsIdx_cols, rhsIdx_cols]

end Cert.Lib.DotCols

end
-- ==== Proof.LibDotColsHost.lean ====
/-
  The host's plain matrix product read at one entry.

  For `x : M × K` and `y : K × N` the host's `dot_general` with dimension numbers "contract axis 1 of the left with axis 0 of
  the right, keep axis 0 of the left and axis 1 of the right" has no accumulator: over the extended reals its entry `(p, q)` is
  `∑ k, x[p, k] · y[k, q]`. The operand indices are those of the plain product (the companion module identifies them with the
  coordinate pairs `(p, k)` and `(k, q)`); only the operation differs.
-/
import proofs.«175184_j50448685859072_1_alg».proof.Proof.LibDotCols

noncomputable section

open scoped BigOperators

namespace Cert.Lib.DotColsHost

open Idealize.ShloMosaic Idealize.ShloMosaic.ValueIdx Cert.Lib.DotCols

variable {M K N : Nat}

/-- THE HOST'S PLAIN PRODUCT AT AN ENTRY. Over the extended reals, a `dot_general` with these dimension numbers (any record `D`
    that spells them: `hD`), whatever its precision and schedule, holds at `(p, q)` the sum `∑ k, x[p, k] · y[k, q]`. -/
theorem dotGeneral_cols_apply {φ₁ φ₂ : FTy} (D : DotDims ⟨2, ![M, K]⟩ ⟨2, ![K, N]⟩ ⟨2, ![M, N]⟩) (hD : D = DotDims.plain M K N)
    (prec : Option ContractPrecision) (sched : HostSchedule) (x : FVec Ideal ⟨2, ![M, K]⟩ φ₁) (y : FVec Ideal ⟨2, ![K, N]⟩ φ₂)
    (p : Fin M) (q : Fin N) :
    FloatOps.dotGeneral D prec sched x y (ix2 p q) = ∑ k : Fin K, x (ix2 p k) * y (ix2 k q) := by
  subst hD
  rw [Ideal.dotGeneral_apply, ← Equiv.sum_comp (contrEquiv1 (DotDims.plain M K N) K rfl rfl).symm]
  refine Finset.sum_congr rfl fun k _ => ?_
  rw [lhsIdx_cols, rhsIdx_cols]

end Cert.Lib.DotColsHost

end
-- ==== Proof.LibDenseLayer.lean ====
/-
  One dense layer, entry by entry.

  For `X : n × K`, `W : K × N` and a bias row `B : 1 × N` the layer's entry `(r, q)` is `∑ k, X[r, k] · W[k, q] + B[0, q]`
  (`affine`), and after the rectifier `max (…) 0` (`affineRelu`). Over the extended reals a change of float format is the
  identity, so three spellings of the layer are this one function:
    • a kernel body's block: the operands rounded to bf16, multiplied into the zero accumulator, the bias row broadcast over the
      rows and added, the maximum with a broadcast zero (`block_affine_eq`, `block_affineRelu_eq`);
    • the host's: `dot_general`, the bias vector broadcast to a row and then over the rows, added, the maximum with a broadcast
      zero (`host_affine_eq`, `host_affineRelu_eq`) — the bias row there is the bias vector cast to `1 × N`;
    • and an entry of the layer depends on ONE row of `X` only (`affine_entry`, `affineRelu_entry`), which is what lets a grid of
      row blocks compute the layer of the whole array.
-/
import proofs.«175184_j50448685859072_1_alg».proof.Proof.LibDotColsHost
import Idealize.ShloMosaic.Lib.Pipeline.Value
import Idealize.ShloMosaic.Lib.ValueLayout

noncomputable section

open scoped BigOperators

namespace Cert.Lib.DenseLayer

open Idealize.ShloMosaic Idealize.ShloMosaic.ValueIdx Cert.Lib.DotCols Cert.Lib.DotColsHost

variable {n M K N : Nat}

/-- Entry `(r, q)` of `X · W` plus the bias row's entry `q`. -/
def affine (X : FVec Ideal ⟨2, ![n, K]⟩ .f32) (W : FVec Ideal ⟨2, ![K, N]⟩ .f32) (B : FVec Ideal ⟨2, ![1, N]⟩ .f32) :
    FVec Ideal ⟨2, ![n, N]⟩ .f32 :=
  fun i => (∑ k : Fin K, X (ix2 (n0 := n) (n1 := K) (i 0) k) * W (ix2 (n0 := K) (n1 := N) k (i 1)))
    + B (ix2 (n0 := 1) (n1 := N) (0 : Fin 1) (i 1))

/-- The same, rectified: the maximum with the float zero. -/
def affineRelu (X : FVec Ideal ⟨2, ![n, K]⟩ .f32) (W : FVec Ideal ⟨2, ![K, N]⟩ .f32) (B : FVec Ideal ⟨2, ![1, N]⟩ .f32) :
    FVec Ideal ⟨2, ![n, N]⟩ .f32 :=
  fun i => max (affine X W B i) (Ideal.ofBits .f32 0x00000000#32)

theorem affine_apply (X : FVec Ideal ⟨2, ![n, K]⟩ .f32) (W : FVec Ideal ⟨2, ![K, N]⟩ .f32) (B : FVec Ideal ⟨2, ![1, N]⟩ .f32)
    (r : Fin n) (q : Fin N) :
    affine X W B (ix2 r q) = (∑ k : Fin K, X (ix2 r k) * W (ix2 k q)) + B (ix2 (0 : Fin 1) q) := rfl

theorem affineRelu_apply (X : FVec Ideal ⟨2, ![n, K]⟩ .f32) (W : FVec Ideal ⟨2, ![K, N]⟩ .f32) (B : FVec Ideal ⟨2, ![1, N]⟩ .f32)
    (r : Fin n) (q : Fin N) :
    affineRelu X W B (ix2 r q)
      = max ((∑ k : Fin K, X (ix2 r k) * W (ix2 k q)) + B (ix2 (0 : Fin 1) q)) (Ideal.ofBits .f32 0x00000000#32) := rfl

/-! ## An entry reads one row of the left operand, one column of the right and one entry of the bias -/

/-- If row `p` of `x` is row `r` of `X`, and column `q` of the weights and entry `q` of the bias row agree, the layer of `x` at
    `(p, q)` is the layer of `X` at `(r, q)`. -/
theorem affine_entry (X : FVec Ideal ⟨2, ![n, K]⟩ .f32) (x : FVec Ideal ⟨2, ![M, K]⟩ .f32) (W W' : FVec Ideal ⟨2, ![K, N]⟩ .f32)
    (B B' : FVec Ideal ⟨2, ![1, N]⟩ .f32) (p : Fin M) (r : Fin n) (q : Fin N)
    (hrow : ∀ k : Fin K, x (ix2 p k) = X (ix2 r k)) (hcol : ∀ k : Fin K, W' (ix2 k q) = W (ix2 k q))
    (hbias : B' (ix2 (0 : Fin 1) q) = B (ix2 (0 : Fin 1) q)) :
    affine x W' B' (ix2 p q) = affine X W B (ix2 r q) := by
  rw [affine_apply, affine_apply, hbias]
  exact congrArg (· + B (ix2 (0 : Fin 1) q)) (Finset.sum_congr rfl fun k _ => by rw [hrow k, hcol k])

theorem affineRelu_entry (X : FVec Ideal ⟨2, ![n, K]⟩ .f32) (x : FVec Ideal ⟨2, ![M, K]⟩ .f32) (W W' : FVec Ideal ⟨2, ![K, N]⟩ .f32)
    (B B' : FVec Ideal ⟨2, ![1, N]⟩ .f32) (p : Fin M) (r : Fin n) (q : Fin N)
    (hrow : ∀ k : Fin K, x (ix2 p k) = X (ix2 r k)) (hcol : ∀ k : Fin K, W' (ix2 k q) = W (ix2 k q))
    (hbias : B' (ix2 (0 : Fin 1) q) = B (ix2 (0 : Fin 1) q)) :
    affineRelu x W' B' (ix2 p q) = affineRelu X W B (ix2 r q) :=
  congrArg (fun v => max v (Ideal.ofBits .f32 0x00000000#32)) (affine_entry X x W W' B B' p r q hrow hcol hbias)

/-! ## A kernel body's block -/

/-- The body's sum: both operands rounded to bf16 (the identity here), multiplied into the zero accumulator, plus the bias row
    broadcast over the rows. -/
theorem block_affine_eq (D : DotDims ⟨2, ![M, K]⟩ ⟨2, ![K, N]⟩ ⟨2, ![M, N]⟩) (hD : D = DotDims.plain M K N)
    (h0 : (⟨2, ![M, K]⟩ : Shape).ShapeCasts ⟨2, ![M, K]⟩) (h2 : (⟨2, ![1, N]⟩ : Shape).ShapeCasts ⟨2, ![1, N]⟩)
    (hb : (⟨2, ![1, N]⟩ : Shape).Broadcasts ⟨2, ![M, N]⟩) (hbits : FTy.bits .bf16 < FTy.bits .f32)
    (x0 : FVec Ideal ⟨2, ![M, K]⟩ .f32) (x1 : FVec Ideal ⟨2, ![K, N]⟩ .f32) (x2 : FVec Ideal ⟨2, ![1, N]⟩ .f32) :
    addf (matmul D none (truncf .bf16 (shapeCast ⟨2, ![M, K]⟩ x0 h0) hbits) (truncf .bf16 x1 hbits)
        (constant ⟨2, ![M, N]⟩ .f32 0x00000000#32))
      (broadcastTo ⟨2, ![M, N]⟩ (shapeCast ⟨2, ![1, N]⟩ x2 h2) hb) = affine x0 x1 x2 := by
  funext i
  obtain ⟨p, q, rfl⟩ : ∃ (p : Fin M) (q : Fin N), i = ix2 p q := ⟨i 0, i 1, eq_ix2 i⟩
  rw [affine_apply, addf_apply, shapeCast_self, shapeCast_self, broadcastTo_1b_ab_apply]
  refine congrArg (· + x2 (ix2 (0 : Fin 1) q)) ?_
  exact (matmul_cols_apply D hD none (truncf .bf16 x0 hbits) (truncf .bf16 x1 hbits) p q).trans
    (Finset.sum_congr rfl fun k _ => rfl)

/-- … and its maximum with a broadcast zero. -/
theorem block_affineRelu_eq (D : DotDims ⟨2, ![M, K]⟩ ⟨2, ![K, N]⟩ ⟨2, ![M, N]⟩) (hD : D = DotDims.plain M K N)
    (h0 : (⟨2, ![M, K]⟩ : Shape).ShapeCasts ⟨2, ![M, K]⟩) (h2 : (⟨2, ![1, N]⟩ : Shape).ShapeCasts ⟨2, ![1, N]⟩)
    (hb : (⟨2, ![1, N]⟩ : Shape).Broadcasts ⟨2, ![M, N]⟩) (hbits : FTy.bits .bf16 < FTy.bits .f32)
    (x0 : FVec Ideal ⟨2, ![M, K]⟩ .f32) (x1 : FVec Ideal ⟨2, ![K, N]⟩ .f32) (x2 : FVec Ideal ⟨2, ![1, N]⟩ .f32) :
    maximumf (addf (matmul D none (truncf .bf16 (shapeCast ⟨2, ![M, K]⟩ x0 h0) hbits) (truncf .bf16 x1 hbits)
          (constant ⟨2, ![M, N]⟩ .f32 0x00000000#32))
        (broadcastTo ⟨2, ![M, N]⟩ (shapeCast ⟨2, ![1, N]⟩ x2 h2) hb))
      (broadcast ⟨2, ![M, N]⟩ (Scalar.ofBits (F := Ideal) .f32 0x00000000#32)) = affineRelu x0 x1 x2 := by
  rw [block_affine_eq D hD h0 h2 hb hbits]
  rfl

/-! ## The host's layer -/

/-- A bias vector broadcast to a row and then over the rows reads, at `(r, q)`, its entry `q`. -/
theorem bias_rows_apply (hb1 : (⟨1, ![N]⟩ : Shape).BroadcastsInDim ⟨2, ![1, N]⟩ ![1])
    (hb2 : (⟨2, ![1, N]⟩ : Shape).BroadcastsInDim ⟨2, ![n, N]⟩ ![0, 1]) (b : FVec Ideal ⟨1, ![N]⟩ .f32) (r : Fin n) (q : Fin N) :
    broadcastInDim ⟨2, ![n, N]⟩ ![0, 1] hb2 (broadcastInDim ⟨2, ![1, N]⟩ ![1] hb1 b) (ix2 r q) = b (ix1 q) := by
  rw [broadcastInDim_apply ![0, 1] hb2 _ (ix2 r q) (ix2 (0 : Fin 1) q) (fun a => by
      match a with
      | ⟨0, _⟩ => exact (if_pos rfl).symm
      | ⟨1, _⟩ =>
        show q.val = if N = 1 then 0 else q.val
        split
        · have := q.isLt; omega
        · rfl),
    broadcastInDim_apply ![1] hb1 b (ix2 (0 : Fin 1) q) (ix1 q) (fun a => by
      match a with
      | ⟨0, _⟩ =>
        show q.val = if N = 1 then 0 else q.val
        split
        · have := q.isLt; omega
        · rfl)]

/-- The bias vector cast to a row reads the same entry. -/
theorem bias_cast_apply (hsc : (⟨1, ![N]⟩ : Shape).ShapeCasts ⟨2, ![1, N]⟩) (b : FVec Ideal ⟨1, ![N]⟩ .f32) (q : Fin N) :
    shapeCast ⟨2, ![1, N]⟩ b hsc (ix2 (0 : Fin 1) q) = b (ix1 q) :=
  shapeCast_a_1a_apply b hsc 0 q

/-- The host's product plus the broadcast bias is the layer at the bias cast to a row. -/
theorem host_affine_eq (D : DotDims ⟨2, ![n, K]⟩ ⟨2, ![K, N]⟩ ⟨2, ![n, N]⟩) (hD : D = DotDims.plain n K N)
    (hb1 : (⟨1, ![N]⟩ : Shape).BroadcastsInDim ⟨2, ![1, N]⟩ ![1])
    (hb2 : (⟨2, ![1, N]⟩ : Shape).BroadcastsInDim ⟨2, ![n, N]⟩ ![0, 1])
    (hsc : (⟨1, ![N]⟩ : Shape).ShapeCasts ⟨2, ![1, N]⟩)
    (X : FVec Ideal ⟨2, ![n, K]⟩ .f32) (W : FVec Ideal ⟨2, ![K, N]⟩ .f32) (b : FVec Ideal ⟨1, ![N]⟩ .f32) :
    addf (Host.dotGeneral D none X W) (broadcastInDim ⟨2, ![n, N]⟩ ![0, 1] hb2 (broadcastInDim ⟨2, ![1, N]⟩ ![1] hb1 b))
      = affine X W (shapeCast ⟨2, ![1, N]⟩ b hsc) := by
  funext i
  obtain ⟨r, q, rfl⟩ : ∃ (r : Fin n) (q : Fin N), i = ix2 r q := ⟨i 0, i 1, eq_ix2 i⟩
  rw [affine_apply, addf_apply, bias_rows_apply hb1 hb2 b r q, bias_cast_apply hsc b q]
  exact congrArg (· + b (ix1 q)) (dotGeneral_cols_apply D hD none .single X W r q)

/-- … and its maximum with a broadcast zero the rectified layer. -/
theorem host_affineRelu_eq (D : DotDims ⟨2, ![n, K]⟩ ⟨2, ![K, N]⟩ ⟨2, ![n, N]⟩) (hD : D = DotDims.plain n K N)
    (hb1 : (⟨1, ![N]⟩ : Shape).BroadcastsInDim ⟨2, ![1, N]⟩ ![1])
    (hb2 : (⟨2, ![1, N]⟩ : Shape).BroadcastsInDim ⟨2, ![n, N]⟩ ![0, 1])
    (hb0 : (⟨0, ![]⟩ : Shape).BroadcastsInDim ⟨2, ![n, N]⟩ ![])
    (hsc : (⟨1, ![N]⟩ : Shape).ShapeCasts ⟨2, ![1, N]⟩)
    (X : FVec Ideal ⟨2, ![n, K]⟩ .f32) (W : FVec Ideal ⟨2, ![K, N]⟩ .f32) (b : FVec Ideal ⟨1, ![N]⟩ .f32) :
    maximumf (addf (Host.dotGeneral D none X W) (broadcastInDim ⟨2, ![n, N]⟩ ![0, 1] hb2 (broadcastInDim ⟨2, ![1, N]⟩ ![1] hb1 b)))
        (broadcastInDim ⟨2, ![n, N]⟩ ![] hb0 (constant (F := Ideal) ⟨0, ![]⟩ .f32 0x00000000#32))
      = affineRelu X W (shapeCast ⟨2, ![1, N]⟩ b hsc) := by
  rw [host_affine_eq D hD hb1 hb2 hsc]
  funext i
  rw [maximumf_apply, broadcastInDim_apply ![] hb0 _ i ix0 (fun a => a.elim0)]
  rfl

/-- The rectifier applied twice is the rectifier: `max (max v 0) 0 = max v 0`. -/
theorem relu_relu (Y : FVec Ideal ⟨2, ![n, N]⟩ .f32) (hb0 : (⟨0, ![]⟩ : Shape).BroadcastsInDim ⟨2, ![n, N]⟩ ![]) :
    maximumf (maximumf Y (broadcastInDim ⟨2, ![n, N]⟩ ![] hb0 (constant (F := Ideal) ⟨0, ![]⟩ .f32 0x00000000#32)))
        (broadcastInDim ⟨2, ![n, N]⟩ ![] hb0 (constant (F := Ideal) ⟨0, ![]⟩ .f32 0x00000000#32))
      = maximumf Y (broadcastInDim ⟨2, ![n, N]⟩ ![] hb0 (constant (F := Ideal) ⟨0, ![]⟩ .f32 0x00000000#32)) := by
  funext i
  rw [maximumf_apply, maximumf_apply]
  exact max_eq_left (le_max_right _ _)

end Cert.Lib.DenseLayer

end
-- ==== Proof.LibColumns.lean ====
/-
  Column forms of layout operations, and a minimum taken along one axis, read at an index given by coordinates.

  A reduction that keeps its axis (`keepdims`) along the LAST axis of an `[a, b]` array leaves an `[a, 1]` column:
  the vector of per-row results cast from `[a]` to `[a, 1]`, later broadcast back over the `b` columns.  The two
  lemmas here read those operations at `ix2 …` indices, beside the library's row forms (`[a] → [1, a]`,
  `[1, b] → [a, b]`).  The third reads a `minimumf` reduction along one axis, at the ideal floats, as the fold of `min`
  from the accumulator's value over that axis's coordinates; the fourth says the f32 word `0x7F800000` is `⊤`.
-/
import Idealize.ShloMosaic.Lib.ValueLayout
import Idealize.ShloMosaic.PureOps.Ideal.Laws

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A float `vector.multi_reduction <minimumf>` over one axis, read at the ideal floats: the fold of `min` from the
    accumulator's value over that axis's coordinates (a column's minimum). -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The f32 word of `+∞` denotes `⊤`. -/
theorem ofBits_inf_f32 : Ideal.ofBits .f32 0x7F800000#32 = ⊤ := by
  simp [Ideal.ofBits, Ideal.ieee]

end Idealize.ShloMosaic.ValueIdx
-- ==== Proof.GraphLayer.lean ====
/-
  One layer of the network, entry by entry.

  For a node array `A : n × 128` of aggregated messages, a column `s : n × 1` of in-degree scales, weights `W : 128 × 128` with
  bias row `b : 1 × 128`, the concatenated features `X : n × C` with weights `Wb : C × 128` and bias row `bb : 1 × 128`, and a
  column `nb : n × 1`, the layer's entry `(r, q)` is

      (∑ k, (A[r, k] · s[r, 0]) · W[k, q] + b[0, q])  +  nb[r, 0] · (∑ k, X[r, k] · Wb[k, q] + bb[0, q])

  (`layer`), and `layerRelu` is its maximum with the float zero. Over the extended reals a change of float format is the
  identity and both matrix products are plain sums, so the kernel body's spelling of the layer on a block of rows
  (`body_eq`) and the host's spelling on the whole arrays (`host_eq`, the bias vectors cast to rows) are this one function —
  the same sums and products in the same order, so no finiteness is needed. An entry reads one row of `A`, `s`, `X` and `nb`
  (`layer_entry`), which is what lets a grid of row blocks compute the layer of the whole arrays.
-/
import proofs.«175184_j50448685859072_1_alg».proof.Proof.LibDenseLayer
import proofs.«175184_j50448685859072_1_alg».proof.Proof.LibColumns

noncomputable section

open scoped BigOperators

namespace Cert.GraphLayer

open Idealize.ShloMosaic Idealize.ShloMosaic.ValueIdx Cert.Lib.DotCols Cert.Lib.DotColsHost Cert.Lib.DenseLayer

variable {n M C : Nat}

/-- Each row of `A` scaled by that row's entry of the column `s`. -/
def scaleRows (A : FVec Ideal ⟨2, ![n, 128]⟩ .f32) (s : FVec Ideal ⟨2, ![n, 1]⟩ .f32) : FVec Ideal ⟨2, ![n, 128]⟩ .f32 :=
  fun i => A i * s (ix2 (n0 := n) (n1 := 1) (i 0) (0 : Fin 1))

/-- The layer before the rectifier. -/
def layer (A : FVec Ideal ⟨2, ![n, 128]⟩ .f32) (s : FVec Ideal ⟨2, ![n, 1]⟩ .f32) (W : FVec Ideal ⟨2, ![128, 128]⟩ .f32)
    (b : FVec Ideal ⟨2, ![1, 128]⟩ .f32) (X : FVec Ideal ⟨2, ![n, C]⟩ .f32) (Wb : FVec Ideal ⟨2, ![C, 128]⟩ .f32)
    (bb : FVec Ideal ⟨2, ![1, 128]⟩ .f32) (nb : FVec Ideal ⟨2, ![n, 1]⟩ .f32) : FVec Ideal ⟨2, ![n, 128]⟩ .f32 :=
  fun i => affine (scaleRows A s) W b i + nb (ix2 (n0 := n) (n1 := 1) (i 0) (0 : Fin 1)) * affine X Wb bb i

/-- The layer with the rectifier. -/
def layerRelu (A : FVec Ideal ⟨2, ![n, 128]⟩ .f32) (s : FVec Ideal ⟨2, ![n, 1]⟩ .f32) (W : FVec Ideal ⟨2, ![128, 128]⟩ .f32)
    (b : FVec Ideal ⟨2, ![1, 128]⟩ .f32) (X : FVec Ideal ⟨2, ![n, C]⟩ .f32) (Wb : FVec Ideal ⟨2, ![C, 128]⟩ .f32)
    (bb : FVec Ideal ⟨2, ![1, 128]⟩ .f32) (nb : FVec Ideal ⟨2, ![n, 1]⟩ .f32) : FVec Ideal ⟨2, ![n, 128]⟩ .f32 :=
  fun i => max (layer A s W b X Wb bb nb i) (Ideal.ofBits .f32 0x00000000#32)

theorem layer_apply (A : FVec Ideal ⟨2, ![n, 128]⟩ .f32) (s : FVec Ideal ⟨2, ![n, 1]⟩ .f32) (W : FVec Ideal ⟨2, ![128, 128]⟩ .f32)
    (b : FVec Ideal ⟨2, ![1, 128]⟩ .f32) (X : FVec Ideal ⟨2, ![n, C]⟩ .f32) (Wb : FVec Ideal ⟨2, ![C, 128]⟩ .f32)
    (bb : FVec Ideal ⟨2, ![1, 128]⟩ .f32) (nb : FVec Ideal ⟨2, ![n, 1]⟩ .f32) (r : Fin n) (q : Fin 128) :
    layer A s W b X Wb bb nb (ix2 r q)
      = ((∑ k : Fin 128, (A (ix2 r k) * s (ix2 r (0 : Fin 1))) * W (ix2 k q)) + b (ix2 (0 : Fin 1) q))
        + nb (ix2 r (0 : Fin 1)) * ((∑ k : Fin C, X (ix2 r k) * Wb (ix2 k q)) + bb (ix2 (0 : Fin 1) q)) := rfl

/-- An entry of the layer reads one row of the node arrays, one column of the weights and one entry of each bias row: if
    row `p` of the block arrays is row `r` of the whole arrays, and column `q` of the weights and entry `q` of the bias rows
    agree, the block's layer at `(p, q)` is the whole arrays' at `(r, q)`. -/
theorem layer_entry (A : FVec Ideal ⟨2, ![n, 128]⟩ .f32) (s : FVec Ideal ⟨2, ![n, 1]⟩ .f32) (W : FVec Ideal ⟨2, ![128, 128]⟩ .f32)
    (b : FVec Ideal ⟨2, ![1, 128]⟩ .f32) (X : FVec Ideal ⟨2, ![n, C]⟩ .f32) (Wb : FVec Ideal ⟨2, ![C, 128]⟩ .f32)
    (bb : FVec Ideal ⟨2, ![1, 128]⟩ .f32) (nb : FVec Ideal ⟨2, ![n, 1]⟩ .f32)
    (a : FVec Ideal ⟨2, ![M, 128]⟩ .f32) (s' : FVec Ideal ⟨2, ![M, 1]⟩ .f32) (W' : FVec Ideal ⟨2, ![128, 128]⟩ .f32)
    (b' : FVec Ideal ⟨2, ![1, 128]⟩ .f32) (x : FVec Ideal ⟨2, ![M, C]⟩ .f32) (Wb' : FVec Ideal ⟨2, ![C, 128]⟩ .f32)
    (bb' : FVec Ideal ⟨2, ![1, 128]⟩ .f32) (nb' : FVec Ideal ⟨2, ![M, 1]⟩ .f32) (p : Fin M) (r : Fin n) (q : Fin 128)
    (ha : ∀ k : Fin 128, a (ix2 p k) = A (ix2 r k)) (hs : s' (ix2 p (0 : Fin 1)) = s (ix2 r (0 : Fin 1)))
    (hW : ∀ k : Fin 128, W' (ix2 k q) = W (ix2 k q)) (hb : b' (ix2 (0 : Fin 1) q) = b (ix2 (0 : Fin 1) q))
    (hx : ∀ k : Fin C, x (ix2 p k) = X (ix2 r k)) (hWb : ∀ k : Fin C, Wb' (ix2 k q) = Wb (ix2 k q))
    (hbb : bb' (ix2 (0 : Fin 1) q) = bb (ix2 (0 : Fin 1) q)) (hnb : nb' (ix2 p (0 : Fin 1)) = nb (ix2 r (0 : Fin 1))) :
    layer a s' W' b' x Wb' bb' nb' (ix2 p q) = layer A s W b X Wb bb nb (ix2 r q) := by
  rw [layer_apply, layer_apply, hs, hnb, hb, hbb]
  refine congrArg₂ (· + ·) (congrArg (· + b (ix2 (0 : Fin 1) q)) (Finset.sum_congr rfl fun k _ => by rw [ha k, hW k])) ?_
  exact congrArg (fun v => nb (ix2 r (0 : Fin 1)) * (v + bb (ix2 (0 : Fin 1) q))) (Finset.sum_congr rfl fun k _ => by rw [hx k, hWb k])

/-! ## The kernel body's spelling, on a block of rows -/

/-- The body's value before the rectifier: the aggregated block scaled by the broadcast column and rounded to bf16 (the
    identity here), multiplied into the zero accumulator, plus the broadcast bias row; plus the broadcast column times the
    same for the concatenated block. -/
theorem body_eq (D1 : DotDims ⟨2, ![M, 128]⟩ ⟨2, ![128, 128]⟩ ⟨2, ![M, 128]⟩) (hD1 : D1 = DotDims.plain M 128 128)
    (D2 : DotDims ⟨2, ![M, C]⟩ ⟨2, ![C, 128]⟩ ⟨2, ![M, 128]⟩) (hD2 : D2 = DotDims.plain M C 128)
    (hA : (⟨2, ![M, 128]⟩ : Shape).ShapeCasts ⟨2, ![M, 128]⟩) (hs : (⟨2, ![M, 1]⟩ : Shape).ShapeCasts ⟨2, ![M, 1]⟩)
    (hsb : (⟨2, ![M, 1]⟩ : Shape).Broadcasts ⟨2, ![M, 128]⟩) (hr : (⟨2, ![1, 128]⟩ : Shape).ShapeCasts ⟨2, ![1, 128]⟩)
    (hrb : (⟨2, ![1, 128]⟩ : Shape).Broadcasts ⟨2, ![M, 128]⟩) (hbits : FTy.bits .bf16 < FTy.bits .f32)
    (x0 : FVec Ideal ⟨2, ![M, 128]⟩ .f32) (x1 : FVec Ideal ⟨2, ![M, 1]⟩ .f32) (x2 : FVec Ideal ⟨2, ![128, 128]⟩ .f32)
    (x3 : FVec Ideal ⟨2, ![1, 128]⟩ .f32) (x4 : FVec Ideal ⟨2, ![M, C]⟩ .f32) (x5 : FVec Ideal ⟨2, ![C, 128]⟩ .f32)
    (x6 : FVec Ideal ⟨2, ![1, 128]⟩ .f32) (x7 : FVec Ideal ⟨2, ![M, 1]⟩ .f32) :
    addf (addf (matmul D1 none (truncf .bf16 (mulf (shapeCast ⟨2, ![M, 128]⟩ x0 hA)
              (broadcastTo ⟨2, ![M, 128]⟩ (shapeCast ⟨2, ![M, 1]⟩ x1 hs) hsb)) hbits) (truncf .bf16 x2 hbits)
            (constant ⟨2, ![M, 128]⟩ .f32 0x00000000#32))
          (broadcastTo ⟨2, ![M, 128]⟩ (shapeCast ⟨2, ![1, 128]⟩ x3 hr) hrb))
        (mulf (broadcastTo ⟨2, ![M, 128]⟩ (shapeCast ⟨2, ![M, 1]⟩ x7 hs) hsb)
          (addf (matmul D2 none (truncf .bf16 x4 hbits) (truncf .bf16 x5 hbits) (constant ⟨2, ![M, 128]⟩ .f32 0x00000000#32))
            (broadcastTo ⟨2, ![M, 128]⟩ (shapeCast ⟨2, ![1, 128]⟩ x6 hr) hrb)))
      = layer x0 x1 x2 x3 x4 x5 x6 x7 := by
  funext i
  obtain ⟨p, q, rfl⟩ : ∃ (p : Fin M) (q : Fin 128), i = ix2 p q := ⟨i 0, i 1, eq_ix2 i⟩
  rw [layer_apply]
  simp only [addf_apply, mulf_apply]
  refine congrArg₂ (· + ·) (congrArg₂ (· + ·) ?_ ?_) (congrArg₂ (· * ·) ?_ (congrArg₂ (· + ·) ?_ ?_))
  · refine (matmul_cols_apply D1 hD1 none _ _ p q).trans (Finset.sum_congr rfl fun k _ => ?_)
    refine congrArg (· * x2 (ix2 k q)) ?_
    show (mulf (shapeCast ⟨2, ![M, 128]⟩ x0 hA) (broadcastTo ⟨2, ![M, 128]⟩ (shapeCast ⟨2, ![M, 1]⟩ x1 hs) hsb)) (ix2 p k) = _
    rw [mulf_apply, shapeCast_self, shapeCast_self, broadcastTo_a1_ab_apply]
  · rw [shapeCast_self, broadcastTo_1b_ab_apply]
  · rw [shapeCast_self, broadcastTo_a1_ab_apply]
  · exact (matmul_cols_apply D2 hD2 none _ _ p q).trans (Finset.sum_congr rfl fun k _ => rfl)
  · rw [shapeCast_self, broadcastTo_1b_ab_apply]

/-- … and its maximum with a broadcast zero. -/
theorem body_relu_eq (D1 : DotDims ⟨2, ![M, 128]⟩ ⟨2, ![128, 128]⟩ ⟨2, ![M, 128]⟩) (hD1 : D1 = DotDims.plain M 128 128)
    (D2 : DotDims ⟨2, ![M, C]⟩ ⟨2, ![C, 128]⟩ ⟨2, ![M, 128]⟩) (hD2 : D2 = DotDims.plain M C 128)
    (hA : (⟨2, ![M, 128]⟩ : Shape).ShapeCasts ⟨2, ![M, 128]⟩) (hs : (⟨2, ![M, 1]⟩ : Shape).ShapeCasts ⟨2, ![M, 1]⟩)
    (hsb : (⟨2, ![M, 1]⟩ : Shape).Broadcasts ⟨2, ![M, 128]⟩) (hr : (⟨2, ![1, 128]⟩ : Shape).ShapeCasts ⟨2, ![1, 128]⟩)
    (hrb : (⟨2, ![1, 128]⟩ : Shape).Broadcasts ⟨2, ![M, 128]⟩) (hbits : FTy.bits .bf16 < FTy.bits .f32)
    (x0 : FVec Ideal ⟨2, ![M, 128]⟩ .f32) (x1 : FVec Ideal ⟨2, ![M, 1]⟩ .f32) (x2 : FVec Ideal ⟨2, ![128, 128]⟩ .f32)
    (x3 : FVec Ideal ⟨2, ![1, 128]⟩ .f32) (x4 : FVec Ideal ⟨2, ![M, C]⟩ .f32) (x5 : FVec Ideal ⟨2, ![C, 128]⟩ .f32)
    (x6 : FVec Ideal ⟨2, ![1, 128]⟩ .f32) (x7 : FVec Ideal ⟨2, ![M, 1]⟩ .f32) :
    maximumf (addf (addf (matmul D1 none (truncf .bf16 (mulf (shapeCast ⟨2, ![M, 128]⟩ x0 hA)
              (broadcastTo ⟨2, ![M, 128]⟩ (shapeCast ⟨2, ![M, 1]⟩ x1 hs) hsb)) hbits) (truncf .bf16 x2 hbits)
            (constant ⟨2, ![M, 128]⟩ .f32 0x00000000#32))
          (broadcastTo ⟨2, ![M, 128]⟩ (shapeCast ⟨2, ![1, 128]⟩ x3 hr) hrb))
        (mulf (broadcastTo ⟨2, ![M, 128]⟩ (shapeCast ⟨2, ![M, 1]⟩ x7 hs) hsb)
          (addf (matmul D2 none (truncf .bf16 x4 hbits) (truncf .bf16 x5 hbits) (constant ⟨2, ![M, 128]⟩ .f32 0x00000000#32))
            (broadcastTo ⟨2, ![M, 128]⟩ (shapeCast ⟨2, ![1, 128]⟩ x6 hr) hrb))))
        (broadcast ⟨2, ![M, 128]⟩ (Scalar.ofBits (F := Ideal) .f32 0x00000000#32))
      = layerRelu x0 x1 x2 x3 x4 x5 x6 x7 := by
  rw [body_eq D1 hD1 D2 hD2 hA hs hsb hr hrb hbits]
  rfl

/-! ## The host's spelling, on the whole arrays -/

/-- An `n × 1` column spread over the 128 columns reads, at `(r, q)`, the column's entry of row `r`. -/
theorem column_spread_apply (hc : (⟨2, ![n, 1]⟩ : Shape).BroadcastsInDim ⟨2, ![n, 128]⟩ ![0, 1])
    (s : FVec Ideal ⟨2, ![n, 1]⟩ .f32) (r : Fin n) (q : Fin 128) :
    broadcastInDim ⟨2, ![n, 128]⟩ ![0, 1] hc s (ix2 r q) = s (ix2 r (0 : Fin 1)) :=
  broadcastInDim_apply ![0, 1] hc s (ix2 r q) (ix2 r (0 : Fin 1)) (fun a => by
    match a with
    | ⟨0, _⟩ =>
      show r.val = if n = 1 then 0 else r.val
      split
      · have := r.isLt; omega
      · rfl
    | ⟨1, _⟩ => exact (if_pos rfl).symm)

/-- The host's value before the rectifier: `dot_general` of the aggregated array times the spread column, plus the bias
    vector broadcast to a row and over the rows; plus the spread column times the same for the concatenated array. -/
theorem host_eq (D1 : DotDims ⟨2, ![n, 128]⟩ ⟨2, ![128, 128]⟩ ⟨2, ![n, 128]⟩) (hD1 : D1 = DotDims.plain n 128 128)
    (D2 : DotDims ⟨2, ![n, C]⟩ ⟨2, ![C, 128]⟩ ⟨2, ![n, 128]⟩) (hD2 : D2 = DotDims.plain n C 128)
    (hc : (⟨2, ![n, 1]⟩ : Shape).BroadcastsInDim ⟨2, ![n, 128]⟩ ![0, 1])
    (hb1 : (⟨1, ![128]⟩ : Shape).BroadcastsInDim ⟨2, ![1, 128]⟩ ![1])
    (hb2 : (⟨2, ![1, 128]⟩ : Shape).BroadcastsInDim ⟨2, ![n, 128]⟩ ![0, 1])
    (hsc : (⟨1, ![128]⟩ : Shape).ShapeCasts ⟨2, ![1, 128]⟩)
    (A : FVec Ideal ⟨2, ![n, 128]⟩ .f32) (s : FVec Ideal ⟨2, ![n, 1]⟩ .f32) (W : FVec Ideal ⟨2, ![128, 128]⟩ .f32)
    (b : FVec Ideal ⟨1, ![128]⟩ .f32) (X : FVec Ideal ⟨2, ![n, C]⟩ .f32) (Wb : FVec Ideal ⟨2, ![C, 128]⟩ .f32)
    (bb : FVec Ideal ⟨1, ![128]⟩ .f32) (nb : FVec Ideal ⟨2, ![n, 1]⟩ .f32) :
    addf (addf (Host.dotGeneral D1 none (mulf A (broadcastInDim ⟨2, ![n, 128]⟩ ![0, 1] hc s)) W)
          (broadcastInDim ⟨2, ![n, 128]⟩ ![0, 1] hb2 (broadcastInDim ⟨2, ![1, 128]⟩ ![1] hb1 b)))
        (mulf (broadcastInDim ⟨2, ![n, 128]⟩ ![0, 1] hc nb)
          (addf (Host.dotGeneral D2 none X Wb)
            (broadcastInDim ⟨2, ![n, 128]⟩ ![0, 1] hb2 (broadcastInDim ⟨2, ![1, 128]⟩ ![1] hb1 bb))))
      = layer A s W (shapeCast ⟨2, ![1, 128]⟩ b hsc) X Wb (shapeCast ⟨2, ![1, 128]⟩ bb hsc) nb := by
  funext i
  obtain ⟨r, q, rfl⟩ : ∃ (r : Fin n) (q : Fin 128), i = ix2 r q := ⟨i 0, i 1, eq_ix2 i⟩
  rw [layer_apply]
  simp only [addf_apply, mulf_apply]
  refine congrArg₂ (· + ·) (congrArg₂ (· + ·) ?_ ?_) (congrArg₂ (· * ·) ?_ (congrArg₂ (· + ·) ?_ ?_))
  · refine (dotGeneral_cols_apply D1 hD1 none .single _ W r q).trans (Finset.sum_congr rfl fun k _ => ?_)
    refine congrArg (· * W (ix2 k q)) ?_
    rw [mulf_apply, column_spread_apply]
  · rw [bias_rows_apply hb1 hb2 b r q, bias_cast_apply hsc b q]
  · exact column_spread_apply hc nb r q
  · exact dotGeneral_cols_apply D2 hD2 none .single X Wb r q
  · rw [bias_rows_apply hb1 hb2 bb r q, bias_cast_apply hsc bb q]

/-- … and its maximum with a broadcast zero. -/
theorem host_relu_eq (D1 : DotDims ⟨2, ![n, 128]⟩ ⟨2, ![128, 128]⟩ ⟨2, ![n, 128]⟩) (hD1 : D1 = DotDims.plain n 128 128)
    (D2 : DotDims ⟨2, ![n, C]⟩ ⟨2, ![C, 128]⟩ ⟨2, ![n, 128]⟩) (hD2 : D2 = DotDims.plain n C 128)
    (hc : (⟨2, ![n, 1]⟩ : Shape).BroadcastsInDim ⟨2, ![n, 128]⟩ ![0, 1])
    (hb1 : (⟨1, ![128]⟩ : Shape).BroadcastsInDim ⟨2, ![1, 128]⟩ ![1])
    (hb2 : (⟨2, ![1, 128]⟩ : Shape).BroadcastsInDim ⟨2, ![n, 128]⟩ ![0, 1])
    (hb0 : (⟨0, ![]⟩ : Shape).BroadcastsInDim ⟨2, ![n, 128]⟩ ![])
    (hsc : (⟨1, ![128]⟩ : Shape).ShapeCasts ⟨2, ![1, 128]⟩)
    (A : FVec Ideal ⟨2, ![n, 128]⟩ .f32) (s : FVec Ideal ⟨2, ![n, 1]⟩ .f32) (W : FVec Ideal ⟨2, ![128, 128]⟩ .f32)
    (b : FVec Ideal ⟨1, ![128]⟩ .f32) (X : FVec Ideal ⟨2, ![n, C]⟩ .f32) (Wb : FVec Ideal ⟨2, ![C, 128]⟩ .f32)
    (bb : FVec Ideal ⟨1, ![128]⟩ .f32) (nb : FVec Ideal ⟨2, ![n, 1]⟩ .f32) :
    maximumf (addf (addf (Host.dotGeneral D1 none (mulf A (broadcastInDim ⟨2, ![n, 128]⟩ ![0, 1] hc s)) W)
          (broadcastInDim ⟨2, ![n, 128]⟩ ![0, 1] hb2 (broadcastInDim ⟨2, ![1, 128]⟩ ![1] hb1 b)))
        (mulf (broadcastInDim ⟨2, ![n, 128]⟩ ![0, 1] hc nb)
          (addf (Host.dotGeneral D2 none X Wb)
            (broadcastInDim ⟨2, ![n, 128]⟩ ![0, 1] hb2 (broadcastInDim ⟨2, ![1, 128]⟩ ![1] hb1 bb)))))
        (broadcastInDim ⟨2, ![n, 128]⟩ ![] hb0 (constant (F := Ideal) ⟨0, ![]⟩ .f32 0x00000000#32))
      = layerRelu A s W (shapeCast ⟨2, ![1, 128]⟩ b hsc) X Wb (shapeCast ⟨2, ![1, 128]⟩ bb hsc) nb := by
  rw [host_eq D1 hD1 D2 hD2 hc hb1 hb2 hsc]
  funext i
  rw [maximumf_apply, broadcastInDim_apply ![] hb0 _ i ix0 (fun a => a.elim0)]
  rfl

end Cert.GraphLayer

end
-- ==== Proof.IdealValue0.lean ====
/-
  What region 0 leaves in its output array, over the extended reals: the layer's value (rectified) of the arrays the
  region is entered with. The body's one stored value is the layer of the eight input blocks (`pay0_eq`); at grid point
  `t` the row-blocked windows (the aggregated messages, the two degree columns, the concatenated features, the output) sit
  at rows `2000·t … 2000·t + 1999` and the weight and bias windows are their whole arrays (`idx_facts0`, decided over the
  grid); an entry of the layer reads one row, so what point `t` writes back is block `t` of the whole arrays' layer
  (`flushed0_eq`); the 25 blocks cover the 50000 rows, so the array ends holding that layer (`final0`).
-/
import proofs.«175184_j50448685859072_1_alg».proof.Proof.IdealRegion0
import proofs.«175184_j50448685859072_1_alg».proof.Proof.GraphLayer
import Idealize.ShloMosaic.Lib.Pipeline.Value

set_option maxRecDepth 16384

noncomputable section

namespace Cert.KernelIdeal.Fr

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.GraphLayer

variable (V : (c : Dev nD) → (b : Ref sig .tc) → Buf (Elt Ideal) ((c : Thread nD τ).loc b))

theorem hz0 : (![0, 0] : Fin 2 → Nat) = fun _ => 0 := funext fun a => by fin_cases a <;> rfl

/-- The body's stored value is the layer of the blocks it loaded. -/
theorem pay0_eq (x0 : FVec Ideal S2000x128 .f32) (x1 : FVec Ideal S2000x1 .f32) (x2 : FVec Ideal S128x128 .f32) (x3 : FVec Ideal S1x128 .f32) (x4 : FVec Ideal S2000x128 .f32) (x5 : FVec Ideal S128x128 .f32) (x6 : FVec Ideal S1x128 .f32) (x7 : FVec Ideal S2000x1 .f32) :
    k0_pay1 (F := Ideal) x0 x1 x2 x3 x4 x5 x6 x7 = layerRelu (n := 2000) (C := 128) x0 x1 x2 x3 x4 x5 x6 x7 :=
  body_relu_eq dot_S2000x128_S128x128_S2000x128_1_0_0_1_n_n rfl dot_S2000x128_S128x128_S2000x128_1_0_0_1_n_n rfl _ _ _ _ _ _ x0 x1 x2 x3 x4 x5 x6 x7

/-- The printed index maps, decided over the grid. -/
theorem idx_facts0 : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = t.val
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = t.val
    ∧ win0_7.index t (1 : Fin 2) = 0
    ∧ win0_8.index t (0 : Fin 2) = t.val
    ∧ win0_8.index t (1 : Fin 2) = 0 :=
  (by decide +kernel : ∀ t : Fin grid0.N, _)

/-- The layer of the arrays the region is entered with. -/
def G0 (c : Dev nD) : FVec Ideal S50000x128 .f32 :=
  layerRelu (n := 50000) (C := 128) (V c main_v29) (V c main_v11) (V c main_arg3) (V c main_v30) (V c main_arg0) (V c main_arg5) (V c main_v31) (V c main_v17)

set_option maxHeartbeats 4000000 in
/-- What point `t` writes back is block `t` of `G0`. -/
theorem flushed0_eq (c : Dev nD) (t : Fin cfg0.N) :
    (dat0 V c).flushed 8 t = ((cfg0.win 8).blk t).view.read (Elt Ideal) (G0 V c) := by
  show (cfg0.win 8).cut (grid0.coords t) ((dat0 V c).after 8 t) = _
  rw [after0_8]
  unfold out0_8
  rw [View.canon_unit_zero hz0]
  simp only [View.ld_unit_zero (S := S2000x128) hz0, View.ld_unit_zero (S := S2000x1) hz0, View.ld_unit_zero (S := S128x128) hz0, View.ld_unit_zero (S := S1x128) hz0]
  rw [pay0_eq]
  obtain ⟨e00, e01, e10, e11, e20, e21, e30, e31, e40, e41, e50, e51, e60, e61, e70, e71, e80, e81⟩ := idx_facts0 t
  have hN : cfg0.N = 25 := N_0
  have ht : t.val < 25 := hN ▸ t.isLt
  funext j
  obtain ⟨p, q, rfl⟩ : ∃ (p : Fin 2000) (q : Fin 128), j = ix2 p q := ⟨j 0, j 1, eq_ix2 j⟩
  have hr : t.val * 2000 + p.val < 50000 := by have := p.isLt; omega
  rw [View.read_apply]
  have hemb : ((cfg0.win 8).blk t).view.emb (ix2 p q) = ix2 (⟨t.val * 2000 + p.val, hr⟩ : Fin 50000) q := by
    funext a; apply Fin.ext
    match a with
    | ⟨0, _⟩ => show win0_8.index t (0 : Fin 2) * 2000 + 1 * p.val = t.val * 2000 + p.val; rw [e80]; omega
    | ⟨1, _⟩ => show win0_8.index t (1 : Fin 2) * 128 + 1 * q.val = q.val; rw [e81]; omega
  rw [hemb]
  unfold G0
  refine congrArg (fun v => max v (Ideal.ofBits .f32 0x00000000#32)) ?_
  refine layer_entry (n := 50000) (M := 2000) (C := 128) (V c main_v29) (V c main_v11) (V c main_arg3) (V c main_v30) (V c main_arg0) (V c main_arg5) (V c main_v31) (V c main_v17)
    (iblk0 V c 0 t) (iblk0 V c 1 t) (iblk0 V c 2 t) (iblk0 V c 3 t) (iblk0 V c 4 t) (iblk0 V c 5 t) (iblk0 V c 6 t) (iblk0 V c 7 t)
    p ⟨t.val * 2000 + p.val, hr⟩ q ?_ ?_ ?_ ?_ ?_ ?_ ?_ ?_
  · intro k
    show (V c main_v29 : FVec Ideal S50000x128 .f32) (((cfg0.win 0).blk t).view.emb (ix2 p k)) = _
    refine congrArg (V c main_v29 : FVec Ideal S50000x128 .f32) ?_
    funext a; apply Fin.ext
    match a with
    | ⟨0, _⟩ => show win0_0.index t (0 : Fin 2) * 2000 + 1 * p.val = t.val * 2000 + p.val; rw [e00]; omega
    | ⟨1, _⟩ => show win0_0.index t (1 : Fin 2) * 128 + 1 * k.val = k.val; rw [e01]; omega
  · show (V c main_v11 : FVec Ideal S50000x1 .f32) (((cfg0.win 1).blk t).view.emb (ix2 p (0 : Fin 1))) = _
    refine congrArg (V c main_v11 : FVec Ideal S50000x1 .f32) ?_
    funext a; apply Fin.ext
    match a with
    | ⟨0, _⟩ => show win0_1.index t (0 : Fin 2) * 2000 + 1 * p.val = t.val * 2000 + p.val; rw [e10]; omega
    | ⟨1, _⟩ => show win0_1.index t (1 : Fin 2) * 1 + 1 * (0 : Fin 1).val = (0 : Fin 1).val; rw [e11]; omega
  · intro k
    show (V c main_arg3 : FVec Ideal S128x128 .f32) (((cfg0.win 2).blk t).view.emb (ix2 k q)) = _
    refine congrArg (V c main_arg3 : FVec Ideal S128x128 .f32) ?_
    funext a; apply Fin.ext
    match a with
    | ⟨0, _⟩ => show win0_2.index t (0 : Fin 2) * 128 + 1 * k.val = k.val; rw [e20]; omega
    | ⟨1, _⟩ => show win0_2.index t (1 : Fin 2) * 128 + 1 * q.val = q.val; rw [e21]; omega
  · show (V c main_v30 : FVec Ideal S1x128 .f32) (((cfg0.win 3).blk t).view.emb (ix2 (0 : Fin 1) q)) = _
    refine congrArg (V c main_v30 : FVec Ideal S1x128 .f32) ?_
    funext a; apply Fin.ext
    match a with
    | ⟨0, _⟩ => show win0_3.index t (0 : Fin 2) * 1 + 1 * (0 : Fin 1).val = (0 : Fin 1).val; rw [e30]; omega
    | ⟨1, _⟩ => show win0_3.index t (1 : Fin 2) * 128 + 1 * q.val = q.val; rw [e31]; omega
  · intro k
    show (V c main_arg0 : FVec Ideal S50000x128 .f32) (((cfg0.win 4).blk t).view.emb (ix2 p k)) = _
    refine congrArg (V c main_arg0 : FVec Ideal S50000x128 .f32) ?_
    funext a; apply Fin.ext
    match a with
    | ⟨0, _⟩ => show win0_4.index t (0 : Fin 2) * 2000 + 1 * p.val = t.val * 2000 + p.val; rw [e40]; omega
    | ⟨1, _⟩ => show win0_4.index t (1 : Fin 2) * 128 + 1 * k.val = k.val; rw [e41]; omega
  · intro k
    show (V c main_arg5 : FVec Ideal S128x128 .f32) (((cfg0.win 5).blk t).view.emb (ix2 k q)) = _
    refine congrArg (V c main_arg5 : FVec Ideal S128x128 .f32) ?_
    funext a; apply Fin.ext
    match a with
    | ⟨0, _⟩ => show win0_5.index t (0 : Fin 2) * 128 + 1 * k.val = k.val; rw [e50]; omega
    | ⟨1, _⟩ => show win0_5.index t (1 : Fin 2) * 128 + 1 * q.val = q.val; rw [e51]; omega
  · show (V c main_v31 : FVec Ideal S1x128 .f32) (((cfg0.win 6).blk t).view.emb (ix2 (0 : Fin 1) q)) = _
    refine congrArg (V c main_v31 : FVec Ideal S1x128 .f32) ?_
    funext a; apply Fin.ext
    match a with
    | ⟨0, _⟩ => show win0_6.index t (0 : Fin 2) * 1 + 1 * (0 : Fin 1).val = (0 : Fin 1).val; rw [e60]; omega
    | ⟨1, _⟩ => show win0_6.index t (1 : Fin 2) * 128 + 1 * q.val = q.val; rw [e61]; omega
  · show (V c main_v17 : FVec Ideal S50000x1 .f32) (((cfg0.win 7).blk t).view.emb (ix2 p (0 : Fin 1))) = _
    refine congrArg (V c main_v17 : FVec Ideal S50000x1 .f32) ?_
    funext a; apply Fin.ext
    match a with
    | ⟨0, _⟩ => show win0_7.index t (0 : Fin 2) * 2000 + 1 * p.val = t.val * 2000 + p.val; rw [e70]; omega
    | ⟨1, _⟩ => show win0_7.index t (1 : Fin 2) * 1 + 1 * (0 : Fin 1).val = (0 : Fin 1).val; rw [e71]; omega

/-- The output array after the region: the layer of the entry arrays. -/
theorem final0 (c : Dev nD) : (dat0 V c).arrAt 8 cfg0.N = G0 V c :=
  (dat0 V c).arrAt_eq_of_cover 8 (G0 V c) (fun t _ => flushed0_eq V c t) fun i => by
    have hN : cfg0.N = 25 := N_0
    have hi0 : (i 0).val < 50000 := (i 0).isLt
    have hi1 : (i 1).val < 128 := (i 1).isLt
    have hlt : (i 0).val / 2000 < cfg0.N := by rw [hN]; omega
    refine ⟨⟨(i 0).val / 2000, hlt⟩, flush0_8 _, ?_⟩
    obtain ⟨e00, e01, e10, e11, e20, e21, e30, e31, e40, e41, e50, e51, e60, e61, e70, e71, e80, e81⟩ := idx_facts0 ⟨(i 0).val / 2000, hlt⟩
    show i ∈ ((View.whole main_v32).slice (win0_8.rect ⟨(i 0).val / 2000, hlt⟩)).set
    rw [View.set_slice_whole, Rect.mem_set_unit]
    intro a
    match a with
    | ⟨0, _⟩ =>
      show win0_8.index ⟨(i 0).val / 2000, hlt⟩ (0 : Fin 2) * 2000 ≤ (i 0).val ∧ (i 0).val < win0_8.index ⟨(i 0).val / 2000, hlt⟩ (0 : Fin 2) * 2000 + 2000
      rw [e80]; show (i 0).val / 2000 * 2000 ≤ (i 0).val ∧ (i 0).val < (i 0).val / 2000 * 2000 + 2000; omega
    | ⟨1, _⟩ =>
      show win0_8.index ⟨(i 0).val / 2000, hlt⟩ (1 : Fin 2) * 128 ≤ (i 1).val ∧ (i 1).val < win0_8.index ⟨(i 0).val / 2000, hlt⟩ (1 : Fin 2) * 128 + 128
      rw [e81]; omega

end Cert.KernelIdeal.Fr

end
-- ==== Proof.RefLayers.lean ====
/-
  The reference's three layers are the layer function of `GraphLayer`: each is the host's spelling (`dot_general` of the
  aggregated messages times the spread in-degree column, the bias vector broadcast to a row and over the rows, plus the
  spread column times the same for the concatenated features; a maximum with a broadcast zero after the first two), read
  over the stages the reference computes before it. The bias vectors enter the layer function cast to rows.
-/
import proofs.«175184_j50448685859072_1_alg».proof.Proof.Gen.ReferenceIdeal.Read
import proofs.«175184_j50448685859072_1_alg».proof.Proof.GraphLayer

noncomputable section

namespace Cert.RefLayers

open Cert.ReferenceIdeal Cert.ReferenceIdeal.Read Idealize.ShloMosaic Cert.GraphLayer

variable (hsc : S128.ShapeCasts S1x128)

/-- Layer 0 (rectified): the first hidden features. -/
theorem layer0 (x0 : (⟨S50000x128, .f32⟩ : BufTy).Contents (Elt Ideal)) (x1 : (⟨S800000, .i32⟩ : BufTy).Contents (Elt Ideal)) (x2 : (⟨S800000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) :
    val_main_v43 (F := Ideal) x0 x1 x2 x3 x4 x5 x6
      = layerRelu (n := 50000) (C := 128) (val_main_v29 (F := Ideal) x0 x1 x2) (val_main_v11 (F := Ideal) x2) x3 (shapeCast S1x128 x4 hsc)
          x0 x5 (shapeCast S1x128 x6 hsc) (val_main_v17 (F := Ideal) x2) :=
  host_relu_eq dot_S50000x128_S128x128_S50000x128_1_0_0_1_n_n rfl dot_S50000x128_S128x128_S50000x128_1_0_0_1_n_n rfl _ _ _ _ hsc
    (val_main_v29 (F := Ideal) x0 x1 x2) (val_main_v11 (F := Ideal) x2) x3 x4 x0 x5 x6 (val_main_v17 (F := Ideal) x2)

/-- Layer 1 (rectified): the second hidden features, from the aggregate of the first and the two-part concatenation. -/
theorem layer1 (x0 : (⟨S50000x128, .f32⟩ : BufTy).Contents (Elt Ideal)) (x1 : (⟨S800000, .i32⟩ : BufTy).Contents (Elt Ideal)) (x2 : (⟨S800000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S256x128, .f32⟩ : BufTy).Contents (Elt Ideal)) (x10 : (⟨S128, .f32⟩ : BufTy).Contents (Elt Ideal)) :
    val_main_v70 (F := Ideal) x0 x1 x2 x3 x4 x5 x6 x7 x8 x9 x10
      = layerRelu (n := 50000) (C := 256) (val_main_v55 (F := Ideal) x0 x1 x2 x3 x4 x5 x6) (val_main_v11 (F := Ideal) x2) x7 (shapeCast S1x128 x8 hsc)
          (val_main_v62 (F := Ideal) x0 x1 x2 x3 x4 x5 x6) x9 (shapeCast S1x128 x10 hsc) (val_main_v17 (F := Ideal) x2) :=
  host_relu_eq dot_S50000x128_S128x128_S50000x128_1_0_0_1_n_n rfl dot_S50000x256_S256x128_S50000x128_1_0_0_1_n_n rfl _ _ _ _ hsc
    (val_main_v55 (F := Ideal) x0 x1 x2 x3 x4 x5 x6) (val_main_v11 (F := Ideal) x2) x7 x8 (val_main_v62 (F := Ideal) x0 x1 x2 x3 x4 x5 x6) x9 x10 (val_main_v17 (F := Ideal) x2)

/-- Layer 2 (not rectified): the result, from the aggregate of the second features and the three-part concatenation. -/
theorem layer2 (x0 : (⟨S50000x128, .f32⟩ : BufTy).Contents (Elt Ideal)) (x1 : (⟨S800000, .i32⟩ : BufTy).Contents (Elt Ideal)) (x2 : (⟨S800000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S256x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S384x128, .f32⟩ : BufTy).Contents (Elt Ideal)) (x14 : (⟨S128, .f32⟩ : BufTy).Contents (Elt Ideal)) :
    val_main_v96 (F := Ideal) x0 x1 x2 x3 x4 x5 x6 x7 x8 x9 x10 x11 x12 x13 x14
      = layer (n := 50000) (C := 384) (val_main_v82 (F := Ideal) x0 x1 x2 x3 x4 x5 x6 x7 x8 x9 x10) (val_main_v11 (F := Ideal) x2) x11 (shapeCast S1x128 x12 hsc)
          (val_main_v89 (F := Ideal) x0 x1 x2 x3 x4 x5 x6 x7 x8 x9 x10) x13 (shapeCast S1x128 x14 hsc) (val_main_v17 (F := Ideal) x2) :=
  host_eq dot_S50000x128_S128x128_S50000x128_1_0_0_1_n_n rfl dot_S50000x384_S384x128_S50000x128_1_0_0_1_n_n rfl _ _ _ hsc
    (val_main_v82 (F := Ideal) x0 x1 x2 x3 x4 x5 x6 x7 x8 x9 x10) (val_main_v11 (F := Ideal) x2) x11 x12 (val_main_v89 (F := Ideal) x0 x1 x2 x3 x4 x5 x6 x7 x8 x9 x10) x13 x14 (val_main_v17 (F := Ideal) x2)

end Cert.RefLayers

end
-- ==== Proof.IdealBridge0.lean ====
/-
  The kernel program's arrays up to region 0's output, over the extended reals, as the reference's stages of the launch
  arguments. Stretch by stretch: the all-ones edge weights and the in-degree scatter-sum; its clip at one; the out-degree
  scatter-sum and its clip; then the inverse square roots and the reciprocal as columns, the features scaled by the
  out-degree column, gathered at the sources and scatter-summed at the destinations, and the two bias vectors cast to rows
  — each the reference's own operation on an equal operand. Region 0 then leaves the layer of those arrays, which is the
  reference's first rectified layer.
-/
import proofs.«175184_j50448685859072_1_alg».proof.Proof.IdealRun
import proofs.«175184_j50448685859072_1_alg».proof.Proof.IdealValue0
import proofs.«175184_j50448685859072_1_alg».proof.Proof.RefLayers

set_option maxRecDepth 16384

noncomputable section

namespace Cert.KernelIdeal.Fr

open Idealize.ShloMosaic Idealize.ShloMosaic.TcCoe Idealize.ShloMosaic.StableHlo
open Idealize.SL Idealize.SL.Sem
open Cert.KernelIdeal Cert.KernelIdeal.Gen Cert.GraphLayer
open Cert.ReferenceIdeal.Read (val_main_v0 val_main_v3 val_main_cst_1 val_main_v4 val_main_v7 val_main_cst_3 val_main_v8 val_main_v11 val_main_v14 val_main_v17 val_main_v29 val_main_v43)

variable (m : (ℓ : Loc nD τ sig) → Buf (Elt Ideal) ℓ) (c : Dev nD)

/-! ## The launch arguments -/
abbrev A0 : (⟨S50000x128, .f32⟩ : BufTy).Contents (Elt Ideal) := m ((c.tc : Thread nD τ).loc main_arg0)
abbrev A1 : (⟨S800000, .i32⟩ : BufTy).Contents (Elt Ideal) := m ((c.tc : Thread nD τ).loc main_arg1)
abbrev A2 : (⟨S800000, .i32⟩ : BufTy).Contents (Elt Ideal) := m ((c.tc : Thread nD τ).loc main_arg2)
abbrev A3 : (⟨S128x128, .f32⟩ : BufTy).Contents (Elt Ideal) := m ((c.tc : Thread nD τ).loc main_arg3)
abbrev A4 : (⟨S128, .f32⟩ : BufTy).Contents (Elt Ideal) := m ((c.tc : Thread nD τ).loc main_arg4)
abbrev A5 : (⟨S128x128, .f32⟩ : BufTy).Contents (Elt Ideal) := m ((c.tc : Thread nD τ).loc main_arg5)
abbrev A6 : (⟨S128, .f32⟩ : BufTy).Contents (Elt Ideal) := m ((c.tc : Thread nD τ).loc main_arg6)
abbrev A7 : (⟨S128x128, .f32⟩ : BufTy).Contents (Elt Ideal) := m ((c.tc : Thread nD τ).loc main_arg7)
abbrev A8 : (⟨S128, .f32⟩ : BufTy).Contents (Elt Ideal) := m ((c.tc : Thread nD τ).loc main_arg8)
abbrev A9 : (⟨S256x128, .f32⟩ : BufTy).Contents (Elt Ideal) := m ((c.tc : Thread nD τ).loc main_arg9)
abbrev A10 : (⟨S128, .f32⟩ : BufTy).Contents (Elt Ideal) := m ((c.tc : Thread nD τ).loc main_arg10)
abbrev A11 : (⟨S128x128, .f32⟩ : BufTy).Contents (Elt Ideal) := m ((c.tc : Thread nD τ).loc main_arg11)
abbrev A12 : (⟨S128, .f32⟩ : BufTy).Contents (Elt Ideal) := m ((c.tc : Thread nD τ).loc main_arg12)
abbrev A13 : (⟨S384x128, .f32⟩ : BufTy).Contents (Elt Ideal) := m ((c.tc : Thread nD τ).loc main_arg13)
abbrev A14 : (⟨S128, .f32⟩ : BufTy).Contents (Elt Ideal) := m ((c.tc : Thread nD τ).loc main_arg14)

/-! ## Contents at a buffer's own type

  The clip function's operations are written over typed references: contents pass through a transport along "the buffer's
  type is the value's", which is the identity at a literal buffer. These say so, once per buffer, at a variable. -/

theorem ofBuf_toBuf {T : BufTy} (x : StableHlo.TRef sig T) (v : T.Contents (Elt Ideal)) : x.ofBuf (x.toBuf v) = v := by
  obtain ⟨r, rfl, _, _⟩ := x; rfl
theorem ofBuf_cst1 (h1 : main_cst_1.ty = (⟨S_, .f32⟩ : BufTy)) (h2 : main_cst_1.space ≠ .host) (h3 : main_cst_1.isScoped = false)
    (v : (⟨S_, .f32⟩ : BufTy).Contents (Elt Ideal)) :
    (StableHlo.TRef.of (T := ⟨S_, .f32⟩) main_cst_1 h1 h2 h3).ofBuf (Val := Elt Ideal) v = v := rfl
theorem ofBuf_v3 (h1 : main_v3.ty = (⟨S50000, .f32⟩ : BufTy)) (h2 : main_v3.space ≠ .host) (h3 : main_v3.isScoped = false)
    (v : (⟨S50000, .f32⟩ : BufTy).Contents (Elt Ideal)) :
    (StableHlo.TRef.of (T := ⟨S50000, .f32⟩) main_v3 h1 h2 h3).ofBuf (Val := Elt Ideal) v = v := rfl
theorem ofBuf_cst3 (h1 : main_cst_3.ty = (⟨S_, .f32⟩ : BufTy)) (h2 : main_cst_3.space ≠ .host) (h3 : main_cst_3.isScoped = false)
    (v : (⟨S_, .f32⟩ : BufTy).Contents (Elt Ideal)) :
    (StableHlo.TRef.of (T := ⟨S_, .f32⟩) main_cst_3 h1 h2 h3).ofBuf (Val := Elt Ideal) v = v := rfl
theorem ofBuf_v7 (h1 : main_v7.ty = (⟨S50000, .f32⟩ : BufTy)) (h2 : main_v7.space ≠ .host) (h3 : main_v7.isScoped = false)
    (v : (⟨S50000, .f32⟩ : BufTy).Contents (Elt Ideal)) :
    (StableHlo.TRef.of (T := ⟨S50000, .f32⟩) main_v7 h1 h2 h3).ofBuf (Val := Elt Ideal) v = v := rfl
theorem toBuf_v4 (h1 : main_v4.ty = (⟨S50000, .f32⟩ : BufTy)) (h2 : main_v4.space ≠ .host) (h3 : main_v4.isScoped = false)
    (v : (⟨S50000, .f32⟩ : BufTy).Contents (Elt Ideal)) :
    (StableHlo.TRef.of (T := ⟨S50000, .f32⟩) main_v4 h1 h2 h3).toBuf (Val := Elt Ideal) v = v := rfl
theorem toBuf_v8 (h1 : main_v8.ty = (⟨S50000, .f32⟩ : BufTy)) (h2 : main_v8.space ≠ .host) (h3 : main_v8.isScoped = false)
    (v : (⟨S50000, .f32⟩ : BufTy).Contents (Elt Ideal)) :
    (StableHlo.TRef.of (T := ⟨S50000, .f32⟩) main_v8 h1 h2 h3).toBuf (Val := Elt Ideal) v = v := rfl

/-! ## The in-degree: edge weights, scatter-sum, clip -/

theorem v1_v0 : Gen.V1 m c (Proc.devRef .tc main_v0) = val_main_v0 (F := Ideal) := by
  show StableHlo.after hostOps0 (Gen.V0 m c) (Proc.devRef .tc main_v0) = _
  after_results_simp <;> rfl
theorem v1_v3 : Gen.V1 m c (Proc.devRef .tc main_v3) = val_main_v3 (F := Ideal) (A2 m c) := by
  show StableHlo.after hostOps0 (Gen.V0 m c) (Proc.devRef .tc main_v3) = _
  after_results_simp <;> rfl
theorem v1_cst1 : Gen.V1 m c (Proc.devRef .tc main_cst_1) = val_main_cst_1 (F := Ideal) := by
  show StableHlo.after hostOps0 (Gen.V0 m c) (Proc.devRef .tc main_cst_1) = _
  after_results_simp <;> rfl
theorem v2_v4 : Gen.V2 m c (Proc.devRef .tc main_v4) = val_main_v4 (F := Ideal) (A2 m c) := by
  show StableHlo.after hostOps0_1 (Gen.V1 m c) (Proc.devRef .tc main_v4) = _
  have h3 := v1_v3 m c
  have hc := v1_cst1 m c
  generalize Gen.V1 m c = W at h3 hc ⊢
  after_results_simp
  rw [h3, hc]
  simp only [ofBuf_toBuf, ofBuf_cst1, ofBuf_v3, toBuf_v4]
  rfl

/-! ## The out-degree -/

theorem v2_v0 : Gen.V2 m c (Proc.devRef .tc main_v0) = val_main_v0 (F := Ideal) := (V2_of m c main_v0 (by decide)).trans (v1_v0 m c)
theorem v2_a1 : Gen.V2 m c (Proc.devRef .tc main_arg1) = A1 m c := (V2_of m c main_arg1 (by decide)).trans <| (V1_of m c main_arg1 (by decide)).trans <| rfl
theorem v3_v7 : Gen.V3 m c (Proc.devRef .tc main_v7) = val_main_v7 (F := Ideal) (A1 m c) := by
  show StableHlo.after hostOps0_2 (Gen.V2 m c) (Proc.devRef .tc main_v7) = _
  have h0 := v2_v0 m c
  have h1 := v2_a1 m c
  generalize Gen.V2 m c = W at h0 h1 ⊢
  after_results_simp
  rw [h0, h1]
  rfl
theorem v3_cst3 : Gen.V3 m c (Proc.devRef .tc main_cst_3) = val_main_cst_3 (F := Ideal) := by
  show StableHlo.after hostOps0_2 (Gen.V2 m c) (Proc.devRef .tc main_cst_3) = _
  generalize Gen.V2 m c = W
  after_results_simp <;> rfl
theorem v4_v8 : Gen.V4 m c (Proc.devRef .tc main_v8) = val_main_v8 (F := Ideal) (A1 m c) := by
  show StableHlo.after hostOps0_3 (Gen.V3 m c) (Proc.devRef .tc main_v8) = _
  have h7 := v3_v7 m c
  have hc := v3_cst3 m c
  generalize Gen.V3 m c = W at h7 hc ⊢
  after_results_simp
  rw [h7, hc]
  simp only [ofBuf_toBuf, ofBuf_cst3, ofBuf_v7, toBuf_v8]
  rfl
theorem v4_v4 : Gen.V4 m c (Proc.devRef .tc main_v4) = val_main_v4 (F := Ideal) (A2 m c) :=
  (V4_of m c main_v4 (by decide)).trans ((V3_of m c main_v4 (by decide)).trans (v2_v4 m c))
theorem v4_a0 : Gen.V4 m c (Proc.devRef .tc main_arg0) = A0 m c := (V4_of m c main_arg0 (by decide)).trans <| (V3_of m c main_arg0 (by decide)).trans <| (V2_of m c main_arg0 (by decide)).trans <| (V1_of m c main_arg0 (by decide)).trans <| rfl
theorem v4_a1 : Gen.V4 m c (Proc.devRef .tc main_arg1) = A1 m c := (V4_of m c main_arg1 (by decide)).trans <| (V3_of m c main_arg1 (by decide)).trans <| (V2_of m c main_arg1 (by decide)).trans <| (V1_of m c main_arg1 (by decide)).trans <| rfl
theorem v4_a2 : Gen.V4 m c (Proc.devRef .tc main_arg2) = A2 m c := (V4_of m c main_arg2 (by decide)).trans <| (V3_of m c main_arg2 (by decide)).trans <| (V2_of m c main_arg2 (by decide)).trans <| (V1_of m c main_arg2 (by decide)).trans <| rfl
theorem v4_a4 : Gen.V4 m c (Proc.devRef .tc main_arg4) = A4 m c := (V4_of m c main_arg4 (by decide)).trans <| (V3_of m c main_arg4 (by decide)).trans <| (V2_of m c main_arg4 (by decide)).trans <| (V1_of m c main_arg4 (by decide)).trans <| rfl
theorem v4_a6 : Gen.V4 m c (Proc.devRef .tc main_arg6) = A6 m c := (V4_of m c main_arg6 (by decide)).trans <| (V3_of m c main_arg6 (by decide)).trans <| (V2_of m c main_arg6 (by decide)).trans <| (V1_of m c main_arg6 (by decide)).trans <| rfl

/-! ## What region 0 is entered with -/

theorem v5_v11 : E5 m c main_v11 = val_main_v11 (F := Ideal) (A2 m c) := by
  show StableHlo.after hostOps0_4 (Gen.V4 m c) (Proc.devRef .tc main_v11) = _
  have h4 := v4_v4 m c
  generalize Gen.V4 m c = W at h4 ⊢
  after_results_simp
  rw [h4]
  rfl
theorem v5_v14 : E5 m c main_v14 = val_main_v14 (F := Ideal) (A1 m c) := by
  show StableHlo.after hostOps0_4 (Gen.V4 m c) (Proc.devRef .tc main_v14) = _
  have h8 := v4_v8 m c
  generalize Gen.V4 m c = W at h8 ⊢
  after_results_simp
  rw [h8]
  rfl
theorem v5_v17 : E5 m c main_v17 = val_main_v17 (F := Ideal) (A2 m c) := by
  show StableHlo.after hostOps0_4 (Gen.V4 m c) (Proc.devRef .tc main_v17) = _
  have h4 := v4_v4 m c
  generalize Gen.V4 m c = W at h4 ⊢
  after_results_simp
  rw [h4]
  rfl
theorem v5_v29 : E5 m c main_v29 = val_main_v29 (F := Ideal) (A0 m c) (A1 m c) (A2 m c) := by
  show StableHlo.after hostOps0_4 (Gen.V4 m c) (Proc.devRef .tc main_v29) = _
  have h8 := v4_v8 m c
  have ha0 := v4_a0 m c
  have ha1 := v4_a1 m c
  have ha2 := v4_a2 m c
  generalize Gen.V4 m c = W at h8 ha0 ha1 ha2 ⊢
  after_results_simp
  rw [h8, ha0, ha1, ha2]
  rfl
theorem v5_v30 : E5 m c main_v30 = shapeCast S1x128 (A4 m c) shapeCasts_S128_S1x128 := by
  show StableHlo.after hostOps0_4 (Gen.V4 m c) (Proc.devRef .tc main_v30) = _
  have ha4 := v4_a4 m c
  generalize Gen.V4 m c = W at ha4 ⊢
  after_results_simp
  rw [ha4]
  rfl
theorem v5_v31 : E5 m c main_v31 = shapeCast S1x128 (A6 m c) shapeCasts_S128_S1x128 := by
  show StableHlo.after hostOps0_4 (Gen.V4 m c) (Proc.devRef .tc main_v31) = _
  have ha6 := v4_a6 m c
  generalize Gen.V4 m c = W at ha6 ⊢
  after_results_simp
  rw [ha6]
  rfl
theorem v5_a0 : E5 m c main_arg0 = A0 m c := (V5_of m c main_arg0 (by decide)).trans <| (V4_of m c main_arg0 (by decide)).trans <| (V3_of m c main_arg0 (by decide)).trans <| (V2_of m c main_arg0 (by decide)).trans <| (V1_of m c main_arg0 (by decide)).trans <| rfl
theorem v5_a1 : E5 m c main_arg1 = A1 m c := (V5_of m c main_arg1 (by decide)).trans <| (V4_of m c main_arg1 (by decide)).trans <| (V3_of m c main_arg1 (by decide)).trans <| (V2_of m c main_arg1 (by decide)).trans <| (V1_of m c main_arg1 (by decide)).trans <| rfl
theorem v5_a2 : E5 m c main_arg2 = A2 m c := (V5_of m c main_arg2 (by decide)).trans <| (V4_of m c main_arg2 (by decide)).trans <| (V3_of m c main_arg2 (by decide)).trans <| (V2_of m c main_arg2 (by decide)).trans <| (V1_of m c main_arg2 (by decide)).trans <| rfl
theorem v5_a3 : E5 m c main_arg3 = A3 m c := (V5_of m c main_arg3 (by decide)).trans <| (V4_of m c main_arg3 (by decide)).trans <| (V3_of m c main_arg3 (by decide)).trans <| (V2_of m c main_arg3 (by decide)).trans <| (V1_of m c main_arg3 (by decide)).trans <| rfl
theorem v5_a5 : E5 m c main_arg5 = A5 m c := (V5_of m c main_arg5 (by decide)).trans <| (V4_of m c main_arg5 (by decide)).trans <| (V3_of m c main_arg5 (by decide)).trans <| (V2_of m c main_arg5 (by decide)).trans <| (V1_of m c main_arg5 (by decide)).trans <| rfl

/-- Region 0 leaves the reference's first rectified layer. -/
theorem out0 : X6 m c (Proc.devRef .tc main_v32) = val_main_v43 (F := Ideal) (A0 m c) (A1 m c) (A2 m c) (A3 m c) (A4 m c) (A5 m c) (A6 m c) := by
  refine (X6_arr m c 8).trans ((final0 (E5 m) c).trans ?_)
  unfold G0
  rw [v5_v29 m c, v5_v11 m c, v5_a3 m c, v5_v30 m c, v5_a0 m c, v5_a5 m c, v5_v31 m c, v5_v17 m c]
  exact (Cert.RefLayers.layer0 shapeCasts_S128_S1x128 (A0 m c) (A1 m c) (A2 m c) (A3 m c) (A4 m c) (A5 m c) (A6 m c)).symm

end Cert.KernelIdeal.Fr

end
-- ==== Proof.IdealValue1.lean ====
/-
  What region 1 leaves in its output array, over the extended reals: the layer's value (rectified) of the arrays the
  region is entered with. The body's one stored value is the layer of the eight input blocks (`pay1_eq`); at grid point
  `t` the row-blocked windows (the aggregated messages, the two degree columns, the concatenated features, the output) sit
  at rows `2000·t … 2000·t + 1999` and the weight and bias windows are their whole arrays (`idx_facts1`, decided over the
  grid); an entry of the layer reads one row, so what point `t` writes back is block `t` of the whole arrays' layer
  (`flushed1_eq`); the 25 blocks cover the 50000 rows, so the array ends holding that layer (`final1`).
-/
import proofs.«175184_j50448685859072_1_alg».proof.Proof.IdealRegion1
import proofs.«175184_j50448685859072_1_alg».proof.Proof.GraphLayer
import Idealize.ShloMosaic.Lib.Pipeline.Value

set_option maxRecDepth 16384

noncomputable section

namespace Cert.KernelIdeal.Fr

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.GraphLayer

variable (V : (c : Dev nD) → (b : Ref sig .tc) → Buf (Elt Ideal) ((c : Thread nD τ).loc b))

theorem hz1 : (![0, 0] : Fin 2 → Nat) = fun _ => 0 := funext fun a => by fin_cases a <;> rfl

/-- The body's stored value is the layer of the blocks it loaded. -/
theorem pay1_eq (x0 : FVec Ideal S2000x128 .f32) (x1 : FVec Ideal S2000x1 .f32) (x2 : FVec Ideal S128x128 .f32) (x3 : FVec Ideal S1x128 .f32) (x4 : FVec Ideal S2000x256 .f32) (x5 : FVec Ideal S256x128 .f32) (x6 : FVec Ideal S1x128 .f32) (x7 : FVec Ideal S2000x1 .f32) :
    k1_pay1 (F := Ideal) x0 x1 x2 x3 x4 x5 x6 x7 = layerRelu (n := 2000) (C := 256) x0 x1 x2 x3 x4 x5 x6 x7 :=
  (body_relu_eq dot_S2000x128_S128x128_S2000x128_1_0_0_1_n_n rfl dot_S2000x256_S256x128_S2000x128_1_0_0_1_n_n rfl _ _ _ _ _ _ x0 x1 x2 x3 (shapeCast S2000x256 x4 shapeCasts_S2000x256_S2000x256) x5 x6 x7).trans (by rw [shapeCast_self])

/-- The printed index maps, decided over the grid. -/
theorem idx_facts1 : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = t.val
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = t.val
    ∧ win1_7.index t (1 : Fin 2) = 0
    ∧ win1_8.index t (0 : Fin 2) = t.val
    ∧ win1_8.index t (1 : Fin 2) = 0 :=
  (by decide +kernel : ∀ t : Fin grid1.N, _)

/-- The layer of the arrays the region is entered with. -/
def G1 (c : Dev nD) : FVec Ideal S50000x128 .f32 :=
  layerRelu (n := 50000) (C := 256) (V c main_v44) (V c main_v11) (V c main_arg7) (V c main_v46) (V c main_v45) (V c main_arg9) (V c main_v47) (V c main_v17)

set_option maxHeartbeats 4000000 in
/-- What point `t` writes back is block `t` of `G1`. -/
theorem flushed1_eq (c : Dev nD) (t : Fin cfg1.N) :
    (dat1 V c).flushed 8 t = ((cfg1.win 8).blk t).view.read (Elt Ideal) (G1 V c) := by
  show (cfg1.win 8).cut (grid1.coords t) ((dat1 V c).after 8 t) = _
  rw [after1_8]
  unfold out1_8
  rw [View.canon_unit_zero hz1]
  simp only [View.ld_unit_zero (S := S2000x128) hz1, View.ld_unit_zero (S := S2000x1) hz1, View.ld_unit_zero (S := S128x128) hz1, View.ld_unit_zero (S := S1x128) hz1, View.ld_unit_zero (S := S2000x256) hz1, View.ld_unit_zero (S := S256x128) hz1]
  rw [pay1_eq]
  obtain ⟨e00, e01, e10, e11, e20, e21, e30, e31, e40, e41, e50, e51, e60, e61, e70, e71, e80, e81⟩ := idx_facts1 t
  have hN : cfg1.N = 25 := N_1
  have ht : t.val < 25 := hN ▸ t.isLt
  funext j
  obtain ⟨p, q, rfl⟩ : ∃ (p : Fin 2000) (q : Fin 128), j = ix2 p q := ⟨j 0, j 1, eq_ix2 j⟩
  have hr : t.val * 2000 + p.val < 50000 := by have := p.isLt; omega
  rw [View.read_apply]
  have hemb : ((cfg1.win 8).blk t).view.emb (ix2 p q) = ix2 (⟨t.val * 2000 + p.val, hr⟩ : Fin 50000) q := by
    funext a; apply Fin.ext
    match a with
    | ⟨0, _⟩ => show win1_8.index t (0 : Fin 2) * 2000 + 1 * p.val = t.val * 2000 + p.val; rw [e80]; omega
    | ⟨1, _⟩ => show win1_8.index t (1 : Fin 2) * 128 + 1 * q.val = q.val; rw [e81]; omega
  rw [hemb]
  unfold G1
  refine congrArg (fun v => max v (Ideal.ofBits .f32 0x00000000#32)) ?_
  refine layer_entry (n := 50000) (M := 2000) (C := 256) (V c main_v44) (V c main_v11) (V c main_arg7) (V c main_v46) (V c main_v45) (V c main_arg9) (V c main_v47) (V c main_v17)
    (iblk1 V c 0 t) (iblk1 V c 1 t) (iblk1 V c 2 t) (iblk1 V c 3 t) (iblk1 V c 4 t) (iblk1 V c 5 t) (iblk1 V c 6 t) (iblk1 V c 7 t)
    p ⟨t.val * 2000 + p.val, hr⟩ q ?_ ?_ ?_ ?_ ?_ ?_ ?_ ?_
  · intro k
    show (V c main_v44 : FVec Ideal S50000x128 .f32) (((cfg1.win 0).blk t).view.emb (ix2 p k)) = _
    refine congrArg (V c main_v44 : FVec Ideal S50000x128 .f32) ?_
    funext a; apply Fin.ext
    match a with
    | ⟨0, _⟩ => show win1_0.index t (0 : Fin 2) * 2000 + 1 * p.val = t.val * 2000 + p.val; rw [e00]; omega
    | ⟨1, _⟩ => show win1_0.index t (1 : Fin 2) * 128 + 1 * k.val = k.val; rw [e01]; omega
  · show (V c main_v11 : FVec Ideal S50000x1 .f32) (((cfg1.win 1).blk t).view.emb (ix2 p (0 : Fin 1))) = _
    refine congrArg (V c main_v11 : FVec Ideal S50000x1 .f32) ?_
    funext a; apply Fin.ext
    match a with
    | ⟨0, _⟩ => show win1_1.index t (0 : Fin 2) * 2000 + 1 * p.val = t.val * 2000 + p.val; rw [e10]; omega
    | ⟨1, _⟩ => show win1_1.index t (1 : Fin 2) * 1 + 1 * (0 : Fin 1).val = (0 : Fin 1).val; rw [e11]; omega
  · intro k
    show (V c main_arg7 : FVec Ideal S128x128 .f32) (((cfg1.win 2).blk t).view.emb (ix2 k q)) = _
    refine congrArg (V c main_arg7 : FVec Ideal S128x128 .f32) ?_
    funext a; apply Fin.ext
    match a with
    | ⟨0, _⟩ => show win1_2.index t (0 : Fin 2) * 128 + 1 * k.val = k.val; rw [e20]; omega
    | ⟨1, _⟩ => show win1_2.index t (1 : Fin 2) * 128 + 1 * q.val = q.val; rw [e21]; omega
  · show (V c main_v46 : FVec Ideal S1x128 .f32) (((cfg1.win 3).blk t).view.emb (ix2 (0 : Fin 1) q)) = _
    refine congrArg (V c main_v46 : FVec Ideal S1x128 .f32) ?_
    funext a; apply Fin.ext
    match a with
    | ⟨0, _⟩ => show win1_3.index t (0 : Fin 2) * 1 + 1 * (0 : Fin 1).val = (0 : Fin 1).val; rw [e30]; omega
    | ⟨1, _⟩ => show win1_3.index t (1 : Fin 2) * 128 + 1 * q.val = q.val; rw [e31]; omega
  · intro k
    show (V c main_v45 : FVec Ideal S50000x256 .f32) (((cfg1.win 4).blk t).view.emb (ix2 p k)) = _
    refine congrArg (V c main_v45 : FVec Ideal S50000x256 .f32) ?_
    funext a; apply Fin.ext
    match a with
    | ⟨0, _⟩ => show win1_4.index t (0 : Fin 2) * 2000 + 1 * p.val = t.val * 2000 + p.val; rw [e40]; omega
    | ⟨1, _⟩ => show win1_4.index t (1 : Fin 2) * 256 + 1 * k.val = k.val; rw [e41]; omega
  · intro k
    show (V c main_arg9 : FVec Ideal S256x128 .f32) (((cfg1.win 5).blk t).view.emb (ix2 k q)) = _
    refine congrArg (V c main_arg9 : FVec Ideal S256x128 .f32) ?_
    funext a; apply Fin.ext
    match a with
    | ⟨0, _⟩ => show win1_5.index t (0 : Fin 2) * 256 + 1 * k.val = k.val; rw [e50]; omega
    | ⟨1, _⟩ => show win1_5.index t (1 : Fin 2) * 128 + 1 * q.val = q.val; rw [e51]; omega
  · show (V c main_v47 : FVec Ideal S1x128 .f32) (((cfg1.win 6).blk t).view.emb (ix2 (0 : Fin 1) q)) = _
    refine congrArg (V c main_v47 : FVec Ideal S1x128 .f32) ?_
    funext a; apply Fin.ext
    match a with
    | ⟨0, _⟩ => show win1_6.index t (0 : Fin 2) * 1 + 1 * (0 : Fin 1).val = (0 : Fin 1).val; rw [e60]; omega
    | ⟨1, _⟩ => show win1_6.index t (1 : Fin 2) * 128 + 1 * q.val = q.val; rw [e61]; omega
  · show (V c main_v17 : FVec Ideal S50000x1 .f32) (((cfg1.win 7).blk t).view.emb (ix2 p (0 : Fin 1))) = _
    refine congrArg (V c main_v17 : FVec Ideal S50000x1 .f32) ?_
    funext a; apply Fin.ext
    match a with
    | ⟨0, _⟩ => show win1_7.index t (0 : Fin 2) * 2000 + 1 * p.val = t.val * 2000 + p.val; rw [e70]; omega
    | ⟨1, _⟩ => show win1_7.index t (1 : Fin 2) * 1 + 1 * (0 : Fin 1).val = (0 : Fin 1).val; rw [e71]; omega

/-- The output array after the region: the layer of the entry arrays. -/
theorem final1 (c : Dev nD) : (dat1 V c).arrAt 8 cfg1.N = G1 V c :=
  (dat1 V c).arrAt_eq_of_cover 8 (G1 V c) (fun t _ => flushed1_eq V c t) fun i => by
    have hN : cfg1.N = 25 := N_1
    have hi0 : (i 0).val < 50000 := (i 0).isLt
    have hi1 : (i 1).val < 128 := (i 1).isLt
    have hlt : (i 0).val / 2000 < cfg1.N := by rw [hN]; omega
    refine ⟨⟨(i 0).val / 2000, hlt⟩, flush1_8 _, ?_⟩
    obtain ⟨e00, e01, e10, e11, e20, e21, e30, e31, e40, e41, e50, e51, e60, e61, e70, e71, e80, e81⟩ := idx_facts1 ⟨(i 0).val / 2000, hlt⟩
    show i ∈ ((View.whole main_v48).slice (win1_8.rect ⟨(i 0).val / 2000, hlt⟩)).set
    rw [View.set_slice_whole, Rect.mem_set_unit]
    intro a
    match a with
    | ⟨0, _⟩ =>
      show win1_8.index ⟨(i 0).val / 2000, hlt⟩ (0 : Fin 2) * 2000 ≤ (i 0).val ∧ (i 0).val < win1_8.index ⟨(i 0).val / 2000, hlt⟩ (0 : Fin 2) * 2000 + 2000
      rw [e80]; show (i 0).val / 2000 * 2000 ≤ (i 0).val ∧ (i 0).val < (i 0).val / 2000 * 2000 + 2000; omega
    | ⟨1, _⟩ =>
      show win1_8.index ⟨(i 0).val / 2000, hlt⟩ (1 : Fin 2) * 128 ≤ (i 1).val ∧ (i 1).val < win1_8.index ⟨(i 0).val / 2000, hlt⟩ (1 : Fin 2) * 128 + 128
      rw [e81]; omega

end Cert.KernelIdeal.Fr

end
-- ==== Proof.IdealBridge1.lean ====
/-
  From region 0's output to region 1's: the middle host stretch scales the first hidden features by the out-degree column,
  gathers them at the sources, scatter-sums them at the destinations, joins the input features with the hidden ones, and
  casts two bias vectors to rows — the reference's own operations on arrays already shown equal to the reference's stages.
  Region 1 then leaves the layer of those arrays: the reference's second rectified layer.
-/
import proofs.«175184_j50448685859072_1_alg».proof.Proof.IdealBridge0
import proofs.«175184_j50448685859072_1_alg».proof.Proof.IdealValue1

set_option maxRecDepth 16384

noncomputable section

namespace Cert.KernelIdeal.Fr

open Idealize.ShloMosaic Idealize.ShloMosaic.TcCoe Idealize.ShloMosaic.StableHlo
open Idealize.SL Idealize.SL.Sem
open Cert.KernelIdeal Cert.KernelIdeal.Gen Cert.GraphLayer
open Cert.ReferenceIdeal.Read (val_main_v11 val_main_v14 val_main_v17 val_main_v43 val_main_v55 val_main_v62 val_main_v70)

variable (m : (ℓ : Loc nD τ sig) → Buf (Elt Ideal) ℓ) (c : Dev nD)

theorem x6_v11 : X6 m c (Proc.devRef .tc main_v11) = val_main_v11 (F := Ideal) (A2 m c) := (X6_keep m c main_v11 (by decide)).trans (v5_v11 m c)
theorem x6_v14 : X6 m c (Proc.devRef .tc main_v14) = val_main_v14 (F := Ideal) (A1 m c) := (X6_keep m c main_v14 (by decide)).trans (v5_v14 m c)
theorem x6_v17 : X6 m c (Proc.devRef .tc main_v17) = val_main_v17 (F := Ideal) (A2 m c) := (X6_keep m c main_v17 (by decide)).trans (v5_v17 m c)
theorem x6_a0 : X6 m c (Proc.devRef .tc main_arg0) = A0 m c := (X6_keep m c main_arg0 (by decide)).trans (v5_a0 m c)
theorem x6_a1 : X6 m c (Proc.devRef .tc main_arg1) = A1 m c := (X6_keep m c main_arg1 (by decide)).trans (v5_a1 m c)
theorem x6_a2 : X6 m c (Proc.devRef .tc main_arg2) = A2 m c := (X6_keep m c main_arg2 (by decide)).trans (v5_a2 m c)
theorem x6_a7 : X6 m c (Proc.devRef .tc main_arg7) = A7 m c := (X6_keep m c main_arg7 (by decide)).trans ((V5_of m c main_arg7 (by decide)).trans <| (V4_of m c main_arg7 (by decide)).trans <| (V3_of m c main_arg7 (by decide)).trans <| (V2_of m c main_arg7 (by decide)).trans <| (V1_of m c main_arg7 (by decide)).trans <| rfl)
theorem x6_a8 : X6 m c (Proc.devRef .tc main_arg8) = A8 m c := (X6_keep m c main_arg8 (by decide)).trans ((V5_of m c main_arg8 (by decide)).trans <| (V4_of m c main_arg8 (by decide)).trans <| (V3_of m c main_arg8 (by decide)).trans <| (V2_of m c main_arg8 (by decide)).trans <| (V1_of m c main_arg8 (by decide)).trans <| rfl)
theorem x6_a9 : X6 m c (Proc.devRef .tc main_arg9) = A9 m c := (X6_keep m c main_arg9 (by decide)).trans ((V5_of m c main_arg9 (by decide)).trans <| (V4_of m c main_arg9 (by decide)).trans <| (V3_of m c main_arg9 (by decide)).trans <| (V2_of m c main_arg9 (by decide)).trans <| (V1_of m c main_arg9 (by decide)).trans <| rfl)
theorem x6_a10 : X6 m c (Proc.devRef .tc main_arg10) = A10 m c := (X6_keep m c main_arg10 (by decide)).trans ((V5_of m c main_arg10 (by decide)).trans <| (V4_of m c main_arg10 (by decide)).trans <| (V3_of m c main_arg10 (by decide)).trans <| (V2_of m c main_arg10 (by decide)).trans <| (V1_of m c main_arg10 (by decide)).trans <| rfl)
theorem x6_a11 : X6 m c (Proc.devRef .tc main_arg11) = A11 m c := (X6_keep m c main_arg11 (by decide)).trans ((V5_of m c main_arg11 (by decide)).trans <| (V4_of m c main_arg11 (by decide)).trans <| (V3_of m c main_arg11 (by decide)).trans <| (V2_of m c main_arg11 (by decide)).trans <| (V1_of m c main_arg11 (by decide)).trans <| rfl)
theorem x6_a12 : X6 m c (Proc.devRef .tc main_arg12) = A12 m c := (X6_keep m c main_arg12 (by decide)).trans ((V5_of m c main_arg12 (by decide)).trans <| (V4_of m c main_arg12 (by decide)).trans <| (V3_of m c main_arg12 (by decide)).trans <| (V2_of m c main_arg12 (by decide)).trans <| (V1_of m c main_arg12 (by decide)).trans <| rfl)
theorem x6_a13 : X6 m c (Proc.devRef .tc main_arg13) = A13 m c := (X6_keep m c main_arg13 (by decide)).trans ((V5_of m c main_arg13 (by decide)).trans <| (V4_of m c main_arg13 (by decide)).trans <| (V3_of m c main_arg13 (by decide)).trans <| (V2_of m c main_arg13 (by decide)).trans <| (V1_of m c main_arg13 (by decide)).trans <| rfl)
theorem x6_a14 : X6 m c (Proc.devRef .tc main_arg14) = A14 m c := (X6_keep m c main_arg14 (by decide)).trans ((V5_of m c main_arg14 (by decide)).trans <| (V4_of m c main_arg14 (by decide)).trans <| (V3_of m c main_arg14 (by decide)).trans <| (V2_of m c main_arg14 (by decide)).trans <| (V1_of m c main_arg14 (by decide)).trans <| rfl)

theorem v7_v44 : E7 m c main_v44 = val_main_v55 (F := Ideal) (A0 m c) (A1 m c) (A2 m c) (A3 m c) (A4 m c) (A5 m c) (A6 m c) := by
  show StableHlo.after hostOps1 (X6 m c) (Proc.devRef .tc main_v44) = _
  have ho := out0 m c
  have h14 := x6_v14 m c
  have ha1 := x6_a1 m c
  have ha2 := x6_a2 m c
  generalize X6 m c = W at ho h14 ha1 ha2 ⊢
  after_results_simp
  rw [ho, h14, ha1, ha2]
  rfl

theorem v7_v45 : E7 m c main_v45 = val_main_v62 (F := Ideal) (A0 m c) (A1 m c) (A2 m c) (A3 m c) (A4 m c) (A5 m c) (A6 m c) := by
  show StableHlo.after hostOps1 (X6 m c) (Proc.devRef .tc main_v45) = _
  have ho := out0 m c
  have ha0 := x6_a0 m c
  generalize X6 m c = W at ho ha0 ⊢
  after_results
  rw [ho, ha0]
  rfl
theorem v7_v46 : E7 m c main_v46 = shapeCast S1x128 (A8 m c) shapeCasts_S128_S1x128 := by
  show StableHlo.after hostOps1 (X6 m c) (Proc.devRef .tc main_v46) = _
  have ha8 := x6_a8 m c
  generalize X6 m c = W at ha8 ⊢
  after_results_simp
  rw [ha8]
  rfl
theorem v7_v47 : E7 m c main_v47 = shapeCast S1x128 (A10 m c) shapeCasts_S128_S1x128 := by
  show StableHlo.after hostOps1 (X6 m c) (Proc.devRef .tc main_v47) = _
  have ha10 := x6_a10 m c
  generalize X6 m c = W at ha10 ⊢
  after_results_simp
  rw [ha10]
  rfl
theorem v7_v11 : E7 m c main_v11 = val_main_v11 (F := Ideal) (A2 m c) :=
  (StableHlo.after_of_writes_sub hostOps1 _ hostOps1_writes (by decide : main_v11 ∉ hostOps1_W)).trans (x6_v11 m c)
theorem v7_v17 : E7 m c main_v17 = val_main_v17 (F := Ideal) (A2 m c) :=
  (StableHlo.after_of_writes_sub hostOps1 _ hostOps1_writes (by decide : main_v17 ∉ hostOps1_W)).trans (x6_v17 m c)
theorem v7_a7 : E7 m c main_arg7 = A7 m c :=
  (StableHlo.after_of_writes_sub hostOps1 _ hostOps1_writes (by decide : main_arg7 ∉ hostOps1_W)).trans (x6_a7 m c)
theorem v7_a9 : E7 m c main_arg9 = A9 m c :=
  (StableHlo.after_of_writes_sub hostOps1 _ hostOps1_writes (by decide : main_arg9 ∉ hostOps1_W)).trans (x6_a9 m c)

/-- Region 1 leaves the reference's second rectified layer. -/
theorem out1 : X8 m c (Proc.devRef .tc main_v48) = val_main_v70 (F := Ideal) (A0 m c) (A1 m c) (A2 m c) (A3 m c) (A4 m c) (A5 m c) (A6 m c) (A7 m c) (A8 m c) (A9 m c) (A10 m c) := by
  refine (X8_arr m c 8).trans ((final1 (E7 m) c).trans ?_)
  unfold G1
  rw [v7_v44 m c, v7_v11 m c, v7_a7 m c, v7_v46 m c, v7_v45 m c, v7_a9 m c, v7_v47 m c, v7_v17 m c]
  exact (Cert.RefLayers.layer1 shapeCasts_S128_S1x128 (A0 m c) (A1 m c) (A2 m c) (A3 m c) (A4 m c) (A5 m c) (A6 m c) (A7 m c) (A8 m c) (A9 m c) (A10 m c)).symm

end Cert.KernelIdeal.Fr

end
-- ==== Proof.IdealValue2.lean ====
/-
  What region 2 leaves in its output array, over the extended reals: the layer's value of the arrays the
  region is entered with. The body's one stored value is the layer of the eight input blocks (`pay2_eq`); at grid point
  `t` the row-blocked windows (the aggregated messages, the two degree columns, the concatenated features, the output) sit
  at rows `2000·t … 2000·t + 1999` and the weight and bias windows are their whole arrays (`idx_facts2`, decided over the
  grid); an entry of the layer reads one row, so what point `t` writes back is block `t` of the whole arrays' layer
  (`flushed2_eq`); the 25 blocks cover the 50000 rows, so the array ends holding that layer (`final2`).
-/
import proofs.«175184_j50448685859072_1_alg».proof.Proof.IdealRegion2
import proofs.«175184_j50448685859072_1_alg».proof.Proof.GraphLayer
import Idealize.ShloMosaic.Lib.Pipeline.Value

set_option maxRecDepth 16384

noncomputable section

namespace Cert.KernelIdeal.Fr

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.GraphLayer

variable (V : (c : Dev nD) → (b : Ref sig .tc) → Buf (Elt Ideal) ((c : Thread nD τ).loc b))

theorem hz2 : (![0, 0] : Fin 2 → Nat) = fun _ => 0 := funext fun a => by fin_cases a <;> rfl

/-- The body's stored value is the layer of the blocks it loaded. -/
theorem pay2_eq (x0 : FVec Ideal S2000x128 .f32) (x1 : FVec Ideal S2000x1 .f32) (x2 : FVec Ideal S128x128 .f32) (x3 : FVec Ideal S1x128 .f32) (x4 : FVec Ideal S2000x384 .f32) (x5 : FVec Ideal S384x128 .f32) (x6 : FVec Ideal S1x128 .f32) (x7 : FVec Ideal S2000x1 .f32) :
    k2_pay1 (F := Ideal) x0 x1 x2 x3 x4 x5 x6 x7 = layer (n := 2000) (C := 384) x0 x1 x2 x3 x4 x5 x6 x7 :=
  (body_eq dot_S2000x128_S128x128_S2000x128_1_0_0_1_n_n rfl dot_S2000x384_S384x128_S2000x128_1_0_0_1_n_n rfl _ _ _ _ _ _ x0 x1 x2 x3 (shapeCast S2000x384 x4 shapeCasts_S2000x384_S2000x384) x5 x6 x7).trans (by rw [shapeCast_self])

/-- The printed index maps, decided over the grid. -/
theorem idx_facts2 : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = t.val
    ∧ win2_4.index t (1 : Fin 2) = 0
    ∧ win2_5.index t (0 : Fin 2) = 0
    ∧ win2_5.index t (1 : Fin 2) = 0
    ∧ win2_6.index t (0 : Fin 2) = 0
    ∧ win2_6.index t (1 : Fin 2) = 0
    ∧ win2_7.index t (0 : Fin 2) = t.val
    ∧ win2_7.index t (1 : Fin 2) = 0
    ∧ win2_8.index t (0 : Fin 2) = t.val
    ∧ win2_8.index t (1 : Fin 2) = 0 :=
  (by decide +kernel : ∀ t : Fin grid2.N, _)

/-- The layer of the arrays the region is entered with. -/
def G2 (c : Dev nD) : FVec Ideal S50000x128 .f32 :=
  layer (n := 50000) (C := 384) (V c main_v60) (V c main_v11) (V c main_arg11) (V c main_v62) (V c main_v61) (V c main_arg13) (V c main_v63) (V c main_v17)

set_option maxHeartbeats 4000000 in
/-- What point `t` writes back is block `t` of `G2`. -/
theorem flushed2_eq (c : Dev nD) (t : Fin cfg2.N) :
    (dat2 V c).flushed 8 t = ((cfg2.win 8).blk t).view.read (Elt Ideal) (G2 V c) := by
  show (cfg2.win 8).cut (grid2.coords t) ((dat2 V c).after 8 t) = _
  rw [after2_8]
  unfold out2_8
  rw [View.canon_unit_zero hz2]
  simp only [View.ld_unit_zero (S := S2000x128) hz2, View.ld_unit_zero (S := S2000x1) hz2, View.ld_unit_zero (S := S128x128) hz2, View.ld_unit_zero (S := S1x128) hz2, View.ld_unit_zero (S := S2000x384) hz2, View.ld_unit_zero (S := S384x128) hz2]
  rw [pay2_eq]
  obtain ⟨e00, e01, e10, e11, e20, e21, e30, e31, e40, e41, e50, e51, e60, e61, e70, e71, e80, e81⟩ := idx_facts2 t
  have hN : cfg2.N = 25 := N_2
  have ht : t.val < 25 := hN ▸ t.isLt
  funext j
  obtain ⟨p, q, rfl⟩ : ∃ (p : Fin 2000) (q : Fin 128), j = ix2 p q := ⟨j 0, j 1, eq_ix2 j⟩
  have hr : t.val * 2000 + p.val < 50000 := by have := p.isLt; omega
  rw [View.read_apply]
  have hemb : ((cfg2.win 8).blk t).view.emb (ix2 p q) = ix2 (⟨t.val * 2000 + p.val, hr⟩ : Fin 50000) q := by
    funext a; apply Fin.ext
    match a with
    | ⟨0, _⟩ => show win2_8.index t (0 : Fin 2) * 2000 + 1 * p.val = t.val * 2000 + p.val; rw [e80]; omega
    | ⟨1, _⟩ => show win2_8.index t (1 : Fin 2) * 128 + 1 * q.val = q.val; rw [e81]; omega
  rw [hemb]
  unfold G2
  refine layer_entry (n := 50000) (M := 2000) (C := 384) (V c main_v60) (V c main_v11) (V c main_arg11) (V c main_v62) (V c main_v61) (V c main_arg13) (V c main_v63) (V c main_v17)
    (iblk2 V c 0 t) (iblk2 V c 1 t) (iblk2 V c 2 t) (iblk2 V c 3 t) (iblk2 V c 4 t) (iblk2 V c 5 t) (iblk2 V c 6 t) (iblk2 V c 7 t)
    p ⟨t.val * 2000 + p.val, hr⟩ q ?_ ?_ ?_ ?_ ?_ ?_ ?_ ?_
  · intro k
    show (V c main_v60 : FVec Ideal S50000x128 .f32) (((cfg2.win 0).blk t).view.emb (ix2 p k)) = _
    refine congrArg (V c main_v60 : FVec Ideal S50000x128 .f32) ?_
    funext a; apply Fin.ext
    match a with
    | ⟨0, _⟩ => show win2_0.index t (0 : Fin 2) * 2000 + 1 * p.val = t.val * 2000 + p.val; rw [e00]; omega
    | ⟨1, _⟩ => show win2_0.index t (1 : Fin 2) * 128 + 1 * k.val = k.val; rw [e01]; omega
  · show (V c main_v11 : FVec Ideal S50000x1 .f32) (((cfg2.win 1).blk t).view.emb (ix2 p (0 : Fin 1))) = _
    refine congrArg (V c main_v11 : FVec Ideal S50000x1 .f32) ?_
    funext a; apply Fin.ext
    match a with
    | ⟨0, _⟩ => show win2_1.index t (0 : Fin 2) * 2000 + 1 * p.val = t.val * 2000 + p.val; rw [e10]; omega
    | ⟨1, _⟩ => show win2_1.index t (1 : Fin 2) * 1 + 1 * (0 : Fin 1).val = (0 : Fin 1).val; rw [e11]; omega
  · intro k
    show (V c main_arg11 : FVec Ideal S128x128 .f32) (((cfg2.win 2).blk t).view.emb (ix2 k q)) = _
    refine congrArg (V c main_arg11 : FVec Ideal S128x128 .f32) ?_
    funext a; apply Fin.ext
    match a with
    | ⟨0, _⟩ => show win2_2.index t (0 : Fin 2) * 128 + 1 * k.val = k.val; rw [e20]; omega
    | ⟨1, _⟩ => show win2_2.index t (1 : Fin 2) * 128 + 1 * q.val = q.val; rw [e21]; omega
  · show (V c main_v62 : FVec Ideal S1x128 .f32) (((cfg2.win 3).blk t).view.emb (ix2 (0 : Fin 1) q)) = _
    refine congrArg (V c main_v62 : FVec Ideal S1x128 .f32) ?_
    funext a; apply Fin.ext
    match a with
    | ⟨0, _⟩ => show win2_3.index t (0 : Fin 2) * 1 + 1 * (0 : Fin 1).val = (0 : Fin 1).val; rw [e30]; omega
    | ⟨1, _⟩ => show win2_3.index t (1 : Fin 2) * 128 + 1 * q.val = q.val; rw [e31]; omega
  · intro k
    show (V c main_v61 : FVec Ideal S50000x384 .f32) (((cfg2.win 4).blk t).view.emb (ix2 p k)) = _
    refine congrArg (V c main_v61 : FVec Ideal S50000x384 .f32) ?_
    funext a; apply Fin.ext
    match a with
    | ⟨0, _⟩ => show win2_4.index t (0 : Fin 2) * 2000 + 1 * p.val = t.val * 2000 + p.val; rw [e40]; omega
    | ⟨1, _⟩ => show win2_4.index t (1 : Fin 2) * 384 + 1 * k.val = k.val; rw [e41]; omega
  · intro k
    show (V c main_arg13 : FVec Ideal S384x128 .f32) (((cfg2.win 5).blk t).view.emb (ix2 k q)) = _
    refine congrArg (V c main_arg13 : FVec Ideal S384x128 .f32) ?_
    funext a; apply Fin.ext
    match a with
    | ⟨0, _⟩ => show win2_5.index t (0 : Fin 2) * 384 + 1 * k.val = k.val; rw [e50]; omega
    | ⟨1, _⟩ => show win2_5.index t (1 : Fin 2) * 128 + 1 * q.val = q.val; rw [e51]; omega
  · show (V c main_v63 : FVec Ideal S1x128 .f32) (((cfg2.win 6).blk t).view.emb (ix2 (0 : Fin 1) q)) = _
    refine congrArg (V c main_v63 : FVec Ideal S1x128 .f32) ?_
    funext a; apply Fin.ext
    match a with
    | ⟨0, _⟩ => show win2_6.index t (0 : Fin 2) * 1 + 1 * (0 : Fin 1).val = (0 : Fin 1).val; rw [e60]; omega
    | ⟨1, _⟩ => show win2_6.index t (1 : Fin 2) * 128 + 1 * q.val = q.val; rw [e61]; omega
  · show (V c main_v17 : FVec Ideal S50000x1 .f32) (((cfg2.win 7).blk t).view.emb (ix2 p (0 : Fin 1))) = _
    refine congrArg (V c main_v17 : FVec Ideal S50000x1 .f32) ?_
    funext a; apply Fin.ext
    match a with
    | ⟨0, _⟩ => show win2_7.index t (0 : Fin 2) * 2000 + 1 * p.val = t.val * 2000 + p.val; rw [e70]; omega
    | ⟨1, _⟩ => show win2_7.index t (1 : Fin 2) * 1 + 1 * (0 : Fin 1).val = (0 : Fin 1).val; rw [e71]; omega

/-- The output array after the region: the layer of the entry arrays. -/
theorem final2 (c : Dev nD) : (dat2 V c).arrAt 8 cfg2.N = G2 V c :=
  (dat2 V c).arrAt_eq_of_cover 8 (G2 V c) (fun t _ => flushed2_eq V c t) fun i => by
    have hN : cfg2.N = 25 := N_2
    have hi0 : (i 0).val < 50000 := (i 0).isLt
    have hi1 : (i 1).val < 128 := (i 1).isLt
    have hlt : (i 0).val / 2000 < cfg2.N := by rw [hN]; omega
    refine ⟨⟨(i 0).val / 2000, hlt⟩, flush2_8 _, ?_⟩
    obtain ⟨e00, e01, e10, e11, e20, e21, e30, e31, e40, e41, e50, e51, e60, e61, e70, e71, e80, e81⟩ := idx_facts2 ⟨(i 0).val / 2000, hlt⟩
    show i ∈ ((View.whole main_v64).slice (win2_8.rect ⟨(i 0).val / 2000, hlt⟩)).set
    rw [View.set_slice_whole, Rect.mem_set_unit]
    intro a
    match a with
    | ⟨0, _⟩ =>
      show win2_8.index ⟨(i 0).val / 2000, hlt⟩ (0 : Fin 2) * 2000 ≤ (i 0).val ∧ (i 0).val < win2_8.index ⟨(i 0).val / 2000, hlt⟩ (0 : Fin 2) * 2000 + 2000
      rw [e80]; show (i 0).val / 2000 * 2000 ≤ (i 0).val ∧ (i 0).val < (i 0).val / 2000 * 2000 + 2000; omega
    | ⟨1, _⟩ =>
      show win2_8.index ⟨(i 0).val / 2000, hlt⟩ (1 : Fin 2) * 128 ≤ (i 1).val ∧ (i 1).val < win2_8.index ⟨(i 0).val / 2000, hlt⟩ (1 : Fin 2) * 128 + 128
      rw [e81]; omega

end Cert.KernelIdeal.Fr

end
-- ==== Proof.IdealBridge2.lean ====
/-
  From region 1's output to the result: the last host stretch repeats the scale, gather and scatter-sum on the second
  hidden features and joins the input features with both hidden arrays — the reference's own operations on equal arrays —,
  and region 2 leaves the unrectified third layer: the reference's last stage of the launch arguments.
-/
import proofs.«175184_j50448685859072_1_alg».proof.Proof.IdealBridge1
import proofs.«175184_j50448685859072_1_alg».proof.Proof.IdealValue2

set_option maxRecDepth 16384

noncomputable section

namespace Cert.KernelIdeal.Fr

open Idealize.ShloMosaic Idealize.ShloMosaic.TcCoe Idealize.ShloMosaic.StableHlo
open Idealize.SL Idealize.SL.Sem
open Cert.KernelIdeal Cert.KernelIdeal.Gen Cert.GraphLayer
open Cert.ReferenceIdeal.Read (val_main_v11 val_main_v14 val_main_v17 val_main_v43 val_main_v70 val_main_v82 val_main_v89 val_main_v96)

variable (m : (ℓ : Loc nD τ sig) → Buf (Elt Ideal) ℓ) (c : Dev nD)

/-- A three-operand operation over a literal family of references: its result with each operand's contents at its own
    reference, so that reading on through the earlier operations can go under it. -/
theorem nary3_result {x a b y : Ref sig .tc}
    (f : ((k : Fin 3) → ((![x, a, b] : Fin 3 → Ref sig .tc) k).ty.Contents (Elt Ideal)) → y.ty.Contents (Elt Ideal)) (hxs hy)
    (F : Valuation τ sig (Elt Ideal)) :
    (StableHlo.nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [StableHlo.nary_result]; congr 1; funext k; fin_cases k <;> rfl

/-- A buffer the middle stretch does not write and region 1 does not change holds after region 1 what it held after region 0. -/
theorem x8_of_x6 (b : Ref sig .tc) (h8 : b ≠ main_v48) (h1 : b ∉ hostOps1_W) :
    X8 m c (Proc.devRef .tc b) = X6 m c (Proc.devRef .tc b) :=
  (X8_keep m c b h8).trans (StableHlo.after_of_writes_sub hostOps1 _ hostOps1_writes h1)

theorem x8_v32 : X8 m c (Proc.devRef .tc main_v32) = val_main_v43 (F := Ideal) (A0 m c) (A1 m c) (A2 m c) (A3 m c) (A4 m c) (A5 m c) (A6 m c) := (x8_of_x6 m c main_v32 (by decide) (by decide)).trans (out0 m c)
theorem x8_v11 : X8 m c (Proc.devRef .tc main_v11) = val_main_v11 (F := Ideal) (A2 m c) := (x8_of_x6 m c main_v11 (by decide) (by decide)).trans (x6_v11 m c)
theorem x8_v14 : X8 m c (Proc.devRef .tc main_v14) = val_main_v14 (F := Ideal) (A1 m c) := (x8_of_x6 m c main_v14 (by decide) (by decide)).trans (x6_v14 m c)
theorem x8_v17 : X8 m c (Proc.devRef .tc main_v17) = val_main_v17 (F := Ideal) (A2 m c) := (x8_of_x6 m c main_v17 (by decide) (by decide)).trans (x6_v17 m c)
theorem x8_a0 : X8 m c (Proc.devRef .tc main_arg0) = A0 m c := (x8_of_x6 m c main_arg0 (by decide) (by decide)).trans (x6_a0 m c)
theorem x8_a1 : X8 m c (Proc.devRef .tc main_arg1) = A1 m c := (x8_of_x6 m c main_arg1 (by decide) (by decide)).trans (x6_a1 m c)
theorem x8_a2 : X8 m c (Proc.devRef .tc main_arg2) = A2 m c := (x8_of_x6 m c main_arg2 (by decide) (by decide)).trans (x6_a2 m c)
theorem x8_a11 : X8 m c (Proc.devRef .tc main_arg11) = A11 m c := (x8_of_x6 m c main_arg11 (by decide) (by decide)).trans (x6_a11 m c)
theorem x8_a12 : X8 m c (Proc.devRef .tc main_arg12) = A12 m c := (x8_of_x6 m c main_arg12 (by decide) (by decide)).trans (x6_a12 m c)
theorem x8_a13 : X8 m c (Proc.devRef .tc main_arg13) = A13 m c := (x8_of_x6 m c main_arg13 (by decide) (by decide)).trans (x6_a13 m c)
theorem x8_a14 : X8 m c (Proc.devRef .tc main_arg14) = A14 m c := (x8_of_x6 m c main_arg14 (by decide) (by decide)).trans (x6_a14 m c)

theorem v9_v60 : E9 m c main_v60 = val_main_v82 (F := Ideal) (A0 m c) (A1 m c) (A2 m c) (A3 m c) (A4 m c) (A5 m c) (A6 m c) (A7 m c) (A8 m c) (A9 m c) (A10 m c) := by
  show StableHlo.after hostOps2 (X8 m c) (Proc.devRef .tc main_v60) = _
  have ho := out1 m c
  have h14 := x8_v14 m c
  have ha1 := x8_a1 m c
  have ha2 := x8_a2 m c
  generalize X8 m c = W at ho h14 ha1 ha2 ⊢
  after_results_simp
  rw [ho, h14, ha1, ha2]
  rfl

theorem v9_v61 : E9 m c main_v61 = val_main_v89 (F := Ideal) (A0 m c) (A1 m c) (A2 m c) (A3 m c) (A4 m c) (A5 m c) (A6 m c) (A7 m c) (A8 m c) (A9 m c) (A10 m c) := by
  show StableHlo.after hostOps2 (X8 m c) (Proc.devRef .tc main_v61) = _
  have ho := out1 m c
  have h32 := x8_v32 m c
  have ha0 := x8_a0 m c
  generalize X8 m c = W at ho h32 ha0 ⊢
  simp only [StableHlo.after_cons, StableHlo.after_nil]
  repeat (first
    | rw [nary3_result]
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide)
    | (rw [nary_result_ne]; rotate_left; decide))
  rw [ho, h32, ha0]
  rfl
theorem v9_v62 : E9 m c main_v62 = shapeCast S1x128 (A12 m c) shapeCasts_S128_S1x128 := by
  show StableHlo.after hostOps2 (X8 m c) (Proc.devRef .tc main_v62) = _
  have ha12 := x8_a12 m c
  generalize X8 m c = W at ha12 ⊢
  after_results_simp
  rw [ha12]
  rfl
theorem v9_v63 : E9 m c main_v63 = shapeCast S1x128 (A14 m c) shapeCasts_S128_S1x128 := by
  show StableHlo.after hostOps2 (X8 m c) (Proc.devRef .tc main_v63) = _
  have ha14 := x8_a14 m c
  generalize X8 m c = W at ha14 ⊢
  after_results_simp
  rw [ha14]
  rfl
theorem v9_v11 : E9 m c main_v11 = val_main_v11 (F := Ideal) (A2 m c) :=
  (StableHlo.after_of_writes_sub hostOps2 _ hostOps2_writes (by decide : main_v11 ∉ hostOps2_W)).trans (x8_v11 m c)
theorem v9_v17 : E9 m c main_v17 = val_main_v17 (F := Ideal) (A2 m c) :=
  (StableHlo.after_of_writes_sub hostOps2 _ hostOps2_writes (by decide : main_v17 ∉ hostOps2_W)).trans (x8_v17 m c)
theorem v9_a11 : E9 m c main_arg11 = A11 m c :=
  (StableHlo.after_of_writes_sub hostOps2 _ hostOps2_writes (by decide : main_arg11 ∉ hostOps2_W)).trans (x8_a11 m c)
theorem v9_a13 : E9 m c main_arg13 = A13 m c :=
  (StableHlo.after_of_writes_sub hostOps2 _ hostOps2_writes (by decide : main_arg13 ∉ hostOps2_W)).trans (x8_a13 m c)

/-- THE RESULT: region 2 leaves the reference's last stage of the launch arguments. -/
theorem out2 : X10 m c (Proc.devRef .tc main_v64) = val_main_v96 (F := Ideal) (A0 m c) (A1 m c) (A2 m c) (A3 m c) (A4 m c) (A5 m c) (A6 m c) (A7 m c) (A8 m c) (A9 m c) (A10 m c) (A11 m c) (A12 m c) (A13 m c) (A14 m c) := by
  refine (X10_arr m c 8).trans ((final2 (E9 m) c).trans ?_)
  unfold G2
  rw [v9_v60 m c, v9_v11 m c, v9_a11 m c, v9_v62 m c, v9_v61 m c, v9_a13 m c, v9_v63 m c, v9_v17 m c]
  exact (Cert.RefLayers.layer2 shapeCasts_S128_S1x128 (A0 m c) (A1 m c) (A2 m c) (A3 m c) (A4 m c) (A5 m c) (A6 m c) (A7 m c) (A8 m c) (A9 m c) (A10 m c) (A11 m c) (A12 m c) (A13 m c) (A14 m c)).symm

end Cert.KernelIdeal.Fr

end
-- ==== Proof.lean ====
/-
  Three graph-convolution layers with concatenated skip features: the kernel program (the scatter / gather aggregation on
  the host, each layer's two matrix products, biases, degree scalings and rectifier fused in one pallas_call over 25 blocks
  of 2000 nodes) against the plain jnp reference.

  Frames. The kernel program, at the word level and idealized, is run as ten segments — seven host stretches and the three
  regions (`WordRun`, `IdealRun`: each region's body by symbolic execution, its proof data, its record over "every unscoped
  buffer at the boundary's contents") —, and no host operation and no region writes an argument. The reference's frame is
  its generated run with the result dropped.

  preserves. The ideal pass rewrote nothing: the claim is `True`.

  algebraic. Over the extended reals the kernel program's result array is the third layer of the arrays region 2 is entered
  with (`IdealValue2`), and walking back through the host stretches and the earlier regions every array met is the
  reference's stage of the same meaning, because the host operations are the reference's own and each region's layer is the
  reference's layer entry by entry — the same sums and products in the same order (`GraphLayer`, `RefLayers`, `IdealBridge0`–`IdealBridge2`).
  No law that needs finiteness is used, so the precondition is never opened.
-/
import proofs.«175184_j50448685859072_1_alg».proof.Defs
import proofs.«175184_j50448685859072_1_alg».proof.Proof.Gen.Kernel
import proofs.«175184_j50448685859072_1_alg».proof.Proof.Gen.KernelIdeal
import proofs.«175184_j50448685859072_1_alg».proof.Proof.Gen.ReferenceIdeal
import proofs.«175184_j50448685859072_1_alg».proof.Proof.Gen.ReferenceIdeal.Run
import proofs.«175184_j50448685859072_1_alg».proof.Proof.Gen.ReferenceIdeal.Read
import proofs.«175184_j50448685859072_1_alg».proof.Proof.Gen.Pre_finite_inputs
import proofs.«175184_j50448685859072_1_alg».proof.Proof.WordRun
import proofs.«175184_j50448685859072_1_alg».proof.Proof.IdealBridge2
import Idealize.ShloMosaic.Adequacy
import Idealize.ShloMosaic.Init

set_option maxRecDepth 16384

noncomputable section

namespace Cert.Proof

open Idealize.ShloMosaic Idealize.ShloMosaic.TcCoe Idealize.SL.Sem

theorem frame_word : Cert.frame_Kernel := fun m ρ _ => Cert.Kernel.Fr.frame m ρ

theorem frame_ideal : Cert.frame_KernelIdeal := fun m ρ _ => Cert.KernelIdeal.Fr.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at the reference's last stage of the (agreeing) arguments. -/
theorem algebraic : Cert.algebraic_KernelIdeal_ReferenceIdeal := by
  intro m ρ m' ρ' _ hagree
  refine ⟨fun c => Cert.ReferenceIdeal.Read.val_main_v96 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · exact (θ_run Cert.KernelIdeal.defs _ _).mono (fun r h c =>
      ⟨(h c _ (Cert.KernelIdeal.Fr.mem_uc Cert.KernelIdeal.main_v64 (by decide))).trans (Cert.KernelIdeal.Fr.out2 m c),
       (h c _ (Cert.KernelIdeal.Fr.mem_uc Cert.KernelIdeal.main_arg0 (by decide))).trans (Cert.KernelIdeal.Fr.X10_main_arg0 m c),
       (h c _ (Cert.KernelIdeal.Fr.mem_uc Cert.KernelIdeal.main_arg1 (by decide))).trans (Cert.KernelIdeal.Fr.X10_main_arg1 m c),
       (h c _ (Cert.KernelIdeal.Fr.mem_uc Cert.KernelIdeal.main_arg2 (by decide))).trans (Cert.KernelIdeal.Fr.X10_main_arg2 m c),
       (h c _ (Cert.KernelIdeal.Fr.mem_uc Cert.KernelIdeal.main_arg3 (by decide))).trans (Cert.KernelIdeal.Fr.X10_main_arg3 m c),
       (h c _ (Cert.KernelIdeal.Fr.mem_uc Cert.KernelIdeal.main_arg4 (by decide))).trans (Cert.KernelIdeal.Fr.X10_main_arg4 m c),
       (h c _ (Cert.KernelIdeal.Fr.mem_uc Cert.KernelIdeal.main_arg5 (by decide))).trans (Cert.KernelIdeal.Fr.X10_main_arg5 m c),
       (h c _ (Cert.KernelIdeal.Fr.mem_uc Cert.KernelIdeal.main_arg6 (by decide))).trans (Cert.KernelIdeal.Fr.X10_main_arg6 m c),
       (h c _ (Cert.KernelIdeal.Fr.mem_uc Cert.KernelIdeal.main_arg7 (by decide))).trans (Cert.KernelIdeal.Fr.X10_main_arg7 m c),
       (h c _ (Cert.KernelIdeal.Fr.mem_uc Cert.KernelIdeal.main_arg8 (by decide))).trans (Cert.KernelIdeal.Fr.X10_main_arg8 m c),
       (h c _ (Cert.KernelIdeal.Fr.mem_uc Cert.KernelIdeal.main_arg9 (by decide))).trans (Cert.KernelIdeal.Fr.X10_main_arg9 m c),
       (h c _ (Cert.KernelIdeal.Fr.mem_uc Cert.KernelIdeal.main_arg10 (by decide))).trans (Cert.KernelIdeal.Fr.X10_main_arg10 m c),
       (h c _ (Cert.KernelIdeal.Fr.mem_uc Cert.KernelIdeal.main_arg11 (by decide))).trans (Cert.KernelIdeal.Fr.X10_main_arg11 m c),
       (h c _ (Cert.KernelIdeal.Fr.mem_uc Cert.KernelIdeal.main_arg12 (by decide))).trans (Cert.KernelIdeal.Fr.X10_main_arg12 m c),
       (h c _ (Cert.KernelIdeal.Fr.mem_uc Cert.KernelIdeal.main_arg13 (by decide))).trans (Cert.KernelIdeal.Fr.X10_main_arg13 m c),
       (h c _ (Cert.KernelIdeal.Fr.mem_uc Cert.KernelIdeal.main_arg14 (by decide))).trans (Cert.KernelIdeal.Fr.X10_main_arg14 m c)⟩)
      (Cert.KernelIdeal.Fr.run_all m ρ)
  · refine (θ_run Cert.ReferenceIdeal.defs _ _).mono (fun _ h c => ⟨(h c).1.trans ?_, (h c).2⟩) (Cert.ReferenceIdeal.Value.run (F := Ideal) m' ρ')
    rw [Cert.ReferenceIdeal.Read.val_main_v96_eq]
    obtain ⟨e0, e1, e2, e3, e4, e5, e6, e7, e8, e9, e10, e11, e12, e13, e14⟩ := hagree c
    rw [e0, e1, e2, e3, e4, e5, e6, e7, e8, e9, e10, e11, e12, e13, e14]

theorem claim : Cert.Claim := ⟨Cert.Kernel.Gen.facts, Cert.KernelIdeal.Gen.facts, Cert.ReferenceIdeal.Gen.facts, Cert.Pre_finite_inputs.Gen.facts,
  frame_word, frame_ideal, frame_reference, preserves, algebraic⟩

end Cert.Proof

end
